-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S1 .f32) (main_arg1 : FVec F S2048x4096 .f32) (main_arg2 : FVec F S4096x4096 .f32) (main_arg3 : FVec F S4096 .f32) (main_arg4 : FVec F S4096x4096 .f32) (main_arg5 : FVec F S4096 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S1 : Shape := ⟨1, ![1]⟩
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 24
  | .smem => 0
  | _ => 0

abbrev bufTy : (tb : Table) → Fin (tcTables nBuf tb) → BufTy
  | .hbm, ⟨0, _⟩ => ⟨S1, .f32⟩
  | .hbm, ⟨1, _⟩ => ⟨S2048x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1x4096, .f32⟩
  | .hbm, ⟨7, _⟩ => ⟨S2048x4096, .bf16⟩
  | .hbm, ⟨8, _⟩ => ⟨S1x4096, .f32⟩
  | .hbm, ⟨9, _⟩ => ⟨S2048x4096, .f32⟩
  | .hbm, ⟨10, _⟩ => ⟨S2048x4096, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | .local _ .vmem, ⟨9, _⟩ => ⟨S1024x256, .bf16⟩
  | .local _ .vmem, ⟨10, _⟩ => ⟨S1024x256, .bf16⟩
  | .local _ .vmem, ⟨11, _⟩ => ⟨S2048x256, .f32⟩
  | .local _ .vmem, ⟨12, _⟩ => ⟨S2048x256, .f32⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | .local _ .vmem, ⟨18, _⟩ => ⟨S256x4096, .f32⟩
  | .local _ .vmem, ⟨19, _⟩ => ⟨S256x4096, .f32⟩
  | .local _ .vmem, ⟨20, _⟩ => ⟨S256x4096, .f32⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨3, ![2, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  shapeCasts_S1024x256_S1024x256 : S1024x256.ShapeCasts S1024x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x4096.size a
  hwx0_0 : ∀ i : grid0.Coords, EltTy.bits .f32 = 32 ∨ (Rect.block (s := S2048x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .f32 = 32 ∨ (Rect.block (s := S4096x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S2048x4096.size a
  hwx0_3 : ∀ i : grid0.Coords, EltTy.bits .bf16 = 32 ∨ (Rect.block (s := S2048x4096) S1024x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S2048x4096.size a
  hwx1_0 : ∀ i : grid1.Coords, EltTy.bits .bf16 = 32 ∨ (Rect.block (s := S2048x4096) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .f32 = 32 ∨ (Rect.block (s := S4096x4096) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S2048x4096.size a
  hwx1_3 : ∀ i : grid1.Coords, EltTy.bits .f32 = 32 ∨ (Rect.block (s := S2048x4096) S1024x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S2048x4096.size a
  hwx2_0 : ∀ i : grid2.Coords, EltTy.bits .f32 = 32 ∨ (Rect.block (s := S2048x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S2048x4096.size a
  hwx2_1 : ∀ i : grid2.Coords, EltTy.bits .f32 = 32 ∨ (Rect.block (s := S2048x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S2048x4096.size a
  hwx2_2 : ∀ i : grid2.Coords, EltTy.bits .f32 = 32 ∨ (Rect.block (s := S2048x4096) S256x4096.size (cc2_transform_2 i) (hinb2_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1 : Shape := ⟨1, ![1]⟩
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S2048 : Shape := ⟨1, ![2048]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S1, .f32⟩
  | .hbm, ⟨1, _⟩ => ⟨S2048x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S2048x4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S4096x4096, .f32⟩
  | .hbm, ⟨12, _⟩ => ⟨S2048x4096, .f32⟩
  | .hbm, ⟨13, _⟩ => ⟨S1x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x4096, .f32⟩
  | .hbm, ⟨21, _⟩ => ⟨S2048x4096, .f32⟩
  | .hbm, ⟨22, _⟩ => ⟨S2048x4096, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  reducesTo_S2048x4096_S2048_d1 : S2048x4096.ReducesTo [1] S2048
  h_S_ : 0 < S_.numel
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.K.Lin0Cases.lean ====
/-
  The first tiled linear layer (grid (i, j, k) = 2 × 2 × 16, point t = 32·i + 16·j + k): what its three control
  cases share. The body zeroes its accumulator when k = 0, adds the tile product at every k, and when k = 15 writes
  accumulator + bias row into the output block; so a point is in one of three cases — k = 0, 0 < k < 15, k = 15 —
  read off t % 16. Here: the two branch conditions in closed form over the 64 points, where the output window is
  idle (every point but k = 15, where it is also the only write-back), names for the staging memrefs the body is
  called with and for the accumulator, and the region invariant with the accumulator's buffer opened.
-/
import proofs.«159323_j55448027791577_2_alg».proof.Proof.Gen.Kernel.Launch
import proofs.«159323_j55448027791577_2_alg».proof.Proof.Gen.Kernel.Skeleton
import proofs.«159323_j55448027791577_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid -/

/-- The accumulator is zeroed at this point: the body's first condition, k = 0, as its scalar chain computes it. -/
abbrev zeroes (i : grid0.Coords) : Prop :=
  (Scalar.cmpi .ne (Scalar.extui (Scalar.cmpi .eq (BitVec.ofNat 32 (i 2).val) 0#32)) 0#32) = 1#1
/-- It holds exactly at the points with k = 0. -/
theorem zeroes_iff : ∀ t : Fin cfg0.N, zeroes (grid0.coords t) ↔ t.val % 16 = 0 :=
  (by decide +kernel : ∀ t : Fin grid0.N, zeroes (grid0.coords t) ↔ t.val % 16 = 0)

/-- The output block is written at this point: the body's second condition, k = 15. -/
abbrev emits (i : grid0.Coords) : Prop := k0_cond2 i = 1#1
/-- It holds exactly at the points with k = 15. -/
theorem emits_iff : ∀ t : Fin cfg0.N, emits (grid0.coords t) ↔ t.val % 16 = 15 :=
  (by decide +kernel : ∀ t : Fin grid0.N, emits (grid0.coords t) ↔ t.val % 16 = 15)

/-! ## Where the windows are idle -/

/-- The three inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Where k ≠ 15 the output window is idle and its block is not written back. -/
theorem idle3 : ∀ t : Fin cfg0.N, ¬emits (grid0.coords t) → cfg0.idle 3 (grid0.coords t) = true := by decide +kernel
theorem noFlush3 : ∀ t : Fin cfg0.N, ¬emits (grid0.coords t) → (cfg0.win 3).flush t = false := by decide +kernel
/-- Where k = 15 it is live. -/
theorem live3 : ∀ t : Fin cfg0.N, emits (grid0.coords t) → cfg0.idle 3 (grid0.coords t) = false := by decide +kernel

/-! ## The memrefs the body is called with -/

/-- One staging buffer of the output window, through which its contents are stated. -/
abbrev outV : View sig .tc .vmem S1024x2048 .bf16 := (Memref.whole cc0_stg3_0 : Memref sig .tc .vmem S1024x2048 .bf16).view
/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a whole scoped buffer of the kernel's own, passed beside the windows, and its view. -/
abbrev accM : Memref sig .tc .vmem S1024x2048 .f32 := Memref.whole cc0_scratch0
abbrev accV : View sig .tc .vmem S1024x2048 .f32 := accM.view

/-! ## The region invariant with the accumulator opened -/

/-- Every other scoped buffer of the core that is no staging buffer of this region (the other two regions' staging
    buffers and the second layer's accumulator), each at some contents: carried through the region unopened. -/
abbrev others (c : Dev nD) : sProp 𝕄 :=
  Pipeline.scopedRestBut (Ix := Unit) (Name := ℕ) (U := UR sig nD τ) (Lvl := ℕ) (Val := Elt F) spec0 c [cc0_scratch0]

/-- The class's invariant is: the accumulator owned at some contents, the other scoped buffers, the generator
    register at some state. -/
theorem PhiA_eq (c : Dev nD) :
    (Pipeline.ΦA spec0 c : sProp 𝕄)
      = iprop(iprop((∃ d, owns (c : Thread nD τ) accM fullShare d) ∗ others c) ∗ (∃ r, prngReg c r)) := by
  unfold Pipeline.ΦA
  rw [Pipeline.scopedRest_split_of_list (win := spec0) (c := c) [cc0_scratch0] (by decide) (by decide)]
  simp only [accM, owns_whole]
  rfl

end Cert.Kernel.Lin0

end
-- ==== Proof.K.Lin0RunFirst.lean ====
/-
  The linear layer's body at a point with k = 0 (the accumulator is zeroed, nothing is written out): run whole on
  any staging memrefs. Handed the three input blocks, the output buffer at any contents (returned untouched: the
  window is idle here) and the accumulator at anything, it ends with the inputs as they were and the accumulator
  holding its stores' pieces — first the zero block, then zero block + tile product.
-/
import proofs.«159323_j55448027791577_2_alg».proof.Proof.K.Lin0Cases

set_option maxRecDepth 16384

noncomputable section

namespace Cert.Kernel.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at a point with k = 0 (none in the output buffer), with the
    proof that the body runs to any continuation that holds the buffers so written. -/
noncomputable def runFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i)
    (x0 : Vec F S1024x256 .f32) (x1 : Vec F S2048x256 .f32) (x2 : Vec F S1x2048 .f32) :
    Σ' (L3 : List (View.Piece (Elt F) S1024x2048 .bf16)), { LS : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Lin0

end
-- ==== Proof.K.Lin0RunMid.lean ====
/-
  The linear layer's body at a point with 0 < k < 15 (the accumulator grows by the tile product, nothing is written
  out): run whole on any staging memrefs, the accumulator handed in at the contents the point before left.
-/
import proofs.«159323_j55448027791577_2_alg».proof.Proof.K.Lin0RunFirst

set_option maxRecDepth 16384

noncomputable section

namespace Cert.Kernel.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's one store leaves in the accumulator at a point with 0 < k < 15 (none in the output buffer),
    with the proof that the body runs to any continuation that holds the buffers so written. -/
noncomputable def runMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i)
    (x0 : Vec F S1024x256 .f32) (x1 : Vec F S2048x256 .f32) (x2 : Vec F S1x2048 .f32) (xs : Vec F S1024x2048 .f32) :
    Σ' (L3 : List (View.Piece (Elt F) S1024x2048 .bf16)), { LS : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Lin0

end
-- ==== Proof.K.Lin0RunLast.lean ====
/-
  The linear layer's body at a point with k = 15 (the accumulator takes its last tile product, then accumulator +
  bias row is written into the output block): run whole on any staging memrefs, the accumulator handed in at the
  contents the point before left, the output buffer at anything.
-/
import proofs.«159323_j55448027791577_2_alg».proof.Proof.K.Lin0RunMid

set_option maxRecDepth 16384

noncomputable section

namespace Cert.Kernel.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output buffer and in the accumulator at a point with k = 15, with the
    proof that the body runs to any continuation that holds the buffers so written. -/
noncomputable def runLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i)
    (x0 : Vec F S1024x256 .f32) (x1 : Vec F S2048x256 .f32) (x2 : Vec F S1x2048 .f32) (xs : Vec F S1024x2048 .f32) :
    Σ' (L3 : List (View.Piece (Elt F) S1024x2048 .bf16)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Lin0

end
-- ==== Proof.K.Lin0Data.lean ====
/-
  The first linear layer's region, as data for the pipeline's frame theorem, at the buffer contents `V` the region
  is entered with. What the accumulator and the output block hold after each grid point is defined by recursion on
  the point: at k = 0 the accumulator restarts from the zero block, at every other point it is the point before's
  accumulator plus this point's tile product, and at k = 15 the output block is that accumulator plus the bias row.
  The region's invariant holds the accumulator at exactly these contents between points (before the first point the
  class's own invariant: the accumulator at anything), beside every other scoped buffer unopened. With it the body
  meets its obligation at every point, and the invariant is entered from and returns to the class's own.
-/
import proofs.«159323_j55448027791577_2_alg».proof.Proof.K.Lin0RunLast

set_option maxRecDepth 16384

noncomputable section

namespace Cert.Kernel.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data over `V` whose body leaves the block in place. -/
theorem blockKept0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem blockKept1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem blockKept2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces read back -/

/-- At k = 0 nothing is stored into the output buffer: a placeholder nothing consults (the window is idle there). -/
def outFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i) (x0 : Vec F S1024x256 .f32) (x1 : Vec F S2048x256 .f32) (x2 : Vec F S1x2048 .f32) : Vec F S1024x2048 .bf16 :=
  outV.read (Elt F) (outV.writes (Elt F) outV.junk (runFirst c i arg3 harg3 arg4 harg4 arg5 harg5 arg6 harg6 arg7 harg7 hz he x0 x1 x2).1)
/-- The accumulator's pieces at k = 0 cover it. -/
theorem accCoverFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i) (x0 : Vec F S1024x256 .f32) (x1 : Vec F S2048x256 .f32) (x2 : Vec F S1x2048 .f32) (y : S1024x2048.Idx) : ∃ pc ∈ (runFirst c i arg3 harg3 arg4 harg4 arg5 harg5 arg6 harg6 arg7 harg7 hz he x0 x1 x2).2.1, y ∈ pc.1.set :=
  View.cover_of_tiledL (runFirst c i arg3 harg3 arg4 harg4 arg5 harg5 arg6 harg6 arg7 harg7 hz he x0 x1 x2).2.1 S1024x2048.size (by sl_kernel_rfl) y
/-- What the accumulator holds after a point with k = 0. -/
def accFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i) (x0 : Vec F S1024x256 .f32) (x1 : Vec F S2048x256 .f32) (x2 : Vec F S1x2048 .f32) : Vec F S1024x2048 .f32 :=
  accV.read (Elt F) (accV.writes (Elt F) accV.junk (runFirst c i arg3 harg3 arg4 harg4 arg5 harg5 arg6 harg6 arg7 harg7 hz he x0 x1 x2).2.1)

/-- At 0 < k < 15 nothing is stored into the output buffer either. -/
def outMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i) (x0 : Vec F S1024x256 .f32) (x1 : Vec F S2048x256 .f32) (x2 : Vec F S1x2048 .f32) (xs : Vec F S1024x2048 .f32) : Vec F S1024x2048 .bf16 :=
  outV.read (Elt F) (outV.writes (Elt F) outV.junk (runMid c i arg3 harg3 arg4 harg4 arg5 harg5 arg6 harg6 arg7 harg7 hz he x0 x1 x2 xs).1)
theorem accCoverMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i) (x0 : Vec F S1024x256 .f32) (x1 : Vec F S2048x256 .f32) (x2 : Vec F S1x2048 .f32) (xs : Vec F S1024x2048 .f32) (y : S1024x2048.Idx) : ∃ pc ∈ (runMid c i arg3 harg3 arg4 harg4 arg5 harg5 arg6 harg6 arg7 harg7 hz he x0 x1 x2 xs).2.1, y ∈ pc.1.set :=
  View.cover_of_tiledL (runMid c i arg3 harg3 arg4 harg4 arg5 harg5 arg6 harg6 arg7 harg7 hz he x0 x1 x2 xs).2.1 S1024x2048.size (by sl_kernel_rfl) y
/-- What the accumulator holds after a point with 0 < k < 15. -/
def accMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i) (x0 : Vec F S1024x256 .f32) (x1 : Vec F S2048x256 .f32) (x2 : Vec F S1x2048 .f32) (xs : Vec F S1024x2048 .f32) : Vec F S1024x2048 .f32 :=
  accV.read (Elt F) (accV.writes (Elt F) accV.junk (runMid c i arg3 harg3 arg4 harg4 arg5 harg5 arg6 harg6 arg7 harg7 hz he x0 x1 x2 xs).2.1)

/-- At k = 15 the one store into the output buffer covers it. -/
theorem outCoverLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).1, y ∈ pc.1.set :=
  View.cover_of_tiledL (runLast c i arg3 harg3 arg4 harg4 arg5 harg5 arg6 harg6 arg7 harg7 hz he x0 x1 x2 xs).1 S1024x2048.size (by sl_kernel_rfl) y
/-- What the output buffer holds after a point with k = 15. -/
def outLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) : Vec F S1024x2048 .bf16 :=
  outV.read (Elt F) (outV.writes (Elt F) outV.junk (runLast c i arg3 harg3 arg4 harg4 arg5 harg5 arg6 harg6 arg7 harg7 hz he x0 x1 x2 xs).1)
theorem accCoverLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).2.1, y ∈ pc.1.set :=
  View.cover_of_tiledL (runLast c i arg3 harg3 arg4 harg4 arg5 harg5 arg6 harg6 arg7 harg7 hz he x0 x1 x2 xs).2.1 S1024x2048.size (by sl_kernel_rfl) y
/-- What the accumulator holds after a point with k = 15. -/
def accLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) : Vec F S1024x2048 .f32 :=
  accV.read (Elt F) (accV.writes (Elt F) accV.junk (runLast c i arg3 harg3 arg4 harg4 arg5 harg5 arg6 harg6 arg7 harg7 hz he x0 x1 x2 xs).2.1)

/-! ## The accumulation, point by point -/

/-- What the output buffer and the accumulator hold after the body at position `n`: the case `n % 16` selects, run at
    the point's memrefs and blocks, the accumulator it reads at what position `n - 1` left (no transfer touches it). -/
def outsAt0 (c : Dev nD) : (n : ℕ) → n < cfg0.N → Vec F S1024x2048 .bf16 × Vec F S1024x2048 .f32
  | 0, hn =>
    (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk0 V c 0 ⟨0, hn⟩) (iblk0 V c 1 ⟨0, hn⟩) (iblk0 V c 2 ⟨0, hn⟩),
     accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk0 V c 0 ⟨n + 1, hn⟩) (iblk0 V c 1 ⟨n + 1, hn⟩) (iblk0 V c 2 ⟨n + 1, hn⟩),
         accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
         accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a point with k = 0: the restart. -/
theorem outsAt0_first (c : Dev nD) (t : Fin cfg0.N) (h0 : t.val % 16 = 0) (h1 : ¬t.val % 16 = 15) :
    outsAt0 V c t.val t.isLt =
      (outFirst c (grid0.coords t) (ms0 t) (hs0 t) (ms1 t) (hs1 t) (ms2 t) (hs2 t) (ms3 t) (hs3 t) accM (Memref.isWhole_whole _) ((zeroes_iff t).mpr h0) (fun h => h1 ((emits_iff t).mp h)) (iblk0 V c 0 t) (iblk0 V c 1 t) (iblk0 V c 2 t),
       accFirst c (grid0.coords t) (ms0 t) (hs0 t) (ms1 t) (hs1 t) (ms2 t) (hs2 t) (ms3 t) (hs3 t) accM (Memref.isWhole_whole _) ((zeroes_iff t).mpr h0) (fun h => h1 ((emits_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a point with 0 < k < 15: over what the point before left. -/
theorem outsAt0_mid (c : Dev nD) (t : Fin cfg0.N) (h0 : ¬t.val % 16 = 0) (h1 : ¬t.val % 16 = 15) :
    outsAt0 V c t.val t.isLt =
      (outMid c (grid0.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk0 V c 0 t) (iblk0 V c 1 t) (iblk0 V c 2 t) (outsAt0 V c (t.val - 1) (Nat.lt_of_le_of_lt (Nat.sub_le _ _) t.isLt)).2,
       accMid c (grid0.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with k = 15: over what the point before left. -/
theorem outsAt0_last (c : Dev nD) (t : Fin cfg0.N) (h0 : ¬t.val % 16 = 0) (h1 : t.val % 16 = 15) :
    outsAt0 V c t.val t.isLt =
      (outLast c (grid0.coords t) (ms0 t) (hs0 t) (ms1 t) (hs1 t) (ms2 t) (hs2 t) (ms3 t) (hs3 t) accM (Memref.isWhole_whole _) (fun h => h0 ((zeroes_iff t).mp h)) ((emits_iff t).mpr h1) (iblk0 V c 0 t) (iblk0 V c 1 t) (iblk0 V c 2 t) (outsAt0 V c (t.val - 1) (Nat.lt_of_le_of_lt (Nat.sub_le _ _) t.isLt)).2,
       accLast c (grid0.coords t) (ms0 t) (hs0 t) (ms1 t) (hs1 t) (ms2 t) (hs2 t) (ms3 t) (hs3 t) accM (Memref.isWhole_whole _) (fun h => h0 ((zeroes_iff t).mp h)) ((emits_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant: the accumulator at what the point before left -/

/-- Before position `n`: at the first point the class's own invariant; afterwards the accumulator at what position
    `n - 1` left in it, every other scoped buffer unopened, the generator register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt0 V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) accM fullShare ((outsAt0 V c (n - 1) (by omega)).2) ∗ others c) ∗ (∃ r, prngReg c r)) := by
  cases n with
  | zero => exact absurd rfl hz
  | succ n => rfl

/-! ## The pipeline's proof data -/

/-- The arrays as the region finds them; after the body at point `t` each input's buffer at its block and the output's at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  blockKept0 V (dat0 V c) (A_eq0 V c 0) (after0_0 V c) t d
theorem before0_1 (c : Dev nD) (t : Fin cfg0.N) (d) : (dat0 V c).before 1 t d = iblk0 V c 1 t :=
  blockKept1 V (dat0 V c) (A_eq0 V c 1) (after0_1 V c) t d
theorem before0_2 (c : Dev nD) (t : Fin cfg0.N) (d) : (dat0 V c).before 2 t d = iblk0 V c 2 t :=
  blockKept2 V (dat0 V c) (A_eq0 V c 2) (after0_2 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; `t % 16` says which case the point is in; the
    invariant hands the body the accumulator at what the point before left (at anything before the first point) and
    takes it back at this point's contents; where k ≠ 15 the output buffer is handed back as found, where k = 15 it is
    returned covered by the body's store; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
      unfold Dat.leavesExact; rw [live0 t], after0_0]
  rw [show (dat0 V c).leavesExact 1 t = owns (c : Thread nD τ) (ms1 t) fullShare ((dat0 V c).after 1 t) from by
      unfold Dat.leavesExact; rw [live1 t], after0_1]
  rw [show (dat0 V c).leavesExact 2 t = owns (c : Thread nD τ) (ms2 t) fullShare ((dat0 V c).after 2 t) from by
      unfold Dat.leavesExact; rw [live2 t], after0_2]
  have hN : t.val < 64 := lt_of_lt_of_eq t.isLt (show cfg0.N = 64 from N_0)
  by_cases h0 : t.val % 16 = 0
  · have h1 : ¬t.val % 16 = 15 := by omega
    have hz' : zeroes (grid0.coords t) := (zeroes_iff t).mpr h0
    have he' : ¬emits (grid0.coords t) := fun h => h1 ((emits_iff t).mp h)
    rw [Dat.leavesExact_idle (dat0 V c) 3 t (idle3 t he') (noFlush3 t he')]
    rw [outsAt0_first V c t h0 h1]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ hz' he' (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ hz' he' (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz' : ¬zeroes (grid0.coords t) := fun h => h0 ((zeroes_iff t).mp h)
    have hz : t.val ≠ 0 := fun e => h0 (by rw [e])
    by_cases h1 : t.val % 16 = 15
    · have he' : emits (grid0.coords t) := (emits_iff t).mpr h1
      rw [show (dat0 V c).leavesExact 3 t = owns (c : Thread nD τ) (ms3 t) fullShare ((dat0 V c).after 3 t) from by
          unfold Dat.leavesExact; rw [live3 t he'], after0_3]
      rw [outsAt0_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ hz' he' (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · have he' : ¬emits (grid0.coords t) := fun h => h1 ((emits_iff t).mp h)
      rw [Dat.leavesExact_idle (dat0 V c) 3 t (idle3 t he') (noFlush3 t he')]
      rw [outsAt0_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ hz' he' (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## Into the invariant and out of it -/

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout0 (c : Dev nD) : (dat0 V c).Φ (Fin.last cfg0.N) ⊢ Pipeline.ΦA spec0 c :=
  Phi_out V c _ (by rw [Fin.val_last]; have : cfg0.N = 64 := N_0; omega)

end Cert.Kernel.Lin0

end
-- ==== Proof.K.Lin1Cases.lean ====
/-
  The second tiled linear layer (grid (i, j, k) = 2 × 2 × 16, point t = 32·i + 16·j + k): what its three control
  cases share. The body zeroes its accumulator when k = 0, adds the tile product at every k, and when k = 15 writes
  accumulator + bias row into the output block; so a point is in one of three cases — k = 0, 0 < k < 15, k = 15 —
  read off t % 16. Here: the two branch conditions in closed form over the 64 points, where the output window is
  idle (every point but k = 15, where it is also the only write-back), names for the staging memrefs the body is
  called with and for the accumulator, and the region invariant with the accumulator's buffer opened.
-/
import proofs.«159323_j55448027791577_2_alg».proof.Proof.Gen.Kernel.Launch
import proofs.«159323_j55448027791577_2_alg».proof.Proof.Gen.Kernel.Skeleton
import proofs.«159323_j55448027791577_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions over the grid -/

/-- The accumulator is zeroed at this point: the body's first condition, k = 0, as its scalar chain computes it. -/
abbrev zeroes (i : grid1.Coords) : Prop :=
  (Scalar.cmpi .ne (Scalar.extui (Scalar.cmpi .eq (BitVec.ofNat 32 (i 2).val) 0#32)) 0#32) = 1#1
/-- It holds exactly at the points with k = 0. -/
theorem zeroes_iff : ∀ t : Fin cfg1.N, zeroes (grid1.coords t) ↔ t.val % 16 = 0 :=
  (by decide +kernel : ∀ t : Fin grid1.N, zeroes (grid1.coords t) ↔ t.val % 16 = 0)

/-- The output block is written at this point: the body's second condition, k = 15. -/
abbrev emits (i : grid1.Coords) : Prop := k1_cond2 i = 1#1
/-- It holds exactly at the points with k = 15. -/
theorem emits_iff : ∀ t : Fin cfg1.N, emits (grid1.coords t) ↔ t.val % 16 = 15 :=
  (by decide +kernel : ∀ t : Fin grid1.N, emits (grid1.coords t) ↔ t.val % 16 = 15)

/-! ## Where the windows are idle -/

/-- The three inputs are never idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Where k ≠ 15 the output window is idle and its block is not written back. -/
theorem idle3 : ∀ t : Fin cfg1.N, ¬emits (grid1.coords t) → cfg1.idle 3 (grid1.coords t) = true := by decide +kernel
theorem noFlush3 : ∀ t : Fin cfg1.N, ¬emits (grid1.coords t) → (cfg1.win 3).flush t = false := by decide +kernel
/-- Where k = 15 it is live. -/
theorem live3 : ∀ t : Fin cfg1.N, emits (grid1.coords t) → cfg1.idle 3 (grid1.coords t) = false := by decide +kernel

/-! ## The memrefs the body is called with -/

/-- One staging buffer of the output window, through which its contents are stated. -/
abbrev outV : View sig .tc .vmem S1024x2048 .f32 := (Memref.whole cc1_stg3_0 : Memref sig .tc .vmem S1024x2048 .f32).view
/-- Each window's current staging memref at point `t`, as the pipeline passes it, and its wholeness. -/
abbrev ms0 (t : Fin cfg1.N) : Memref sig .tc .vmem S1024x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x2048 .f32 := win1_3.stage (cfg1.slots t 3)
abbrev hs3 (t : Fin cfg1.N) : (ms3 t).IsWhole := hstage1_3 ((cfg1.slots t 3).cast nbuf1_3)
/-- The accumulator: a whole scoped buffer of the kernel's own, passed beside the windows, and its view. -/
abbrev accM : Memref sig .tc .vmem S1024x2048 .f32 := Memref.whole cc1_scratch0
abbrev accV : View sig .tc .vmem S1024x2048 .f32 := accM.view

/-! ## The region invariant with the accumulator opened -/

/-- Every other scoped buffer of the core that is no staging buffer of this region (the other two regions' staging
    buffers and the first layer's accumulator), each at some contents: carried through the region unopened. -/
abbrev others (c : Dev nD) : sProp 𝕄 :=
  Pipeline.scopedRestBut (Ix := Unit) (Name := ℕ) (U := UR sig nD τ) (Lvl := ℕ) (Val := Elt F) spec1 c [cc1_scratch0]

/-- The class's invariant is: the accumulator owned at some contents, the other scoped buffers, the generator
    register at some state. -/
theorem PhiA_eq (c : Dev nD) :
    (Pipeline.ΦA spec1 c : sProp 𝕄)
      = iprop(iprop((∃ d, owns (c : Thread nD τ) accM fullShare d) ∗ others c) ∗ (∃ r, prngReg c r)) := by
  unfold Pipeline.ΦA
  rw [Pipeline.scopedRest_split_of_list (win := spec1) (c := c) [cc1_scratch0] (by decide) (by decide)]
  simp only [accM, owns_whole]
  rfl

end Cert.Kernel.Lin1

end
-- ==== Proof.K.Lin1RunFirst.lean ====
/-
  The linear layer's body at a point with k = 0 (the accumulator is zeroed, nothing is written out): run whole on
  any staging memrefs. Handed the three input blocks, the output buffer at any contents (returned untouched: the
  window is idle here) and the accumulator at anything, it ends with the inputs as they were and the accumulator
  holding its stores' pieces — first the zero block, then zero block + tile product.
-/
import proofs.«159323_j55448027791577_2_alg».proof.Proof.K.Lin1Cases

set_option maxRecDepth 16384

noncomputable section

namespace Cert.Kernel.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the accumulator at a point with k = 0 (none in the output buffer), with the
    proof that the body runs to any continuation that holds the buffers so written. -/
noncomputable def runFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i)
    (x0 : Vec F S1024x256 .bf16) (x1 : Vec F S2048x256 .f32) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Lin1

end
-- ==== Proof.K.Lin1RunMid.lean ====
/-
  The linear layer's body at a point with 0 < k < 15 (the accumulator grows by the tile product, nothing is written
  out): run whole on any staging memrefs, the accumulator handed in at the contents the point before left.
-/
import proofs.«159323_j55448027791577_2_alg».proof.Proof.K.Lin1RunFirst

set_option maxRecDepth 16384

noncomputable section

namespace Cert.Kernel.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's one store leaves in the accumulator at a point with 0 < k < 15 (none in the output buffer),
    with the proof that the body runs to any continuation that holds the buffers so written. -/
noncomputable def runMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i)
    (x0 : Vec F S1024x256 .bf16) (x1 : Vec F S2048x256 .f32) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Lin1

end
-- ==== Proof.K.Lin1RunLast.lean ====
/-
  The linear layer's body at a point with k = 15 (the accumulator takes its last tile product, then accumulator +
  bias row is written into the output block): run whole on any staging memrefs, the accumulator handed in at the
  contents the point before left, the output buffer at anything.
-/
import proofs.«159323_j55448027791577_2_alg».proof.Proof.K.Lin1RunMid

set_option maxRecDepth 16384

noncomputable section

namespace Cert.Kernel.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output buffer and in the accumulator at a point with k = 15, with the
    proof that the body runs to any continuation that holds the buffers so written. -/
noncomputable def runLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i)
    (x0 : Vec F S1024x256 .bf16) (x1 : Vec F S2048x256 .f32) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Lin1

end
-- ==== Proof.K.Lin1Data.lean ====
/-
  The second linear layer's region, as data for the pipeline's frame theorem, at the buffer contents `V` the region
  is entered with. What the accumulator and the output block hold after each grid point is defined by recursion on
  the point: at k = 0 the accumulator restarts from the zero block, at every other point it is the point before's
  accumulator plus this point's tile product, and at k = 15 the output block is that accumulator plus the bias row.
  The region's invariant holds the accumulator at exactly these contents between points (before the first point the
  class's own invariant: the accumulator at anything), beside every other scoped buffer unopened. With it the body
  meets its obligation at every point, and the invariant is entered from and returns to the class's own.
-/
import proofs.«159323_j55448027791577_2_alg».proof.Proof.K.Lin1RunLast

set_option maxRecDepth 16384

noncomputable section

namespace Cert.Kernel.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data over `V` whose body leaves the block in place. -/
theorem blockKept0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem blockKept1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem blockKept2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

/-- At k = 0 nothing is stored into the output buffer: a placeholder nothing consults (the window is idle there). -/
def outFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i) (x0 : Vec F S1024x256 .bf16) (x1 : Vec F S2048x256 .f32) (x2 : Vec F S1x2048 .f32) : Vec F S1024x2048 .f32 :=
  outV.read (Elt F) (outV.writes (Elt F) outV.junk (runFirst c i arg3 harg3 arg4 harg4 arg5 harg5 arg6 harg6 arg7 harg7 hz he x0 x1 x2).1)
/-- The accumulator's pieces at k = 0 cover it. -/
theorem accCoverFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i) (x0 : Vec F S1024x256 .bf16) (x1 : Vec F S2048x256 .f32) (x2 : Vec F S1x2048 .f32) (y : S1024x2048.Idx) : ∃ pc ∈ (runFirst c i arg3 harg3 arg4 harg4 arg5 harg5 arg6 harg6 arg7 harg7 hz he x0 x1 x2).2.1, y ∈ pc.1.set :=
  View.cover_of_tiledL (runFirst c i arg3 harg3 arg4 harg4 arg5 harg5 arg6 harg6 arg7 harg7 hz he x0 x1 x2).2.1 S1024x2048.size (by sl_kernel_rfl) y
/-- What the accumulator holds after a point with k = 0. -/
def accFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i) (x0 : Vec F S1024x256 .bf16) (x1 : Vec F S2048x256 .f32) (x2 : Vec F S1x2048 .f32) : Vec F S1024x2048 .f32 :=
  accV.read (Elt F) (accV.writes (Elt F) accV.junk (runFirst c i arg3 harg3 arg4 harg4 arg5 harg5 arg6 harg6 arg7 harg7 hz he x0 x1 x2).2.1)

/-- At 0 < k < 15 nothing is stored into the output buffer either. -/
def outMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i) (x0 : Vec F S1024x256 .bf16) (x1 : Vec F S2048x256 .f32) (x2 : Vec F S1x2048 .f32) (xs : Vec F S1024x2048 .f32) : Vec F S1024x2048 .f32 :=
  outV.read (Elt F) (outV.writes (Elt F) outV.junk (runMid c i arg3 harg3 arg4 harg4 arg5 harg5 arg6 harg6 arg7 harg7 hz he x0 x1 x2 xs).1)
theorem accCoverMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i) (x0 : Vec F S1024x256 .bf16) (x1 : Vec F S2048x256 .f32) (x2 : Vec F S1x2048 .f32) (xs : Vec F S1024x2048 .f32) (y : S1024x2048.Idx) : ∃ pc ∈ (runMid c i arg3 harg3 arg4 harg4 arg5 harg5 arg6 harg6 arg7 harg7 hz he x0 x1 x2 xs).2.1, y ∈ pc.1.set :=
  View.cover_of_tiledL (runMid c i arg3 harg3 arg4 harg4 arg5 harg5 arg6 harg6 arg7 harg7 hz he x0 x1 x2 xs).2.1 S1024x2048.size (by sl_kernel_rfl) y
/-- What the accumulator holds after a point with 0 < k < 15. -/
def accMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i) (x0 : Vec F S1024x256 .bf16) (x1 : Vec F S2048x256 .f32) (x2 : Vec F S1x2048 .f32) (xs : Vec F S1024x2048 .f32) : Vec F S1024x2048 .f32 :=
  accV.read (Elt F) (accV.writes (Elt F) accV.junk (runMid c i arg3 harg3 arg4 harg4 arg5 harg5 arg6 harg6 arg7 harg7 hz he x0 x1 x2 xs).2.1)

/-- At k = 15 the one store into the output buffer covers it. -/
theorem outCoverLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).1, y ∈ pc.1.set :=
  View.cover_of_tiledL (runLast c i arg3 harg3 arg4 harg4 arg5 harg5 arg6 harg6 arg7 harg7 hz he x0 x1 x2 xs).1 S1024x2048.size (by sl_kernel_rfl) y
/-- What the output buffer holds after a point with k = 15. -/
def outLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) : Vec F S1024x2048 .f32 :=
  outV.read (Elt F) (outV.writes (Elt F) outV.junk (runLast c i arg3 harg3 arg4 harg4 arg5 harg5 arg6 harg6 arg7 harg7 hz he x0 x1 x2 xs).1)
theorem accCoverLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).2.1, y ∈ pc.1.set :=
  View.cover_of_tiledL (runLast c i arg3 harg3 arg4 harg4 arg5 harg5 arg6 harg6 arg7 harg7 hz he x0 x1 x2 xs).2.1 S1024x2048.size (by sl_kernel_rfl) y
/-- What the accumulator holds after a point with k = 15. -/
def accLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) : Vec F S1024x2048 .f32 :=
  accV.read (Elt F) (accV.writes (Elt F) accV.junk (runLast c i arg3 harg3 arg4 harg4 arg5 harg5 arg6 harg6 arg7 harg7 hz he x0 x1 x2 xs).2.1)

/-! ## The accumulation, point by point -/

/-- What the output buffer and the accumulator hold after the body at position `n`: the case `n % 16` selects, run at
    the point's memrefs and blocks, the accumulator it reads at what position `n - 1` left (no transfer touches it). -/
def outsAt1 (c : Dev nD) : (n : ℕ) → n < cfg1.N → Vec F S1024x2048 .f32 × Vec F S1024x2048 .f32
  | 0, hn =>
    (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk1 V c 0 ⟨0, hn⟩) (iblk1 V c 1 ⟨0, hn⟩) (iblk1 V c 2 ⟨0, hn⟩),
     accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk1 V c 0 ⟨n + 1, hn⟩) (iblk1 V c 1 ⟨n + 1, hn⟩) (iblk1 V c 2 ⟨n + 1, hn⟩),
         accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0: the restart. -/
theorem outsAt1_first (c : Dev nD) (t : Fin cfg1.N) (h0 : t.val % 16 = 0) (h1 : ¬t.val % 16 = 15) :
    outsAt1 V c t.val t.isLt =
      (outFirst c (grid1.coords t) (ms0 t) (hs0 t) (ms1 t) (hs1 t) (ms2 t) (hs2 t) (ms3 t) (hs3 t) accM (Memref.isWhole_whole _) ((zeroes_iff t).mpr h0) (fun h => h1 ((emits_iff t).mp h)) (iblk1 V c 0 t) (iblk1 V c 1 t) (iblk1 V c 2 t),
       accFirst c (grid1.coords t) (ms0 t) (hs0 t) (ms1 t) (hs1 t) (ms2 t) (hs2 t) (ms3 t) (hs3 t) accM (Memref.isWhole_whole _) ((zeroes_iff t).mpr h0) (fun h => h1 ((emits_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 15: over what the point before left. -/
theorem outsAt1_mid (c : Dev nD) (t : Fin cfg1.N) (h0 : ¬t.val % 16 = 0) (h1 : ¬t.val % 16 = 15) :
    outsAt1 V c t.val t.isLt =
      (outMid c (grid1.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk1 V c 0 t) (iblk1 V c 1 t) (iblk1 V c 2 t) (outsAt1 V c (t.val - 1) (Nat.lt_of_le_of_lt (Nat.sub_le _ _) t.isLt)).2,
       accMid c (grid1.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with k = 15: over what the point before left. -/
theorem outsAt1_last (c : Dev nD) (t : Fin cfg1.N) (h0 : ¬t.val % 16 = 0) (h1 : t.val % 16 = 15) :
    outsAt1 V c t.val t.isLt =
      (outLast c (grid1.coords t) (ms0 t) (hs0 t) (ms1 t) (hs1 t) (ms2 t) (hs2 t) (ms3 t) (hs3 t) accM (Memref.isWhole_whole _) (fun h => h0 ((zeroes_iff t).mp h)) ((emits_iff t).mpr h1) (iblk1 V c 0 t) (iblk1 V c 1 t) (iblk1 V c 2 t) (outsAt1 V c (t.val - 1) (Nat.lt_of_le_of_lt (Nat.sub_le _ _) t.isLt)).2,
       accLast c (grid1.coords t) (ms0 t) (hs0 t) (ms1 t) (hs1 t) (ms2 t) (hs2 t) (ms3 t) (hs3 t) accM (Memref.isWhole_whole _) (fun h => h0 ((zeroes_iff t).mp h)) ((emits_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant: the accumulator at what the point before left -/

/-- Before position `n`: at the first point the class's own invariant; afterwards the accumulator at what position
    `n - 1` left in it, every other scoped buffer unopened, the generator register at some state. -/
def PhiS (c : Dev nD) : (n : ℕ) → n ≤ cfg1.N → sProp 𝕄
  | 0, _ => Pipeline.ΦA spec1 c
  | n + 1, hn => iprop(iprop(owns (c : Thread nD τ) accM fullShare ((outsAt1 V c n hn).2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accM fullShare ((outsAt1 V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) accM fullShare ((outsAt1 V c (n - 1) (by omega)).2) ∗ others c) ∗ (∃ r, prngReg c r)) := by
  cases n with
  | zero => exact absurd rfl hz
  | succ n => rfl

/-! ## The pipeline's proof data -/

/-- The arrays as the region finds them; after the body at point `t` each input's buffer at its block and the output's at
    `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  blockKept0 V (dat1 V c) (A_eq1 V c 0) (after1_0 V c) t d
theorem before1_1 (c : Dev nD) (t : Fin cfg1.N) (d) : (dat1 V c).before 1 t d = iblk1 V c 1 t :=
  blockKept1 V (dat1 V c) (A_eq1 V c 1) (after1_1 V c) t d
theorem before1_2 (c : Dev nD) (t : Fin cfg1.N) (d) : (dat1 V c).before 2 t d = iblk1 V c 2 t :=
  blockKept2 V (dat1 V c) (A_eq1 V c 2) (after1_2 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; `t % 16` says which case the point is in; the
    invariant hands the body the accumulator at what the point before left (at anything before the first point) and
    takes it back at this point's contents; where k ≠ 15 the output buffer is handed back as found, where k = 15 it is
    returned covered by the body's store; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
      unfold Dat.leavesExact; rw [live0 t], after1_0]
  rw [show (dat1 V c).leavesExact 1 t = owns (c : Thread nD τ) (ms1 t) fullShare ((dat1 V c).after 1 t) from by
      unfold Dat.leavesExact; rw [live1 t], after1_1]
  rw [show (dat1 V c).leavesExact 2 t = owns (c : Thread nD τ) (ms2 t) fullShare ((dat1 V c).after 2 t) from by
      unfold Dat.leavesExact; rw [live2 t], after1_2]
  have hN : t.val < 64 := lt_of_lt_of_eq t.isLt (show cfg1.N = 64 from N_1)
  by_cases h0 : t.val % 16 = 0
  · have h1 : ¬t.val % 16 = 15 := by omega
    have hz' : zeroes (grid1.coords t) := (zeroes_iff t).mpr h0
    have he' : ¬emits (grid1.coords t) := fun h => h1 ((emits_iff t).mp h)
    rw [Dat.leavesExact_idle (dat1 V c) 3 t (idle3 t he') (noFlush3 t he')]
    rw [outsAt1_first V c t h0 h1]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ hz' he' (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ hz' he' (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz' : ¬zeroes (grid1.coords t) := fun h => h0 ((zeroes_iff t).mp h)
    have hz : t.val ≠ 0 := fun e => h0 (by rw [e])
    by_cases h1 : t.val % 16 = 15
    · have he' : emits (grid1.coords t) := (emits_iff t).mpr h1
      rw [show (dat1 V c).leavesExact 3 t = owns (c : Thread nD τ) (ms3 t) fullShare ((dat1 V c).after 3 t) from by
          unfold Dat.leavesExact; rw [live3 t he'], after1_3]
      rw [outsAt1_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) _ _ _ _ _ _ _ _ _ _ hz' he' (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · have he' : ¬emits (grid1.coords t) := fun h => h1 ((emits_iff t).mp h)
      rw [Dat.leavesExact_idle (dat1 V c) 3 t (idle3 t he') (noFlush3 t he')]
      rw [outsAt1_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid1.coords t) _ _ _ _ _ _ _ _ _ _ hz' he' (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-! ## Into the invariant and out of it -/

/-- What the launch hands the region (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout1 (c : Dev nD) : (dat1 V c).Φ (Fin.last cfg1.N) ⊢ Pipeline.ΦA spec1 c :=
  Phi_out V c _ (by rw [Fin.val_last]; have : cfg1.N = 64 := N_1; omega)

end Cert.Kernel.Lin1

end
-- ==== Proof.K.CombData.lean ====
import proofs.«159323_j55448027791577_2_alg».proof.Proof.Gen.Kernel.Launch
import proofs.«159323_j55448027791577_2_alg».proof.Proof.Gen.Kernel.Skeleton
import proofs.«159323_j55448027791577_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The pointwise combine (third call), as one pipelined region

The third call walks the 2048 rows in eight blocks of 256 whole rows.  At each block it reads the block of
`y` and the block of the second linear layer's result, and writes `y * (out - rowsum (y * out))` over the whole
output block.  Nothing is carried from one block to the next: the body has a single control case, it reads its two
input blocks whole and overwrites its output block whole.

This module states that region's proof data at a parameter `V` -- the contents of the core's buffers when the
region is entered -- so that the whole-program run can enter it from whatever the second linear layer leaves.
-/

set_option maxRecDepth 16384

noncomputable section

namespace Cert.Kernel.Comb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block of rows at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the first input holds its block of rows at every point, whatever it held before: the
    window is fetched at every point and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of 256 rows by 4096 columns, as one rectangle. -/
abbrev r2_0 : Rect S256x4096 := Rect.unit (s := S256x4096) ![0, 0] S256x4096.size inb_S256x4096_S256x4096_0_0

/-! ## What the body leaves in the output block -/

/-- The output block after the body, from the two input blocks: the one store of the combined value over the
    whole rectangle, read back through the buffer's view. -/
def out2_2 (x0 : Vec F S256x4096 .f32) (x1 : Vec F S256x4096 .f32) : Vec F S256x4096 .f32 :=
  View.canon [⟨r2_0, k2_pay1 (View.ld x0 r2_0) (View.ld x1 r2_0)⟩]

/-- The one store covers the block. -/
theorem cover2_2 (p0 : Vec F S256x4096 .f32) (y : S256x4096.Idx) :
    ∃ pc ∈ ([⟨r2_0, p0⟩] : List (View.Piece (Elt F) S256x4096 .f32)), y ∈ pc.1.set :=
  View.cover_of_tiled [⟨r2_0, p0⟩] S256x4096.size (by rfl) y

/-! ## The body's triple -/

set_option maxHeartbeats 1000000 in
/-- The body on whole staging buffers -- the inputs' at `x0`, `x1`, the output's at anything -- runs to the end
    with the inputs' as they were and the output's at `out2_2 x0 x1`. -/
theorem sound_kernel2 (c : Dev nD) (E : Set ℕ) (i : grid2.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole)
    (x0 : Vec F S256x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__combine_kernel i arg1 harg1 arg2 harg2 arg3 harg3) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core `c`: the arrays as the region finds them; after the body at point `t`
    each input's buffer at its block and the output's at `out2_2` of the two input blocks; the invariant is the
    untouched rest of the core's scoped memory and its generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Comb

end
-- ==== Proof.K.Whole.lean ====
import proofs.«159323_j55448027791577_2_alg».proof.Proof.K.Lin0Data
import proofs.«159323_j55448027791577_2_alg».proof.Proof.K.Lin1Data
import proofs.«159323_j55448027791577_2_alg».proof.Proof.K.CombData
import proofs.«159323_j55448027791577_2_alg».proof.Proof.Gen.Kernel.Launch
import proofs.«159323_j55448027791577_2_alg».proof.Proof.Gen.Kernel.Skeleton
import proofs.«159323_j55448027791577_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole program, run from launch to return

The program reshapes the first bias into a row, runs the first linear layer `h = y · W1ᵀ + b1`, reshapes the second
bias into a row, runs the second linear layer `out = h · W2ᵀ + b2`, and runs the combine
`y * (out - rowsum (y * out))`.  Each of the three regions is entered with the core's buffers at the contents the
step before it leaves, and leaves its own arrays at what its write-backs produce; every other buffer passes through
untouched.

This module folds those contents through the program (`W0` … `W5`), states each region as a segment of the run over
them, and runs the segments in order.  Two things follow: the six argument arrays end as launched, and the result
array ends at the combine's output, whose inputs are the second linear layer's output and `y`.
-/

set_option maxRecDepth 16384

noncomputable section

namespace Cert.Kernel.Whole
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of the program: a fold through it

The program is: reshape the first bias into a row; the first linear layer; reshape the second bias into a row; the
second linear layer; the combine.  Each boundary's contents are the previous boundary's with what the step between
them writes: a reshape's result, or a region's arrays at what its write-backs leave. -/

/-- Core `c`'s buffers at launch. -/
abbrev W0 : Dev nD → Valuation τ sig (Elt F) := fun c b => (s₀ m ρ).mem ((c : Dev nD), b)
/-- After the first bias is reshaped into a row: the first linear layer's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first linear layer: its arrays at what its write-backs leave, every other buffer as entered. -/
def W2 (c : Dev nD) : Valuation τ sig (Elt F) :=
  Pipeline.withArrays spec0 c (W1 m ρ c) fun w => (Lin0.dat0 (V1 m ρ) c).arrAt w cfg0.N
theorem W2_arr (c : Dev nD) (w : Fin cfg0.W) :
    W2 m ρ c (Proc.devRef .tc (Pipeline.arrRef spec0 w)) = (Lin0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Lin0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second bias is reshaped into a row: the second linear layer's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second linear layer. -/
def W4 (c : Dev nD) : Valuation τ sig (Elt F) :=
  Pipeline.withArrays spec1 c (W3 m ρ c) fun w => (Lin1.dat1 (V3 m ρ) c).arrAt w cfg1.N
theorem W4_arr (c : Dev nD) (w : Fin cfg1.W) :
    W4 m ρ c (Proc.devRef .tc (Pipeline.arrRef spec1 w)) = (Lin1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The combine is entered straight from what the second linear layer leaves. -/
abbrev V4 : (c : Dev nD) → (b : Ref sig .tc) → Buf (Elt F) ((c : Thread nD τ).loc b) := fun c b => W4 m ρ c b
theorem hF1 (c : Dev nD) (w : Fin cfg1.W) : (Lin1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the combine: the program's end. -/
def W5 (c : Dev nD) : Valuation τ sig (Elt F) :=
  Pipeline.withArrays spec2 c (W4 m ρ c) fun w => (Comb.dat2 (V4 m ρ) c).arrAt w cfg2.N
theorem W5_arr (c : Dev nD) (w : Fin cfg2.W) :
    W5 m ρ c (Proc.devRef .tc (Pipeline.arrRef spec2 w)) = (Comb.dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (Comb.dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### What a reshape leaves alone, and what it writes -/

/-- The first reshape writes the first bias row and nothing else. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))
/-- The second reshape writes the second bias row and nothing else. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-! ### The arguments end as launched

No reshape and no region writes an argument: a region reads it through an input window or does not touch it, so
the fold at an argument's buffer walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl
/-- `y`: the first linear layer's first input and the combine's first input. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 0).trans (((Comb.dat2 (V4 m ρ) c).arrAt_in 0 rfl _).trans (Comb.A_eq2 (V4 m ρ) c 0))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((Lin0.dat0 (V1 m ρ) c).arrAt_in 0 rfl _).trans (Lin0.A_eq0 (V1 m ρ) c 0))
    _ = W0 m ρ c (Proc.devRef .tc main_arg1) := W1_of_ne m ρ c main_arg1 (by decide)
    _ = m ((c : Thread nD τ).loc main_arg1) := rfl
/-- The first weight matrix: the first linear layer's second input. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((Lin0.dat0 (V1 m ρ) c).arrAt_in 1 rfl _).trans (Lin0.A_eq0 (V1 m ρ) c 1))
    _ = W0 m ρ c (Proc.devRef .tc main_arg2) := W1_of_ne m ρ c main_arg2 (by decide)
    _ = m ((c : Thread nD τ).loc main_arg2) := rfl
/-- The first bias: only read, by the first reshape. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
/-- The second weight matrix: the second linear layer's second input. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := (W4_arr m ρ c 1).trans (((Lin1.dat1 (V3 m ρ) c).arrAt_in 1 rfl _).trans (Lin1.A_eq1 (V3 m ρ) c 1))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
/-- The second bias: only read, by the second reshape. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data family and the thread state -/

/-- No region has a prefetched table. -/
abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => Lin0.dat0 (V1 m ρ) c
  | ⟨1, _⟩ => fun c => Lin1.dat1 (V3 m ρ) c
  | ⟨2, _⟩ => fun c => Comb.dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A reshape as a segment, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the end contents `W5`, the generator
    register at some state. -/
abbrev Tₙ (c : Dev nD) : sProp 𝕄 := iprop(StableHlo.held (c : Thread nD τ) (Pipeline.ucRefs τ sig) (W5 m ρ c) ∗ ∃ r, prngReg c r)

/-! ## The plain invariant, assembled and taken apart -/

/-- The generator register and the scoped buffers the region's windows do not stage make up the plain invariant
    of region 0 (there are no prefetched tables), -/
theorem toΦA0 (c : Dev nD) :
    iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- and it splits back into them (the region has no semaphore of its own). -/
theorem ofΦA0 (c : Dev nD) :
    (Pipeline.ΦA spec0 c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  rw [Pipeline.ownSems0_none]; unfold Pipeline.ΦA
  iintro ⟨Hr, Hp⟩
  isplitl [Hp]; · iexact Hp
  isplitr; · iempintro
  iexact Hr

/-- The generator register and the scoped buffers the region's windows do not stage make up the plain invariant
    of region 1 (there are no prefetched tables), -/
theorem toΦA1 (c : Dev nD) :
    iprop((∃ r, prngReg c r) ∗ Pipeline.prefHeld (Ix := Unit) (Name := ℕ) (U := UR sig nD τ) (Lvl := ℕ) (pcfgs (F := F) 1).pre c (fun _ => fullShare) (adm (F := F) 1).1
        ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and it splits back into them (the region has no semaphore of its own). -/
theorem ofΦA1 (c : Dev nD) :
    (Pipeline.ΦA spec1 c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec1 c) := by
  rw [Pipeline.ownSems0_none]; unfold Pipeline.ΦA
  iintro ⟨Hr, Hp⟩
  isplitl [Hp]; · iexact Hp
  isplitr; · iempintro
  iexact Hr

/-- The generator register and the scoped buffers the region's windows do not stage make up the plain invariant
    of region 2 (there are no prefetched tables), -/
theorem toΦA2 (c : Dev nD) :
    iprop((∃ r, prngReg c r) ∗ Pipeline.prefHeld (Ix := Unit) (Name := ℕ) (U := UR sig nD τ) (Lvl := ℕ) (pcfgs (F := F) 2).pre c (fun _ => fullShare) (adm (F := F) 2).1
        ∗ Pipeline.scopedRest (Ix := Unit) (Name := ℕ) (U := UR sig nD τ) (Lvl := ℕ) (Val := Elt F) spec2 c)
      ⊢ (Pipeline.ΦA spec2 c : sProp 𝕄) := by
  unfold Pipeline.ΦA
  iintro ⟨Hp, -, Hr⟩
  isplitl [Hr]; · iexact Hr
  iexact Hp
/-- and it splits back into them (the region has no semaphore of its own). -/
theorem ofΦA2 (c : Dev nD) :
    (Pipeline.ΦA spec2 c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Pipeline.ownSems0_none]; unfold Pipeline.ΦA
  iintro ⟨Hr, Hp⟩
  isplitl [Hp]; · iexact Hp
  isplitr; · iempintro
  iexact Hr

/-! ## The regions as segments -/

set_option backward.isDefEq.respectTransparency.types false in
/-- The first linear layer as a segment of the run: entered with every unscoped buffer at `W1`, left with them at
    `W2`.  Its arrays are split out of the unscoped buffers on entry and put back at their final contents on
    exit; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA0 c).trans (Lin0.hin0 (V1 m ρ) c)
  hout c := (Lin0.hout0 (V1 m ρ) c).trans (ofΦA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second linear layer as a segment of the run: entered with every unscoped buffer at `W3`, left with them at
    `W4`.  Its arrays are split out of the unscoped buffers on entry and put back at their final contents on
    exit; the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (Lin1.hin1 (V3 m ρ) c)
  hout c := (Lin1.hout1 (V3 m ρ) c).trans (ofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine as a segment of the run: entered with every unscoped buffer at `W4`, left with them at
    `W5`.  Its arrays are split out of the unscoped buffers on entry and put back at their final contents on
    exit; the generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Comb.body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    exact toΦA2 c
  hout c := by
    rw [show (pdats m ρ 2 c).Φ (Fin.last _) = Pipeline.ΦA spec2 c from rfl]
    exact ofΦA2 c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of its segments. -/
theorem main_run (c : Dev nD) : main (F := F) c = Pipeline.Seg.run (segs m ρ) := (main_chain c).trans (by chain_rfl)

set_option backward.isDefEq.respectTransparency.types false in
/-- THE RUN: from any memory with zero counters, every weakly fair execution of the program on the cores
    terminates, nothing faulting, and in every final state every unscoped buffer holds the end contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

/-! ## The results read back -/

/-- The program's result is the combine's output array at the end of its region. -/
theorem W5_main_v4 (c : Dev nD) : W5 m ρ c (Proc.devRef .tc main_v4) = (Comb.dat2 (V4 m ρ) c).arrAt 2 cfg2.N :=
  W5_arr m ρ c 2
/-- The combine reads the second linear layer's output array as that region leaves it, -/
theorem V4_main_v3 (c : Dev nD) : V4 m ρ c main_v3 = (Lin1.dat1 (V3 m ρ) c).arrAt 3 cfg1.N :=
  W4_arr m ρ c 3
/-- and `y` as launched. -/
theorem V4_main_arg1 (c : Dev nD) : V4 m ρ c main_arg1 = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((Lin0.dat0 (V1 m ρ) c).arrAt_in 0 rfl _).trans (Lin0.A_eq0 (V1 m ρ) c 0))
    _ = W0 m ρ c (Proc.devRef .tc main_arg1) := W1_of_ne m ρ c main_arg1 (by decide)
    _ = m ((c : Thread nD τ).loc main_arg1) := rfl
/-- The second linear layer reads the first one's output array as that region leaves it, -/
theorem V3_main_v1 (c : Dev nD) : V3 m ρ c main_v1 = (Lin0.dat0 (V1 m ρ) c).arrAt 3 cfg0.N :=
  (W3_of_ne m ρ c main_v1 (by decide)).trans (W2_arr m ρ c 3)
theorem W2_main_v1 (c : Dev nD) : W2 m ρ c (Proc.devRef .tc main_v1) = (Lin0.dat0 (V1 m ρ) c).arrAt 3 cfg0.N :=
  W2_arr m ρ c 3
/-- the second weight matrix as launched, -/
theorem V3_main_arg4 (c : Dev nD) : V3 m ρ c main_arg4 = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
/-- and the second bias reshaped into a row. -/
theorem V3_main_v2 (c : Dev nD) :
    (V3 m ρ c main_v2 : S1x4096.Idx → Elt F .f32) = shapeCast S1x4096 (m ((c : Thread nD τ).loc main_arg5)) shapeCasts_S4096_S1x4096 := by
  have e : W2 m ρ c (Proc.devRef .tc main_arg5) = m ((c : Thread nD τ).loc main_arg5) :=
    (W2_of_ne m ρ c main_arg5 (by decide)).trans (W1_of_ne m ρ c main_arg5 (by decide))
  show StableHlo.after hostOps1 (W2 m ρ c) (Proc.devRef .tc main_v2) = _
  after_results
  rw [e]; rfl
/-- The first linear layer reads `y` and the first weight matrix as launched, -/
theorem V1_main_arg1 (c : Dev nD) : V1 m ρ c main_arg1 = m ((c : Thread nD τ).loc main_arg1) :=
  W1_of_ne m ρ c main_arg1 (by decide)
theorem V1_main_arg2 (c : Dev nD) : V1 m ρ c main_arg2 = m ((c : Thread nD τ).loc main_arg2) :=
  W1_of_ne m ρ c main_arg2 (by decide)
/-- and the first bias reshaped into a row. -/
theorem V1_main_v0 (c : Dev nD) :
    (V1 m ρ c main_v0 : S1x4096.Idx → Elt F .f32) = shapeCast S1x4096 (m ((c : Thread nD τ).loc main_arg3)) shapeCasts_S4096_S1x4096 := by
  show StableHlo.after hostOps0 (W0 m ρ c) (Proc.devRef .tc main_v0) = _
  after_results
  rfl

end Cert.Kernel.Whole

end
-- ==== Proof.KI.Lin0Cases.lean ====
/-
  The first tiled linear layer (grid (i, j, k) = 2 × 2 × 16, point t = 32·i + 16·j + k): what its three control
  cases share. The body zeroes its accumulator when k = 0, adds the tile product at every k, and when k = 15 writes
  accumulator + bias row into the output block; so a point is in one of three cases — k = 0, 0 < k < 15, k = 15 —
  read off t % 16. Here: the two branch conditions in closed form over the 64 points, where the output window is
  idle (every point but k = 15, where it is also the only write-back), names for the staging memrefs the body is
  called with and for the accumulator, and the region invariant with the accumulator's buffer opened.
-/
import proofs.«159323_j55448027791577_2_alg».proof.Proof.Gen.KernelIdeal.Launch
import proofs.«159323_j55448027791577_2_alg».proof.Proof.Gen.KernelIdeal.Skeleton
import proofs.«159323_j55448027791577_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid -/

/-- The accumulator is zeroed at this point: the body's first condition, k = 0, as its scalar chain computes it. -/
abbrev zeroes (i : grid0.Coords) : Prop :=
  (Scalar.cmpi .ne (Scalar.extui (Scalar.cmpi .eq (BitVec.ofNat 32 (i 2).val) 0#32)) 0#32) = 1#1
/-- It holds exactly at the points with k = 0. -/
theorem zeroes_iff : ∀ t : Fin cfg0.N, zeroes (grid0.coords t) ↔ t.val % 16 = 0 :=
  (by decide +kernel : ∀ t : Fin grid0.N, zeroes (grid0.coords t) ↔ t.val % 16 = 0)

/-- The output block is written at this point: the body's second condition, k = 15. -/
abbrev emits (i : grid0.Coords) : Prop := k0_cond2 i = 1#1
/-- It holds exactly at the points with k = 15. -/
theorem emits_iff : ∀ t : Fin cfg0.N, emits (grid0.coords t) ↔ t.val % 16 = 15 :=
  (by decide +kernel : ∀ t : Fin grid0.N, emits (grid0.coords t) ↔ t.val % 16 = 15)

/-! ## Where the windows are idle -/

/-- The three inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Where k ≠ 15 the output window is idle and its block is not written back. -/
theorem idle3 : ∀ t : Fin cfg0.N, ¬emits (grid0.coords t) → cfg0.idle 3 (grid0.coords t) = true := by decide +kernel
theorem noFlush3 : ∀ t : Fin cfg0.N, ¬emits (grid0.coords t) → (cfg0.win 3).flush t = false := by decide +kernel
/-- Where k = 15 it is live. -/
theorem live3 : ∀ t : Fin cfg0.N, emits (grid0.coords t) → cfg0.idle 3 (grid0.coords t) = false := by decide +kernel

/-! ## The memrefs the body is called with -/

/-- One staging buffer of the output window, through which its contents are stated. -/
abbrev outV : View sig .tc .vmem S1024x2048 .bf16 := (Memref.whole cc0_stg3_0 : Memref sig .tc .vmem S1024x2048 .bf16).view
/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a whole scoped buffer of the kernel's own, passed beside the windows, and its view. -/
abbrev accM : Memref sig .tc .vmem S1024x2048 .f32 := Memref.whole cc0_scratch0
abbrev accV : View sig .tc .vmem S1024x2048 .f32 := accM.view

/-! ## The region invariant with the accumulator opened -/

/-- Every other scoped buffer of the core that is no staging buffer of this region (the other two regions' staging
    buffers and the second layer's accumulator), each at some contents: carried through the region unopened. -/
abbrev others (c : Dev nD) : sProp 𝕄 :=
  Pipeline.scopedRestBut (Ix := Unit) (Name := ℕ) (U := UR sig nD τ) (Lvl := ℕ) (Val := Elt F) spec0 c [cc0_scratch0]

/-- The class's invariant is: the accumulator owned at some contents, the other scoped buffers, the generator
    register at some state. -/
theorem PhiA_eq (c : Dev nD) :
    (Pipeline.ΦA spec0 c : sProp 𝕄)
      = iprop(iprop((∃ d, owns (c : Thread nD τ) accM fullShare d) ∗ others c) ∗ (∃ r, prngReg c r)) := by
  unfold Pipeline.ΦA
  rw [Pipeline.scopedRest_split_of_list (win := spec0) (c := c) [cc0_scratch0] (by decide) (by decide)]
  simp only [accM, owns_whole]
  rfl

end Cert.KernelIdeal.Lin0

end
-- ==== Proof.KI.Lin0RunFirst.lean ====
/-
  The linear layer's body at a point with k = 0 (the accumulator is zeroed, nothing is written out): run whole on
  any staging memrefs. Handed the three input blocks, the output buffer at any contents (returned untouched: the
  window is idle here) and the accumulator at anything, it ends with the inputs as they were and the accumulator
  holding its stores' pieces — first the zero block, then zero block + tile product.
-/
import proofs.«159323_j55448027791577_2_alg».proof.Proof.KI.Lin0Cases

set_option maxRecDepth 16384

noncomputable section

namespace Cert.KernelIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at a point with k = 0 (none in the output buffer), with the
    proof that the body runs to any continuation that holds the buffers so written. -/
noncomputable def runFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i)
    (x0 : Vec F S1024x256 .f32) (x1 : Vec F S2048x256 .f32) (x2 : Vec F S1x2048 .f32) :
    Σ' (L3 : List (View.Piece (Elt F) S1024x2048 .bf16)), { LS : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Lin0

end
-- ==== Proof.KI.Lin0RunMid.lean ====
/-
  The linear layer's body at a point with 0 < k < 15 (the accumulator grows by the tile product, nothing is written
  out): run whole on any staging memrefs, the accumulator handed in at the contents the point before left.
-/
import proofs.«159323_j55448027791577_2_alg».proof.Proof.KI.Lin0RunFirst

set_option maxRecDepth 16384

noncomputable section

namespace Cert.KernelIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's one store leaves in the accumulator at a point with 0 < k < 15 (none in the output buffer),
    with the proof that the body runs to any continuation that holds the buffers so written. -/
noncomputable def runMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i)
    (x0 : Vec F S1024x256 .f32) (x1 : Vec F S2048x256 .f32) (x2 : Vec F S1x2048 .f32) (xs : Vec F S1024x2048 .f32) :
    Σ' (L3 : List (View.Piece (Elt F) S1024x2048 .bf16)), { LS : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Lin0

end
-- ==== Proof.KI.Lin0RunLast.lean ====
/-
  The linear layer's body at a point with k = 15 (the accumulator takes its last tile product, then accumulator +
  bias row is written into the output block): run whole on any staging memrefs, the accumulator handed in at the
  contents the point before left, the output buffer at anything.
-/
import proofs.«159323_j55448027791577_2_alg».proof.Proof.KI.Lin0RunMid

set_option maxRecDepth 16384

noncomputable section

namespace Cert.KernelIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output buffer and in the accumulator at a point with k = 15, with the
    proof that the body runs to any continuation that holds the buffers so written. -/
noncomputable def runLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i)
    (x0 : Vec F S1024x256 .f32) (x1 : Vec F S2048x256 .f32) (x2 : Vec F S1x2048 .f32) (xs : Vec F S1024x2048 .f32) :
    Σ' (L3 : List (View.Piece (Elt F) S1024x2048 .bf16)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Lin0

end
-- ==== Proof.KI.Lin0Data.lean ====
/-
  The first linear layer's region, as data for the pipeline's frame theorem, at the buffer contents `V` the region
  is entered with. What the accumulator and the output block hold after each grid point is defined by recursion on
  the point: at k = 0 the accumulator restarts from the zero block, at every other point it is the point before's
  accumulator plus this point's tile product, and at k = 15 the output block is that accumulator plus the bias row.
  The region's invariant holds the accumulator at exactly these contents between points (before the first point the
  class's own invariant: the accumulator at anything), beside every other scoped buffer unopened. With it the body
  meets its obligation at every point, and the invariant is entered from and returns to the class's own.
-/
import proofs.«159323_j55448027791577_2_alg».proof.Proof.KI.Lin0RunLast

set_option maxRecDepth 16384

noncomputable section

namespace Cert.KernelIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data over `V` whose body leaves the block in place. -/
theorem blockKept0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem blockKept1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem blockKept2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its pieces read back -/

/-- At k = 0 nothing is stored into the output buffer: a placeholder nothing consults (the window is idle there). -/
def outFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i) (x0 : Vec F S1024x256 .f32) (x1 : Vec F S2048x256 .f32) (x2 : Vec F S1x2048 .f32) : Vec F S1024x2048 .bf16 :=
  outV.read (Elt F) (outV.writes (Elt F) outV.junk (runFirst c i arg3 harg3 arg4 harg4 arg5 harg5 arg6 harg6 arg7 harg7 hz he x0 x1 x2).1)
/-- The accumulator's pieces at k = 0 cover it. -/
theorem accCoverFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i) (x0 : Vec F S1024x256 .f32) (x1 : Vec F S2048x256 .f32) (x2 : Vec F S1x2048 .f32) (y : S1024x2048.Idx) : ∃ pc ∈ (runFirst c i arg3 harg3 arg4 harg4 arg5 harg5 arg6 harg6 arg7 harg7 hz he x0 x1 x2).2.1, y ∈ pc.1.set :=
  View.cover_of_tiledL (runFirst c i arg3 harg3 arg4 harg4 arg5 harg5 arg6 harg6 arg7 harg7 hz he x0 x1 x2).2.1 S1024x2048.size (by sl_kernel_rfl) y
/-- What the accumulator holds after a point with k = 0. -/
def accFirst (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i) (x0 : Vec F S1024x256 .f32) (x1 : Vec F S2048x256 .f32) (x2 : Vec F S1x2048 .f32) : Vec F S1024x2048 .f32 :=
  accV.read (Elt F) (accV.writes (Elt F) accV.junk (runFirst c i arg3 harg3 arg4 harg4 arg5 harg5 arg6 harg6 arg7 harg7 hz he x0 x1 x2).2.1)

/-- At 0 < k < 15 nothing is stored into the output buffer either. -/
def outMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i) (x0 : Vec F S1024x256 .f32) (x1 : Vec F S2048x256 .f32) (x2 : Vec F S1x2048 .f32) (xs : Vec F S1024x2048 .f32) : Vec F S1024x2048 .bf16 :=
  outV.read (Elt F) (outV.writes (Elt F) outV.junk (runMid c i arg3 harg3 arg4 harg4 arg5 harg5 arg6 harg6 arg7 harg7 hz he x0 x1 x2 xs).1)
theorem accCoverMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i) (x0 : Vec F S1024x256 .f32) (x1 : Vec F S2048x256 .f32) (x2 : Vec F S1x2048 .f32) (xs : Vec F S1024x2048 .f32) (y : S1024x2048.Idx) : ∃ pc ∈ (runMid c i arg3 harg3 arg4 harg4 arg5 harg5 arg6 harg6 arg7 harg7 hz he x0 x1 x2 xs).2.1, y ∈ pc.1.set :=
  View.cover_of_tiledL (runMid c i arg3 harg3 arg4 harg4 arg5 harg5 arg6 harg6 arg7 harg7 hz he x0 x1 x2 xs).2.1 S1024x2048.size (by sl_kernel_rfl) y
/-- What the accumulator holds after a point with 0 < k < 15. -/
def accMid (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i) (x0 : Vec F S1024x256 .f32) (x1 : Vec F S2048x256 .f32) (x2 : Vec F S1x2048 .f32) (xs : Vec F S1024x2048 .f32) : Vec F S1024x2048 .f32 :=
  accV.read (Elt F) (accV.writes (Elt F) accV.junk (runMid c i arg3 harg3 arg4 harg4 arg5 harg5 arg6 harg6 arg7 harg7 hz he x0 x1 x2 xs).2.1)

/-- At k = 15 the one store into the output buffer covers it. -/
theorem outCoverLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).1, y ∈ pc.1.set :=
  View.cover_of_tiledL (runLast c i arg3 harg3 arg4 harg4 arg5 harg5 arg6 harg6 arg7 harg7 hz he x0 x1 x2 xs).1 S1024x2048.size (by sl_kernel_rfl) y
/-- What the output buffer holds after a point with k = 15. -/
def outLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) : Vec F S1024x2048 .bf16 :=
  outV.read (Elt F) (outV.writes (Elt F) outV.junk (runLast c i arg3 harg3 arg4 harg4 arg5 harg5 arg6 harg6 arg7 harg7 hz he x0 x1 x2 xs).1)
theorem accCoverLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).2.1, y ∈ pc.1.set :=
  View.cover_of_tiledL (runLast c i arg3 harg3 arg4 harg4 arg5 harg5 arg6 harg6 arg7 harg7 hz he x0 x1 x2 xs).2.1 S1024x2048.size (by sl_kernel_rfl) y
/-- What the accumulator holds after a point with k = 15. -/
def accLast (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) : Vec F S1024x2048 .f32 :=
  accV.read (Elt F) (accV.writes (Elt F) accV.junk (runLast c i arg3 harg3 arg4 harg4 arg5 harg5 arg6 harg6 arg7 harg7 hz he x0 x1 x2 xs).2.1)

/-! ## The accumulation, point by point -/

/-- What the output buffer and the accumulator hold after the body at position `n`: the case `n % 16` selects, run at
    the point's memrefs and blocks, the accumulator it reads at what position `n - 1` left (no transfer touches it). -/
def outsAt0 (c : Dev nD) : (n : ℕ) → n < cfg0.N → Vec F S1024x2048 .bf16 × Vec F S1024x2048 .f32
  | 0, hn =>
    (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk0 V c 0 ⟨0, hn⟩) (iblk0 V c 1 ⟨0, hn⟩) (iblk0 V c 2 ⟨0, hn⟩),
     accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk0 V c 0 ⟨n + 1, hn⟩) (iblk0 V c 1 ⟨n + 1, hn⟩) (iblk0 V c 2 ⟨n + 1, hn⟩),
         accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
         accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a point with k = 0: the restart. -/
theorem outsAt0_first (c : Dev nD) (t : Fin cfg0.N) (h0 : t.val % 16 = 0) (h1 : ¬t.val % 16 = 15) :
    outsAt0 V c t.val t.isLt =
      (outFirst c (grid0.coords t) (ms0 t) (hs0 t) (ms1 t) (hs1 t) (ms2 t) (hs2 t) (ms3 t) (hs3 t) accM (Memref.isWhole_whole _) ((zeroes_iff t).mpr h0) (fun h => h1 ((emits_iff t).mp h)) (iblk0 V c 0 t) (iblk0 V c 1 t) (iblk0 V c 2 t),
       accFirst c (grid0.coords t) (ms0 t) (hs0 t) (ms1 t) (hs1 t) (ms2 t) (hs2 t) (ms3 t) (hs3 t) accM (Memref.isWhole_whole _) ((zeroes_iff t).mpr h0) (fun h => h1 ((emits_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a point with 0 < k < 15: over what the point before left. -/
theorem outsAt0_mid (c : Dev nD) (t : Fin cfg0.N) (h0 : ¬t.val % 16 = 0) (h1 : ¬t.val % 16 = 15) :
    outsAt0 V c t.val t.isLt =
      (outMid c (grid0.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk0 V c 0 t) (iblk0 V c 1 t) (iblk0 V c 2 t) (outsAt0 V c (t.val - 1) (Nat.lt_of_le_of_lt (Nat.sub_le _ _) t.isLt)).2,
       accMid c (grid0.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with k = 15: over what the point before left. -/
theorem outsAt0_last (c : Dev nD) (t : Fin cfg0.N) (h0 : ¬t.val % 16 = 0) (h1 : t.val % 16 = 15) :
    outsAt0 V c t.val t.isLt =
      (outLast c (grid0.coords t) (ms0 t) (hs0 t) (ms1 t) (hs1 t) (ms2 t) (hs2 t) (ms3 t) (hs3 t) accM (Memref.isWhole_whole _) (fun h => h0 ((zeroes_iff t).mp h)) ((emits_iff t).mpr h1) (iblk0 V c 0 t) (iblk0 V c 1 t) (iblk0 V c 2 t) (outsAt0 V c (t.val - 1) (Nat.lt_of_le_of_lt (Nat.sub_le _ _) t.isLt)).2,
       accLast c (grid0.coords t) (ms0 t) (hs0 t) (ms1 t) (hs1 t) (ms2 t) (hs2 t) (ms3 t) (hs3 t) accM (Memref.isWhole_whole _) (fun h => h0 ((zeroes_iff t).mp h)) ((emits_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant: the accumulator at what the point before left -/

/-- Before position `n`: at the first point the class's own invariant; afterwards the accumulator at what position
    `n - 1` left in it, every other scoped buffer unopened, the generator register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt0 V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) accM fullShare ((outsAt0 V c (n - 1) (by omega)).2) ∗ others c) ∗ (∃ r, prngReg c r)) := by
  cases n with
  | zero => exact absurd rfl hz
  | succ n => rfl

/-! ## The pipeline's proof data -/

/-- The arrays as the region finds them; after the body at point `t` each input's buffer at its block and the output's at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  blockKept0 V (dat0 V c) (A_eq0 V c 0) (after0_0 V c) t d
theorem before0_1 (c : Dev nD) (t : Fin cfg0.N) (d) : (dat0 V c).before 1 t d = iblk0 V c 1 t :=
  blockKept1 V (dat0 V c) (A_eq0 V c 1) (after0_1 V c) t d
theorem before0_2 (c : Dev nD) (t : Fin cfg0.N) (d) : (dat0 V c).before 2 t d = iblk0 V c 2 t :=
  blockKept2 V (dat0 V c) (A_eq0 V c 2) (after0_2 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; `t % 16` says which case the point is in; the
    invariant hands the body the accumulator at what the point before left (at anything before the first point) and
    takes it back at this point's contents; where k ≠ 15 the output buffer is handed back as found, where k = 15 it is
    returned covered by the body's store; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
      unfold Dat.leavesExact; rw [live0 t], after0_0]
  rw [show (dat0 V c).leavesExact 1 t = owns (c : Thread nD τ) (ms1 t) fullShare ((dat0 V c).after 1 t) from by
      unfold Dat.leavesExact; rw [live1 t], after0_1]
  rw [show (dat0 V c).leavesExact 2 t = owns (c : Thread nD τ) (ms2 t) fullShare ((dat0 V c).after 2 t) from by
      unfold Dat.leavesExact; rw [live2 t], after0_2]
  have hN : t.val < 64 := lt_of_lt_of_eq t.isLt (show cfg0.N = 64 from N_0)
  by_cases h0 : t.val % 16 = 0
  · have h1 : ¬t.val % 16 = 15 := by omega
    have hz' : zeroes (grid0.coords t) := (zeroes_iff t).mpr h0
    have he' : ¬emits (grid0.coords t) := fun h => h1 ((emits_iff t).mp h)
    rw [Dat.leavesExact_idle (dat0 V c) 3 t (idle3 t he') (noFlush3 t he')]
    rw [outsAt0_first V c t h0 h1]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ hz' he' (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid0.coords t) _ _ _ _ _ _ _ _ _ _ hz' he' (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz' : ¬zeroes (grid0.coords t) := fun h => h0 ((zeroes_iff t).mp h)
    have hz : t.val ≠ 0 := fun e => h0 (by rw [e])
    by_cases h1 : t.val % 16 = 15
    · have he' : emits (grid0.coords t) := (emits_iff t).mpr h1
      rw [show (dat0 V c).leavesExact 3 t = owns (c : Thread nD τ) (ms3 t) fullShare ((dat0 V c).after 3 t) from by
          unfold Dat.leavesExact; rw [live3 t he'], after0_3]
      rw [outsAt0_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ hz' he' (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · have he' : ¬emits (grid0.coords t) := fun h => h1 ((emits_iff t).mp h)
      rw [Dat.leavesExact_idle (dat0 V c) 3 t (idle3 t he') (noFlush3 t he')]
      rw [outsAt0_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ hz' he' (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## Into the invariant and out of it -/

/-- What the launch hands the region (the class's invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout0 (c : Dev nD) : (dat0 V c).Φ (Fin.last cfg0.N) ⊢ Pipeline.ΦA spec0 c :=
  Phi_out V c _ (by rw [Fin.val_last]; have : cfg0.N = 64 := N_0; omega)

end Cert.KernelIdeal.Lin0

end
-- ==== Proof.KI.Lin1Cases.lean ====
/-
  The second tiled linear layer (grid (i, j, k) = 2 × 2 × 16, point t = 32·i + 16·j + k): what its three control
  cases share. The body zeroes its accumulator when k = 0, adds the tile product at every k, and when k = 15 writes
  accumulator + bias row into the output block; so a point is in one of three cases — k = 0, 0 < k < 15, k = 15 —
  read off t % 16. Here: the two branch conditions in closed form over the 64 points, where the output window is
  idle (every point but k = 15, where it is also the only write-back), names for the staging memrefs the body is
  called with and for the accumulator, and the region invariant with the accumulator's buffer opened.
-/
import proofs.«159323_j55448027791577_2_alg».proof.Proof.Gen.KernelIdeal.Launch
import proofs.«159323_j55448027791577_2_alg».proof.Proof.Gen.KernelIdeal.Skeleton
import proofs.«159323_j55448027791577_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid -/

/-- The accumulator is zeroed at this point: the body's first condition, k = 0, as its scalar chain computes it. -/
abbrev zeroes (i : grid1.Coords) : Prop :=
  (Scalar.cmpi .ne (Scalar.extui (Scalar.cmpi .eq (BitVec.ofNat 32 (i 2).val) 0#32)) 0#32) = 1#1
/-- It holds exactly at the points with k = 0. -/
theorem zeroes_iff : ∀ t : Fin cfg1.N, zeroes (grid1.coords t) ↔ t.val % 16 = 0 :=
  (by decide +kernel : ∀ t : Fin grid1.N, zeroes (grid1.coords t) ↔ t.val % 16 = 0)

/-- The output block is written at this point: the body's second condition, k = 15. -/
abbrev emits (i : grid1.Coords) : Prop := k1_cond2 i = 1#1
/-- It holds exactly at the points with k = 15. -/
theorem emits_iff : ∀ t : Fin cfg1.N, emits (grid1.coords t) ↔ t.val % 16 = 15 :=
  (by decide +kernel : ∀ t : Fin grid1.N, emits (grid1.coords t) ↔ t.val % 16 = 15)

/-! ## Where the windows are idle -/

/-- The three inputs are never idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Where k ≠ 15 the output window is idle and its block is not written back. -/
theorem idle3 : ∀ t : Fin cfg1.N, ¬emits (grid1.coords t) → cfg1.idle 3 (grid1.coords t) = true := by decide +kernel
theorem noFlush3 : ∀ t : Fin cfg1.N, ¬emits (grid1.coords t) → (cfg1.win 3).flush t = false := by decide +kernel
/-- Where k = 15 it is live. -/
theorem live3 : ∀ t : Fin cfg1.N, emits (grid1.coords t) → cfg1.idle 3 (grid1.coords t) = false := by decide +kernel

/-! ## The memrefs the body is called with -/

/-- One staging buffer of the output window, through which its contents are stated. -/
abbrev outV : View sig .tc .vmem S1024x2048 .f32 := (Memref.whole cc1_stg3_0 : Memref sig .tc .vmem S1024x2048 .f32).view
/-- Each window's current staging memref at point `t`, as the pipeline passes it, and its wholeness. -/
abbrev ms0 (t : Fin cfg1.N) : Memref sig .tc .vmem S1024x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x2048 .f32 := win1_3.stage (cfg1.slots t 3)
abbrev hs3 (t : Fin cfg1.N) : (ms3 t).IsWhole := hstage1_3 ((cfg1.slots t 3).cast nbuf1_3)
/-- The accumulator: a whole scoped buffer of the kernel's own, passed beside the windows, and its view. -/
abbrev accM : Memref sig .tc .vmem S1024x2048 .f32 := Memref.whole cc1_scratch0
abbrev accV : View sig .tc .vmem S1024x2048 .f32 := accM.view

/-! ## The region invariant with the accumulator opened -/

/-- Every other scoped buffer of the core that is no staging buffer of this region (the other two regions' staging
    buffers and the first layer's accumulator), each at some contents: carried through the region unopened. -/
abbrev others (c : Dev nD) : sProp 𝕄 :=
  Pipeline.scopedRestBut (Ix := Unit) (Name := ℕ) (U := UR sig nD τ) (Lvl := ℕ) (Val := Elt F) spec1 c [cc1_scratch0]

/-- The class's invariant is: the accumulator owned at some contents, the other scoped buffers, the generator
    register at some state. -/
theorem PhiA_eq (c : Dev nD) :
    (Pipeline.ΦA spec1 c : sProp 𝕄)
      = iprop(iprop((∃ d, owns (c : Thread nD τ) accM fullShare d) ∗ others c) ∗ (∃ r, prngReg c r)) := by
  unfold Pipeline.ΦA
  rw [Pipeline.scopedRest_split_of_list (win := spec1) (c := c) [cc1_scratch0] (by decide) (by decide)]
  simp only [accM, owns_whole]
  rfl

end Cert.KernelIdeal.Lin1

end
-- ==== Proof.KI.Lin1RunFirst.lean ====
/-
  The linear layer's body at a point with k = 0 (the accumulator is zeroed, nothing is written out): run whole on
  any staging memrefs. Handed the three input blocks, the output buffer at any contents (returned untouched: the
  window is idle here) and the accumulator at anything, it ends with the inputs as they were and the accumulator
  holding its stores' pieces — first the zero block, then zero block + tile product.
-/
import proofs.«159323_j55448027791577_2_alg».proof.Proof.KI.Lin1Cases

set_option maxRecDepth 16384

noncomputable section

namespace Cert.KernelIdeal.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the accumulator at a point with k = 0 (none in the output buffer), with the
    proof that the body runs to any continuation that holds the buffers so written. -/
noncomputable def runFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i)
    (x0 : Vec F S1024x256 .bf16) (x1 : Vec F S2048x256 .f32) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Lin1

end
-- ==== Proof.KI.Lin1RunMid.lean ====
/-
  The linear layer's body at a point with 0 < k < 15 (the accumulator grows by the tile product, nothing is written
  out): run whole on any staging memrefs, the accumulator handed in at the contents the point before left.
-/
import proofs.«159323_j55448027791577_2_alg».proof.Proof.KI.Lin1RunFirst

set_option maxRecDepth 16384

noncomputable section

namespace Cert.KernelIdeal.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's one store leaves in the accumulator at a point with 0 < k < 15 (none in the output buffer),
    with the proof that the body runs to any continuation that holds the buffers so written. -/
noncomputable def runMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i)
    (x0 : Vec F S1024x256 .bf16) (x1 : Vec F S2048x256 .f32) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Lin1

end
-- ==== Proof.KI.Lin1RunLast.lean ====
/-
  The linear layer's body at a point with k = 15 (the accumulator takes its last tile product, then accumulator +
  bias row is written into the output block): run whole on any staging memrefs, the accumulator handed in at the
  contents the point before left, the output buffer at anything.
-/
import proofs.«159323_j55448027791577_2_alg».proof.Proof.KI.Lin1RunMid

set_option maxRecDepth 16384

noncomputable section

namespace Cert.KernelIdeal.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output buffer and in the accumulator at a point with k = 15, with the
    proof that the body runs to any continuation that holds the buffers so written. -/
noncomputable def runLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i)
    (x0 : Vec F S1024x256 .bf16) (x1 : Vec F S2048x256 .f32) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Lin1

end
-- ==== Proof.KI.Lin1Data.lean ====
/-
  The second linear layer's region, as data for the pipeline's frame theorem, at the buffer contents `V` the region
  is entered with. What the accumulator and the output block hold after each grid point is defined by recursion on
  the point: at k = 0 the accumulator restarts from the zero block, at every other point it is the point before's
  accumulator plus this point's tile product, and at k = 15 the output block is that accumulator plus the bias row.
  The region's invariant holds the accumulator at exactly these contents between points (before the first point the
  class's own invariant: the accumulator at anything), beside every other scoped buffer unopened. With it the body
  meets its obligation at every point, and the invariant is entered from and returns to the class's own.
-/
import proofs.«159323_j55448027791577_2_alg».proof.Proof.KI.Lin1RunLast

set_option maxRecDepth 16384

noncomputable section

namespace Cert.KernelIdeal.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data over `V` whose body leaves the block in place. -/
theorem blockKept0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem blockKept1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem blockKept2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

/-- At k = 0 nothing is stored into the output buffer: a placeholder nothing consults (the window is idle there). -/
def outFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i) (x0 : Vec F S1024x256 .bf16) (x1 : Vec F S2048x256 .f32) (x2 : Vec F S1x2048 .f32) : Vec F S1024x2048 .f32 :=
  outV.read (Elt F) (outV.writes (Elt F) outV.junk (runFirst c i arg3 harg3 arg4 harg4 arg5 harg5 arg6 harg6 arg7 harg7 hz he x0 x1 x2).1)
/-- The accumulator's pieces at k = 0 cover it. -/
theorem accCoverFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i) (x0 : Vec F S1024x256 .bf16) (x1 : Vec F S2048x256 .f32) (x2 : Vec F S1x2048 .f32) (y : S1024x2048.Idx) : ∃ pc ∈ (runFirst c i arg3 harg3 arg4 harg4 arg5 harg5 arg6 harg6 arg7 harg7 hz he x0 x1 x2).2.1, y ∈ pc.1.set :=
  View.cover_of_tiledL (runFirst c i arg3 harg3 arg4 harg4 arg5 harg5 arg6 harg6 arg7 harg7 hz he x0 x1 x2).2.1 S1024x2048.size (by sl_kernel_rfl) y
/-- What the accumulator holds after a point with k = 0. -/
def accFirst (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i) (x0 : Vec F S1024x256 .bf16) (x1 : Vec F S2048x256 .f32) (x2 : Vec F S1x2048 .f32) : Vec F S1024x2048 .f32 :=
  accV.read (Elt F) (accV.writes (Elt F) accV.junk (runFirst c i arg3 harg3 arg4 harg4 arg5 harg5 arg6 harg6 arg7 harg7 hz he x0 x1 x2).2.1)

/-- At 0 < k < 15 nothing is stored into the output buffer either. -/
def outMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i) (x0 : Vec F S1024x256 .bf16) (x1 : Vec F S2048x256 .f32) (x2 : Vec F S1x2048 .f32) (xs : Vec F S1024x2048 .f32) : Vec F S1024x2048 .f32 :=
  outV.read (Elt F) (outV.writes (Elt F) outV.junk (runMid c i arg3 harg3 arg4 harg4 arg5 harg5 arg6 harg6 arg7 harg7 hz he x0 x1 x2 xs).1)
theorem accCoverMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i) (x0 : Vec F S1024x256 .bf16) (x1 : Vec F S2048x256 .f32) (x2 : Vec F S1x2048 .f32) (xs : Vec F S1024x2048 .f32) (y : S1024x2048.Idx) : ∃ pc ∈ (runMid c i arg3 harg3 arg4 harg4 arg5 harg5 arg6 harg6 arg7 harg7 hz he x0 x1 x2 xs).2.1, y ∈ pc.1.set :=
  View.cover_of_tiledL (runMid c i arg3 harg3 arg4 harg4 arg5 harg5 arg6 harg6 arg7 harg7 hz he x0 x1 x2 xs).2.1 S1024x2048.size (by sl_kernel_rfl) y
/-- What the accumulator holds after a point with 0 < k < 15. -/
def accMid (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i) (x0 : Vec F S1024x256 .bf16) (x1 : Vec F S2048x256 .f32) (x2 : Vec F S1x2048 .f32) (xs : Vec F S1024x2048 .f32) : Vec F S1024x2048 .f32 :=
  accV.read (Elt F) (accV.writes (Elt F) accV.junk (runMid c i arg3 harg3 arg4 harg4 arg5 harg5 arg6 harg6 arg7 harg7 hz he x0 x1 x2 xs).2.1)

/-- At k = 15 the one store into the output buffer covers it. -/
theorem outCoverLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).1, y ∈ pc.1.set :=
  View.cover_of_tiledL (runLast c i arg3 harg3 arg4 harg4 arg5 harg5 arg6 harg6 arg7 harg7 hz he x0 x1 x2 xs).1 S1024x2048.size (by sl_kernel_rfl) y
/-- What the output buffer holds after a point with k = 15. -/
def outLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) : Vec F S1024x2048 .f32 :=
  outV.read (Elt F) (outV.writes (Elt F) outV.junk (runLast c i arg3 harg3 arg4 harg4 arg5 harg5 arg6 harg6 arg7 harg7 hz he x0 x1 x2 xs).1)
theorem accCoverLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) (y : S1024x2048.Idx) : ∃ pc ∈ (runLast c i arg3 harg3 arg4 harg4 arg5 harg5 arg6 harg6 arg7 harg7 hz he x0 x1 x2 xs).2.1, y ∈ pc.1.set :=
  View.cover_of_tiledL (runLast c i arg3 harg3 arg4 harg4 arg5 harg5 arg6 harg6 arg7 harg7 hz he x0 x1 x2 xs).2.1 S1024x2048.size (by sl_kernel_rfl) y
/-- What the accumulator holds after a point with k = 15. -/
def accLast (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) : Vec F S1024x2048 .f32 :=
  accV.read (Elt F) (accV.writes (Elt F) accV.junk (runLast c i arg3 harg3 arg4 harg4 arg5 harg5 arg6 harg6 arg7 harg7 hz he x0 x1 x2 xs).2.1)

/-! ## The accumulation, point by point -/

/-- What the output buffer and the accumulator hold after the body at position `n`: the case `n % 16` selects, run at
    the point's memrefs and blocks, the accumulator it reads at what position `n - 1` left (no transfer touches it). -/
def outsAt1 (c : Dev nD) : (n : ℕ) → n < cfg1.N → Vec F S1024x2048 .f32 × Vec F S1024x2048 .f32
  | 0, hn =>
    (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk1 V c 0 ⟨0, hn⟩) (iblk1 V c 1 ⟨0, hn⟩) (iblk1 V c 2 ⟨0, hn⟩),
     accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((zeroes_iff ⟨0, hn⟩).mpr (Nat.zero_mod _)) (fun h => absurd ((emits_iff ⟨0, hn⟩).mp h) (show ¬((0 : ℕ) % 16 = 15) from by decide)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk1 V c 0 ⟨n + 1, hn⟩) (iblk1 V c 1 ⟨n + 1, hn⟩) (iblk1 V c 2 ⟨n + 1, hn⟩),
         accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((zeroes_iff ⟨n + 1, hn⟩).mpr h0) (fun h => h1 ((emits_iff ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) ((emits_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((zeroes_iff ⟨n + 1, hn⟩).mp h)) (fun h => h1 ((emits_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0: the restart. -/
theorem outsAt1_first (c : Dev nD) (t : Fin cfg1.N) (h0 : t.val % 16 = 0) (h1 : ¬t.val % 16 = 15) :
    outsAt1 V c t.val t.isLt =
      (outFirst c (grid1.coords t) (ms0 t) (hs0 t) (ms1 t) (hs1 t) (ms2 t) (hs2 t) (ms3 t) (hs3 t) accM (Memref.isWhole_whole _) ((zeroes_iff t).mpr h0) (fun h => h1 ((emits_iff t).mp h)) (iblk1 V c 0 t) (iblk1 V c 1 t) (iblk1 V c 2 t),
       accFirst c (grid1.coords t) (ms0 t) (hs0 t) (ms1 t) (hs1 t) (ms2 t) (hs2 t) (ms3 t) (hs3 t) accM (Memref.isWhole_whole _) ((zeroes_iff t).mpr h0) (fun h => h1 ((emits_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 15: over what the point before left. -/
theorem outsAt1_mid (c : Dev nD) (t : Fin cfg1.N) (h0 : ¬t.val % 16 = 0) (h1 : ¬t.val % 16 = 15) :
    outsAt1 V c t.val t.isLt =
      (outMid c (grid1.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk1 V c 0 t) (iblk1 V c 1 t) (iblk1 V c 2 t) (outsAt1 V c (t.val - 1) (Nat.lt_of_le_of_lt (Nat.sub_le _ _) t.isLt)).2,
       accMid c (grid1.coords t) (ms0 t) (hs0 t) (ms1 t) (hs1 t) (ms2 t) (hs2 t) (ms3 t) (hs3 t) accM (Memref.isWhole_whole _) (fun h => h0 ((zeroes_iff t).mp h)) (fun h => h1 ((emits_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with k = 15: over what the point before left. -/
theorem outsAt1_last (c : Dev nD) (t : Fin cfg1.N) (h0 : ¬t.val % 16 = 0) (h1 : t.val % 16 = 15) :
    outsAt1 V c t.val t.isLt =
      (outLast c (grid1.coords t) (ms0 t) (hs0 t) (ms1 t) (hs1 t) (ms2 t) (hs2 t) (ms3 t) (hs3 t) accM (Memref.isWhole_whole _) (fun h => h0 ((zeroes_iff t).mp h)) ((emits_iff t).mpr h1) (iblk1 V c 0 t) (iblk1 V c 1 t) (iblk1 V c 2 t) (outsAt1 V c (t.val - 1) (Nat.lt_of_le_of_lt (Nat.sub_le _ _) t.isLt)).2,
       accLast c (grid1.coords t) (ms0 t) (hs0 t) (ms1 t) (hs1 t) (ms2 t) (hs2 t) (ms3 t) (hs3 t) accM (Memref.isWhole_whole _) (fun h => h0 ((zeroes_iff t).mp h)) ((emits_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant: the accumulator at what the point before left -/

/-- Before position `n`: at the first point the class's own invariant; afterwards the accumulator at what position
    `n - 1` left in it, every other scoped buffer unopened, the generator register at some state. -/
def PhiS (c : Dev nD) : (n : ℕ) → n ≤ cfg1.N → sProp 𝕄
  | 0, _ => Pipeline.ΦA spec1 c
  | n + 1, hn => iprop(iprop(owns (c : Thread nD τ) accM fullShare ((outsAt1 V c n hn).2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accM fullShare ((outsAt1 V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) accM fullShare ((outsAt1 V c (n - 1) (by omega)).2) ∗ others c) ∗ (∃ r, prngReg c r)) := by
  cases n with
  | zero => exact absurd rfl hz
  | succ n => rfl

/-! ## The pipeline's proof data -/

/-- The arrays as the region finds them; after the body at point `t` each input's buffer at its block and the output's at
    `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  blockKept0 V (dat1 V c) (A_eq1 V c 0) (after1_0 V c) t d
theorem before1_1 (c : Dev nD) (t : Fin cfg1.N) (d) : (dat1 V c).before 1 t d = iblk1 V c 1 t :=
  blockKept1 V (dat1 V c) (A_eq1 V c 1) (after1_1 V c) t d
theorem before1_2 (c : Dev nD) (t : Fin cfg1.N) (d) : (dat1 V c).before 2 t d = iblk1 V c 2 t :=
  blockKept2 V (dat1 V c) (A_eq1 V c 2) (after1_2 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; `t % 16` says which case the point is in; the
    invariant hands the body the accumulator at what the point before left (at anything before the first point) and
    takes it back at this point's contents; where k ≠ 15 the output buffer is handed back as found, where k = 15 it is
    returned covered by the body's store; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
      unfold Dat.leavesExact; rw [live0 t], after1_0]
  rw [show (dat1 V c).leavesExact 1 t = owns (c : Thread nD τ) (ms1 t) fullShare ((dat1 V c).after 1 t) from by
      unfold Dat.leavesExact; rw [live1 t], after1_1]
  rw [show (dat1 V c).leavesExact 2 t = owns (c : Thread nD τ) (ms2 t) fullShare ((dat1 V c).after 2 t) from by
      unfold Dat.leavesExact; rw [live2 t], after1_2]
  have hN : t.val < 64 := lt_of_lt_of_eq t.isLt (show cfg1.N = 64 from N_1)
  by_cases h0 : t.val % 16 = 0
  · have h1 : ¬t.val % 16 = 15 := by omega
    have hz' : zeroes (grid1.coords t) := (zeroes_iff t).mpr h0
    have he' : ¬emits (grid1.coords t) := fun h => h1 ((emits_iff t).mp h)
    rw [Dat.leavesExact_idle (dat1 V c) 3 t (idle3 t he') (noFlush3 t he')]
    rw [outsAt1_first V c t h0 h1]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ hz' he' (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid1.coords t) _ _ _ _ _ _ _ _ _ _ hz' he' (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz' : ¬zeroes (grid1.coords t) := fun h => h0 ((zeroes_iff t).mp h)
    have hz : t.val ≠ 0 := fun e => h0 (by rw [e])
    by_cases h1 : t.val % 16 = 15
    · have he' : emits (grid1.coords t) := (emits_iff t).mpr h1
      rw [show (dat1 V c).leavesExact 3 t = owns (c : Thread nD τ) (ms3 t) fullShare ((dat1 V c).after 3 t) from by
          unfold Dat.leavesExact; rw [live3 t he'], after1_3]
      rw [outsAt1_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid1.coords t) _ _ _ _ _ _ _ _ _ _ hz' he' (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · have he' : ¬emits (grid1.coords t) := fun h => h1 ((emits_iff t).mp h)
      rw [Dat.leavesExact_idle (dat1 V c) 3 t (idle3 t he') (noFlush3 t he')]
      rw [outsAt1_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid1.coords t) _ _ _ _ _ _ _ _ _ _ hz' he' (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-! ## Into the invariant and out of it -/

/-- What the launch hands the region (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout1 (c : Dev nD) : (dat1 V c).Φ (Fin.last cfg1.N) ⊢ Pipeline.ΦA spec1 c :=
  Phi_out V c _ (by rw [Fin.val_last]; have : cfg1.N = 64 := N_1; omega)

end Cert.KernelIdeal.Lin1

end
-- ==== Proof.KI.CombData.lean ====
import proofs.«159323_j55448027791577_2_alg».proof.Proof.Gen.KernelIdeal.Launch
import proofs.«159323_j55448027791577_2_alg».proof.Proof.Gen.KernelIdeal.Skeleton
import proofs.«159323_j55448027791577_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The pointwise combine (third call), as one pipelined region

The third call walks the 2048 rows in eight blocks of 256 whole rows.  At each block it reads the block of
`y` and the block of the second linear layer's result, and writes `y * (out - rowsum (y * out))` over the whole
output block.  Nothing is carried from one block to the next: the body has a single control case, it reads its two
input blocks whole and overwrites its output block whole.

This module states that region's proof data at a parameter `V` -- the contents of the core's buffers when the
region is entered -- so that the whole-program run can enter it from whatever the second linear layer leaves.
-/

set_option maxRecDepth 16384

noncomputable section

namespace Cert.KernelIdeal.Comb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block of rows at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the first input holds its block of rows at every point, whatever it held before: the
    window is fetched at every point and the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of 256 rows by 4096 columns, as one rectangle. -/
abbrev r2_0 : Rect S256x4096 := Rect.unit (s := S256x4096) ![0, 0] S256x4096.size inb_S256x4096_S256x4096_0_0

/-! ## What the body leaves in the output block -/

/-- The output block after the body, from the two input blocks: the one store of the combined value over the
    whole rectangle, read back through the buffer's view. -/
def out2_2 (x0 : Vec F S256x4096 .f32) (x1 : Vec F S256x4096 .f32) : Vec F S256x4096 .f32 :=
  View.canon [⟨r2_0, k2_pay1 (View.ld x0 r2_0) (View.ld x1 r2_0)⟩]

/-- The one store covers the block. -/
theorem cover2_2 (p0 : Vec F S256x4096 .f32) (y : S256x4096.Idx) :
    ∃ pc ∈ ([⟨r2_0, p0⟩] : List (View.Piece (Elt F) S256x4096 .f32)), y ∈ pc.1.set :=
  View.cover_of_tiled [⟨r2_0, p0⟩] S256x4096.size (by rfl) y

/-! ## The body's triple -/

set_option maxHeartbeats 1000000 in
/-- The body on whole staging buffers -- the inputs' at `x0`, `x1`, the output's at anything -- runs to the end
    with the inputs' as they were and the output's at `out2_2 x0 x1`. -/
theorem sound_kernel2 (c : Dev nD) (E : Set ℕ) (i : grid2.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole)
    (x0 : Vec F S256x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__combine_kernel i arg1 harg1 arg2 harg2 arg3 harg3) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core `c`: the arrays as the region finds them; after the body at point `t`
    each input's buffer at its block and the output's at `out2_2` of the two input blocks; the invariant is the
    untouched rest of the core's scoped memory and its generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Comb

end
-- ==== Proof.KI.Whole.lean ====
import proofs.«159323_j55448027791577_2_alg».proof.Proof.KI.Lin0Data
import proofs.«159323_j55448027791577_2_alg».proof.Proof.KI.Lin1Data
import proofs.«159323_j55448027791577_2_alg».proof.Proof.KI.CombData
import proofs.«159323_j55448027791577_2_alg».proof.Proof.Gen.KernelIdeal.Launch
import proofs.«159323_j55448027791577_2_alg».proof.Proof.Gen.KernelIdeal.Skeleton
import proofs.«159323_j55448027791577_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole program, run from launch to return

The program reshapes the first bias into a row, runs the first linear layer `h = y · W1ᵀ + b1`, reshapes the second
bias into a row, runs the second linear layer `out = h · W2ᵀ + b2`, and runs the combine
`y * (out - rowsum (y * out))`.  Each of the three regions is entered with the core's buffers at the contents the
step before it leaves, and leaves its own arrays at what its write-backs produce; every other buffer passes through
untouched.

This module folds those contents through the program (`W0` … `W5`), states each region as a segment of the run over
them, and runs the segments in order.  Two things follow: the six argument arrays end as launched, and the result
array ends at the combine's output, whose inputs are the second linear layer's output and `y`.
-/

set_option maxRecDepth 16384

noncomputable section

namespace Cert.KernelIdeal.Whole
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of the program: a fold through it

The program is: reshape the first bias into a row; the first linear layer; reshape the second bias into a row; the
second linear layer; the combine.  Each boundary's contents are the previous boundary's with what the step between
them writes: a reshape's result, or a region's arrays at what its write-backs leave. -/

/-- Core `c`'s buffers at launch. -/
abbrev W0 : Dev nD → Valuation τ sig (Elt F) := fun c b => (s₀ m ρ).mem ((c : Dev nD), b)
/-- After the first bias is reshaped into a row: the first linear layer's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first linear layer: its arrays at what its write-backs leave, every other buffer as entered. -/
def W2 (c : Dev nD) : Valuation τ sig (Elt F) :=
  Pipeline.withArrays spec0 c (W1 m ρ c) fun w => (Lin0.dat0 (V1 m ρ) c).arrAt w cfg0.N
theorem W2_arr (c : Dev nD) (w : Fin cfg0.W) :
    W2 m ρ c (Proc.devRef .tc (Pipeline.arrRef spec0 w)) = (Lin0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Lin0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second bias is reshaped into a row: the second linear layer's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second linear layer. -/
def W4 (c : Dev nD) : Valuation τ sig (Elt F) :=
  Pipeline.withArrays spec1 c (W3 m ρ c) fun w => (Lin1.dat1 (V3 m ρ) c).arrAt w cfg1.N
theorem W4_arr (c : Dev nD) (w : Fin cfg1.W) :
    W4 m ρ c (Proc.devRef .tc (Pipeline.arrRef spec1 w)) = (Lin1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The combine is entered straight from what the second linear layer leaves. -/
abbrev V4 : (c : Dev nD) → (b : Ref sig .tc) → Buf (Elt F) ((c : Thread nD τ).loc b) := fun c b => W4 m ρ c b
theorem hF1 (c : Dev nD) (w : Fin cfg1.W) : (Lin1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the combine: the program's end. -/
def W5 (c : Dev nD) : Valuation τ sig (Elt F) :=
  Pipeline.withArrays spec2 c (W4 m ρ c) fun w => (Comb.dat2 (V4 m ρ) c).arrAt w cfg2.N
theorem W5_arr (c : Dev nD) (w : Fin cfg2.W) :
    W5 m ρ c (Proc.devRef .tc (Pipeline.arrRef spec2 w)) = (Comb.dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (Comb.dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### What a reshape leaves alone, and what it writes -/

/-- The first reshape writes the first bias row and nothing else. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))
/-- The second reshape writes the second bias row and nothing else. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-! ### The arguments end as launched

No reshape and no region writes an argument: a region reads it through an input window or does not touch it, so
the fold at an argument's buffer walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl
/-- `y`: the first linear layer's first input and the combine's first input. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 0).trans (((Comb.dat2 (V4 m ρ) c).arrAt_in 0 rfl _).trans (Comb.A_eq2 (V4 m ρ) c 0))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((Lin0.dat0 (V1 m ρ) c).arrAt_in 0 rfl _).trans (Lin0.A_eq0 (V1 m ρ) c 0))
    _ = W0 m ρ c (Proc.devRef .tc main_arg1) := W1_of_ne m ρ c main_arg1 (by decide)
    _ = m ((c : Thread nD τ).loc main_arg1) := rfl
/-- The first weight matrix: the first linear layer's second input. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((Lin0.dat0 (V1 m ρ) c).arrAt_in 1 rfl _).trans (Lin0.A_eq0 (V1 m ρ) c 1))
    _ = W0 m ρ c (Proc.devRef .tc main_arg2) := W1_of_ne m ρ c main_arg2 (by decide)
    _ = m ((c : Thread nD τ).loc main_arg2) := rfl
/-- The first bias: only read, by the first reshape. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
/-- The second weight matrix: the second linear layer's second input. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := (W4_arr m ρ c 1).trans (((Lin1.dat1 (V3 m ρ) c).arrAt_in 1 rfl _).trans (Lin1.A_eq1 (V3 m ρ) c 1))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
/-- The second bias: only read, by the second reshape. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## The proof data family and the thread state -/

/-- No region has a prefetched table. -/
abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => Lin0.dat0 (V1 m ρ) c
  | ⟨1, _⟩ => fun c => Lin1.dat1 (V3 m ρ) c
  | ⟨2, _⟩ => fun c => Comb.dat2 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A reshape as a segment, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the end contents `W5`, the generator
    register at some state. -/
abbrev Tₙ (c : Dev nD) : sProp 𝕄 := iprop(StableHlo.held (c : Thread nD τ) (Pipeline.ucRefs τ sig) (W5 m ρ c) ∗ ∃ r, prngReg c r)

/-! ## The plain invariant, assembled and taken apart -/

/-- The generator register and the scoped buffers the region's windows do not stage make up the plain invariant
    of region 0 (there are no prefetched tables), -/
theorem toΦA0 (c : Dev nD) :
    iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- and it splits back into them (the region has no semaphore of its own). -/
theorem ofΦA0 (c : Dev nD) :
    (Pipeline.ΦA spec0 c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  rw [Pipeline.ownSems0_none]; unfold Pipeline.ΦA
  iintro ⟨Hr, Hp⟩
  isplitl [Hp]; · iexact Hp
  isplitr; · iempintro
  iexact Hr

/-- The generator register and the scoped buffers the region's windows do not stage make up the plain invariant
    of region 1 (there are no prefetched tables), -/
theorem toΦA1 (c : Dev nD) :
    iprop((∃ r, prngReg c r) ∗ Pipeline.prefHeld (Ix := Unit) (Name := ℕ) (U := UR sig nD τ) (Lvl := ℕ) (pcfgs (F := F) 1).pre c (fun _ => fullShare) (adm (F := F) 1).1
        ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and it splits back into them (the region has no semaphore of its own). -/
theorem ofΦA1 (c : Dev nD) :
    (Pipeline.ΦA spec1 c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec1 c) := by
  rw [Pipeline.ownSems0_none]; unfold Pipeline.ΦA
  iintro ⟨Hr, Hp⟩
  isplitl [Hp]; · iexact Hp
  isplitr; · iempintro
  iexact Hr

/-- The generator register and the scoped buffers the region's windows do not stage make up the plain invariant
    of region 2 (there are no prefetched tables), -/
theorem toΦA2 (c : Dev nD) :
    iprop((∃ r, prngReg c r) ∗ Pipeline.prefHeld (Ix := Unit) (Name := ℕ) (U := UR sig nD τ) (Lvl := ℕ) (pcfgs (F := F) 2).pre c (fun _ => fullShare) (adm (F := F) 2).1
        ∗ Pipeline.scopedRest (Ix := Unit) (Name := ℕ) (U := UR sig nD τ) (Lvl := ℕ) (Val := Elt F) spec2 c)
      ⊢ (Pipeline.ΦA spec2 c : sProp 𝕄) := by
  unfold Pipeline.ΦA
  iintro ⟨Hp, -, Hr⟩
  isplitl [Hr]; · iexact Hr
  iexact Hp
/-- and it splits back into them (the region has no semaphore of its own). -/
theorem ofΦA2 (c : Dev nD) :
    (Pipeline.ΦA spec2 c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec2 c) := by
  rw [Pipeline.ownSems0_none]; unfold Pipeline.ΦA
  iintro ⟨Hr, Hp⟩
  isplitl [Hp]; · iexact Hp
  isplitr; · iempintro
  iexact Hr

/-! ## The regions as segments -/

set_option backward.isDefEq.respectTransparency.types false in
/-- The first linear layer as a segment of the run: entered with every unscoped buffer at `W1`, left with them at
    `W2`.  Its arrays are split out of the unscoped buffers on entry and put back at their final contents on
    exit; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA0 c).trans (Lin0.hin0 (V1 m ρ) c)
  hout c := (Lin0.hout0 (V1 m ρ) c).trans (ofΦA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second linear layer as a segment of the run: entered with every unscoped buffer at `W3`, left with them at
    `W4`.  Its arrays are split out of the unscoped buffers on entry and put back at their final contents on
    exit; the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (Lin1.hin1 (V3 m ρ) c)
  hout c := (Lin1.hout1 (V3 m ρ) c).trans (ofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine as a segment of the run: entered with every unscoped buffer at `W4`, left with them at
    `W5`.  Its arrays are split out of the unscoped buffers on entry and put back at their final contents on
    exit; the generator register goes into the region's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Comb.body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    exact toΦA2 c
  hout c := by
    rw [show (pdats m ρ 2 c).Φ (Fin.last _) = Pipeline.ΦA spec2 c from rfl]
    exact ofΦA2 c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of its segments. -/
theorem main_run (c : Dev nD) : main (F := F) c = Pipeline.Seg.run (segs m ρ) := (main_chain c).trans (by chain_rfl)

set_option backward.isDefEq.respectTransparency.types false in
/-- THE RUN: from any memory with zero counters, every weakly fair execution of the program on the cores
    terminates, nothing faulting, and in every final state every unscoped buffer holds the end contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

/-! ## The results read back -/

/-- The program's result is the combine's output array at the end of its region. -/
theorem W5_main_v4 (c : Dev nD) : W5 m ρ c (Proc.devRef .tc main_v4) = (Comb.dat2 (V4 m ρ) c).arrAt 2 cfg2.N :=
  W5_arr m ρ c 2
/-- The combine reads the second linear layer's output array as that region leaves it, -/
theorem V4_main_v3 (c : Dev nD) : V4 m ρ c main_v3 = (Lin1.dat1 (V3 m ρ) c).arrAt 3 cfg1.N :=
  W4_arr m ρ c 3
/-- and `y` as launched. -/
theorem V4_main_arg1 (c : Dev nD) : V4 m ρ c main_arg1 = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((Lin0.dat0 (V1 m ρ) c).arrAt_in 0 rfl _).trans (Lin0.A_eq0 (V1 m ρ) c 0))
    _ = W0 m ρ c (Proc.devRef .tc main_arg1) := W1_of_ne m ρ c main_arg1 (by decide)
    _ = m ((c : Thread nD τ).loc main_arg1) := rfl
/-- The second linear layer reads the first one's output array as that region leaves it, -/
theorem V3_main_v1 (c : Dev nD) : V3 m ρ c main_v1 = (Lin0.dat0 (V1 m ρ) c).arrAt 3 cfg0.N :=
  (W3_of_ne m ρ c main_v1 (by decide)).trans (W2_arr m ρ c 3)
theorem W2_main_v1 (c : Dev nD) : W2 m ρ c (Proc.devRef .tc main_v1) = (Lin0.dat0 (V1 m ρ) c).arrAt 3 cfg0.N :=
  W2_arr m ρ c 3
/-- the second weight matrix as launched, -/
theorem V3_main_arg4 (c : Dev nD) : V3 m ρ c main_arg4 = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
/-- and the second bias reshaped into a row. -/
theorem V3_main_v2 (c : Dev nD) :
    (V3 m ρ c main_v2 : S1x4096.Idx → Elt F .f32) = shapeCast S1x4096 (m ((c : Thread nD τ).loc main_arg5)) shapeCasts_S4096_S1x4096 := by
  have e : W2 m ρ c (Proc.devRef .tc main_arg5) = m ((c : Thread nD τ).loc main_arg5) :=
    (W2_of_ne m ρ c main_arg5 (by decide)).trans (W1_of_ne m ρ c main_arg5 (by decide))
  show StableHlo.after hostOps1 (W2 m ρ c) (Proc.devRef .tc main_v2) = _
  after_results
  rw [e]; rfl
/-- The first linear layer reads `y` and the first weight matrix as launched, -/
theorem V1_main_arg1 (c : Dev nD) : V1 m ρ c main_arg1 = m ((c : Thread nD τ).loc main_arg1) :=
  W1_of_ne m ρ c main_arg1 (by decide)
theorem V1_main_arg2 (c : Dev nD) : V1 m ρ c main_arg2 = m ((c : Thread nD τ).loc main_arg2) :=
  W1_of_ne m ρ c main_arg2 (by decide)
/-- and the first bias reshaped into a row. -/
theorem V1_main_v0 (c : Dev nD) :
    (V1 m ρ c main_v0 : S1x4096.Idx → Elt F .f32) = shapeCast S1x4096 (m ((c : Thread nD τ).loc main_arg3)) shapeCasts_S4096_S1x4096 := by
  show StableHlo.after hostOps0 (W0 m ρ c) (Proc.devRef .tc main_v0) = _
  after_results
  rfl

end Cert.KernelIdeal.Whole

end
-- ==== Proof.KI.Spec.lean ====
/-
  The function the whole computation is, index by index, over the extended reals.

  A linear layer with the weight stored row per output: entry (p, n) of `lin x W b` is the inner product of row p of
  `x` with row n of `W`, plus entry n of `b`.  Two such layers are stacked, and the result is combined with the
  input row by row: entry (p, n) of `res` is y(p, n) times the difference between the second layer's entry and the
  inner product of row p of `y` with row p of the second layer's output.

  Then the one law a computation tiled along the contracted axis needs: the 4096 terms of an inner product are 16 runs
  of 256, so an accumulator that starts from zero and adds one run's partial sum at a time ends at the whole sum.
  Only commutativity and associativity of addition are used, so the law holds with infinite terms as well.
-/
import Idealize.ShloMosaic.Lib.ValueIdx
import Mathlib.Algebra.BigOperators.Fin
import Mathlib.Algebra.BigOperators.Intervals

noncomputable section

namespace Cert.KI.Spec

open Idealize.ShloMosaic Idealize.ShloMosaic.ValueIdx
open scoped BigOperators

/-! ## The result as one function of the arguments -/

/-- Entry (p, n) of a linear layer over 4096 features: row p of `x` against row n of `W`, plus the bias's entry n. -/
def linAt {a : ℕ} (x : (⟨2, ![a, 4096]⟩ : Shape).Idx → EReal) (W : (⟨2, ![4096, 4096]⟩ : Shape).Idx → EReal)
    (b : (⟨1, ![4096]⟩ : Shape).Idx → EReal) (p : Fin a) (n : Fin 4096) : EReal :=
  (∑ k : Fin 4096, x (ix2 p k) * W (ix2 n k)) + b (ix1 n)

/-- The linear layer as an array. -/
def lin (x : (⟨2, ![2048, 4096]⟩ : Shape).Idx → EReal) (W : (⟨2, ![4096, 4096]⟩ : Shape).Idx → EReal)
    (b : (⟨1, ![4096]⟩ : Shape).Idx → EReal) : (⟨2, ![2048, 4096]⟩ : Shape).Idx → EReal :=
  fun i => linAt x W b (i 0) (i 1)

theorem lin_apply (x : (⟨2, ![2048, 4096]⟩ : Shape).Idx → EReal) (W : (⟨2, ![4096, 4096]⟩ : Shape).Idx → EReal)
    (b : (⟨1, ![4096]⟩ : Shape).Idx → EReal) (p : Fin 2048) (n : Fin 4096) :
    lin x W b (ix2 p n) = (∑ k : Fin 4096, x (ix2 p k) * W (ix2 n k)) + b (ix1 n) := rfl

/-- The two stacked layers. -/
def out (y : (⟨2, ![2048, 4096]⟩ : Shape).Idx → EReal) (W1 : (⟨2, ![4096, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) : (⟨2, ![2048, 4096]⟩ : Shape).Idx → EReal :=
  lin (lin y W1 b1) W2 b2

/-- Entry (p, n) of the row-wise combine of `y` with an array `o` of the same shape: y(p, n) times o(p, n) less the
    inner product of the two p-th rows. -/
def combineAt {a : ℕ} (y o : (⟨2, ![a, 4096]⟩ : Shape).Idx → EReal) (p : Fin a) (n : Fin 4096) : EReal :=
  y (ix2 p n) * (o (ix2 p n) - ∑ q : Fin 4096, y (ix2 p q) * o (ix2 p q))

/-- The combine as an array. -/
def combine (y o : (⟨2, ![2048, 4096]⟩ : Shape).Idx → EReal) : (⟨2, ![2048, 4096]⟩ : Shape).Idx → EReal :=
  fun i => combineAt y o (i 0) (i 1)

theorem combine_apply (y o : (⟨2, ![2048, 4096]⟩ : Shape).Idx → EReal) (p : Fin 2048) (n : Fin 4096) :
    combine y o (ix2 p n) = y (ix2 p n) * (o (ix2 p n) - ∑ q : Fin 4096, y (ix2 p q) * o (ix2 p q)) := rfl

/-- THE RESULT: the combine of the input with the two stacked layers of it. -/
def res (y : (⟨2, ![2048, 4096]⟩ : Shape).Idx → EReal) (W1 : (⟨2, ![4096, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) : (⟨2, ![2048, 4096]⟩ : Shape).Idx → EReal :=
  combine y (out y W1 b1 W2 b2)

theorem res_apply (y : (⟨2, ![2048, 4096]⟩ : Shape).Idx → EReal) (W1 : (⟨2, ![4096, 4096]⟩ : Shape).Idx → EReal)
    (b1 : (⟨1, ![4096]⟩ : Shape).Idx → EReal) (W2 : (⟨2, ![4096, 4096]⟩ : Shape).Idx → EReal)
    (b2 : (⟨1, ![4096]⟩ : Shape).Idx → EReal) (p : Fin 2048) (n : Fin 4096) :
    res y W1 b1 W2 b2 (ix2 p n)
      = y (ix2 p n) * (out y W1 b1 W2 b2 (ix2 p n) - ∑ q : Fin 4096, y (ix2 p q) * out y W1 b1 W2 b2 (ix2 p q)) := rfl

/-! ## A sum of 4096 terms as 16 runs of 256 -/

section Runs
variable {M : Type*} [AddCommMonoid M]

/-- Position r of run kb among 4096 positions. -/
def pos (kb : Fin 16) (r : Fin 256) : Fin 4096 := ⟨256 * kb.val + r.val, by have := kb.isLt; have := r.isLt; omega⟩

@[simp] theorem pos_val (kb : Fin 16) (r : Fin 256) : (pos kb r).val = 256 * kb.val + r.val := rfl

/-- A sum over 4096 positions is the sum over the 16 runs of each run's 256 terms. -/
theorem sum_runs (f : Fin 4096 → M) : ∑ k : Fin 4096, f k = ∑ kb : Fin 16, ∑ r : Fin 256, f (pos kb r) := by
  rw [← Fintype.sum_prod_type' (f := fun kb r => f (pos kb r))]
  refine (Equiv.sum_comp (finProdFinEquiv (m := 16) (n := 256)) f).symm.trans ?_
  refine Finset.sum_congr rfl fun x _ => congrArg f (Fin.ext ?_)
  show x.2.val + 256 * x.1.val = 256 * x.1.val + x.2.val
  omega

/-- The same with the runs counted by naturals below 16, as a grid counts them. -/
theorem sum_runs_range (f : Fin 4096 → M) (T : ℕ → M)
    (hT : ∀ kb : Fin 16, T kb.val = ∑ r : Fin 256, f (pos kb r)) :
    ∑ j ∈ Finset.range 16, T j = ∑ k : Fin 4096, f k := by
  rw [sum_runs, Finset.sum_range]
  exact Finset.sum_congr rfl fun kb _ => hT kb

/-- An accumulator that starts from zero at run 0 and adds one run's term at a time. -/
def accum (T : ℕ → M) : ℕ → M
  | 0 => 0 + T 0
  | n + 1 => accum T n + T (n + 1)

/-- After run n it holds the sum of the terms of runs 0 to n. -/
theorem accum_eq_sum (T : ℕ → M) (n : ℕ) : accum T n = ∑ j ∈ Finset.range (n + 1), T j := by
  induction n with
  | zero => rw [Finset.sum_range_one]; exact zero_add _
  | succ n ih => rw [Finset.sum_range_succ, ← ih]; rfl

/-- So when run kb's term is that run's partial sum of `f`, the accumulator after the last run is the whole sum. -/
theorem accum_runs (f : Fin 4096 → M) (T : ℕ → M)
    (hT : ∀ kb : Fin 16, T kb.val = ∑ r : Fin 256, f (pos kb r)) :
    accum T 15 = ∑ k : Fin 4096, f k :=
  (accum_eq_sum T 15).trans (sum_runs_range f T hT)

end Runs

end Cert.KI.Spec

end
-- ==== Proof.KI.Lin0Pieces.lean ====
/-
  What each control case of the first linear layer leaves, as values: the accumulator after a point with k = 0 is
  the tile-product payload over the zero block; after any other point it is that payload over the accumulator the
  point found; and at k = 15 the output block is the bias payload of that accumulator. Each is read off the case's
  covering store: the loads in it read whole buffers, and a load of the accumulator after a store into it reads the
  value just stored.
-/
import proofs.«159323_j55448027791577_2_alg».proof.Proof.KI.Lin0Data
import Idealize.ShloMosaic.Lib.Pipeline.Value

set_option maxRecDepth 16384

noncomputable section

namespace Cert.KernelIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem offs_zero : (![0, 0] : Fin 2 → Nat) = fun _ => 0 := funext fun a => by fin_cases a <;> rfl

/-- After a point with 0 < k < 15: the found accumulator plus the tile product. -/
theorem accMid_eq (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : ¬emits i) (x0 : Vec F S1024x256 .f32) (x1 : Vec F S2048x256 .f32) (x2 : Vec F S1x2048 .f32) (xs : Vec F S1024x2048 .f32) :
    accMid c i arg3 harg3 arg4 harg4 arg5 harg5 arg6 harg6 arg7 harg7 hz he x0 x1 x2 xs = k0_pay2 x0 x1 xs := by
  unfold accMid
  rw [View.read_writes_eq_canon _ _ _ (accCoverMid c i arg3 harg3 arg4 harg4 arg5 harg5 arg6 harg6 arg7 harg7 hz he x0 x1 x2 xs)]
  unfold runMid
  dsimp only
  sl_unfold_words
  rw [View.canon_unit_zero offs_zero]
  simp only [View.readAt_eq_ld, harg3.read_unread, harg4.read_unread, harg7.read_unread, View.ld_unit_zero (S := S1024x256) offs_zero, View.ld_unit_zero (S := S2048x256) offs_zero, View.ld_unit_zero (S := S1024x2048) offs_zero]

/-- After a point with k = 0: the zero block plus the tile product. -/
theorem accFirst_eq (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : zeroes i) (he : ¬emits i) (x0 : Vec F S1024x256 .f32) (x1 : Vec F S2048x256 .f32) (x2 : Vec F S1x2048 .f32) :
    accFirst c i arg3 harg3 arg4 harg4 arg5 harg5 arg6 harg6 arg7 harg7 hz he x0 x1 x2 = k0_pay2 x0 x1 (k0_pay1 (F := F)) := by
  unfold accFirst
  rw [View.read_writes_eq_canon _ _ _ (accCoverFirst c i arg3 harg3 arg4 harg4 arg5 harg5 arg6 harg6 arg7 harg7 hz he x0 x1 x2)]
  unfold runFirst
  dsimp only
  sl_unfold_words
  rw [View.canon_cons_unit_zero (S := S1024x2048) offs_zero, View.readCov_unit_zero (S := S1024x2048) _ offs_zero]
  simp only [View.readAt_eq_ld, harg3.read_unread, harg4.read_unread, View.ld_unit_zero (S := S1024x256) offs_zero, View.ld_unit_zero (S := S2048x256) offs_zero, View.ld_unit_zero (S := S1024x2048) offs_zero]

/-- After a point with k = 15 the accumulator is again the found one plus the tile product, -/
theorem accLast_eq (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) :
    accLast c i arg3 harg3 arg4 harg4 arg5 harg5 arg6 harg6 arg7 harg7 hz he x0 x1 x2 xs = k0_pay2 x0 x1 xs := by
  unfold accLast
  rw [View.read_writes_eq_canon _ _ _ (accCoverLast c i arg3 harg3 arg4 harg4 arg5 harg5 arg6 harg6 arg7 harg7 hz he x0 x1 x2 xs)]
  unfold runLast
  dsimp only
  sl_unfold_words
  rw [View.canon_unit_zero offs_zero]
  simp only [View.readAt_eq_ld, harg3.read_unread, harg4.read_unread, harg7.read_unread, View.ld_unit_zero (S := S1024x256) offs_zero, View.ld_unit_zero (S := S2048x256) offs_zero, View.ld_unit_zero (S := S1024x2048) offs_zero]

/-- and the output block is that accumulator plus the bias row. -/
theorem outLast_eq (c : Dev nD) (i : grid0.Coords) (arg3 : Memref sig .tc .vmem S1024x256 .f32) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hz : ¬zeroes i) (he : emits i) (x0 : Vec F S1024x256 .f32) (x1 : Vec F S2048x256 .f32) (x2 : Vec F S1x2048 .f32) (xs : Vec F S1024x2048 .f32) :
    outLast c i arg3 harg3 arg4 harg4 arg5 harg5 arg6 harg6 arg7 harg7 hz he x0 x1 x2 xs = k0_pay3 (k0_pay2 x0 x1 xs) x2 := by
  unfold outLast
  rw [View.read_writes_eq_canon _ _ _ (outCoverLast c i arg3 harg3 arg4 harg4 arg5 harg5 arg6 harg6 arg7 harg7 hz he x0 x1 x2 xs)]
  unfold runLast
  dsimp only
  sl_unfold_words
  rw [View.canon_unit_zero offs_zero, View.readCov_unit_zero (S := S1024x2048) _ offs_zero]
  simp only [View.readAt_eq_ld, harg3.read_unread, harg4.read_unread, harg5.read_unread, harg7.read_unread, View.ld_unit_zero (S := S1024x256) offs_zero, View.ld_unit_zero (S := S2048x256) offs_zero, View.ld_unit_zero (S := S1x2048) offs_zero, View.ld_unit_zero (S := S1024x2048) offs_zero]

end Cert.KernelIdeal.Lin0

end
-- ==== Proof.KI.Lin0Chain.lean ====
/-
  The first linear layer's accumulator as a chain over the grid points in order: at a point with k = 0 it is the tile
  product over the zero block; at any other point it is the tile product over what the point before left; and at a point
  with k = 15 the output block is the bias payload of the accumulator that point leaves.  The points are numbered by
  naturals (wrapped below 64, so that the tiles are defined at every natural) for the induction along the chain.
-/
import proofs.«159323_j55448027791577_2_alg».proof.Proof.KI.Lin0Pieces

set_option pp.maxSteps 5000
set_option pp.deepTerms false

noncomputable section

namespace Cert.KI.Lin0V

open Idealize.ShloMosaic Idealize.ShloMosaic.TcCoe
open Idealize.ShloMosaic.Pipeline (Dat)
open Cert.KernelIdeal Cert.KernelIdeal.Gen Cert.KernelIdeal.Lin0

variable {F : FTy → Type} [FloatOps F]
variable (V : (c : Dev nD) → (b : Ref sig .tc) → Buf (Elt F) ((c : Thread nD τ).loc b))

/-! ## At a grid point -/

/-- After a point with k = 0. -/
theorem acc_first (c : Dev nD) (t : Fin cfg0.N) (h0 : t.val % 16 = 0) :
    (outsAt0 V c t.val t.isLt).2 = k0_pay2 (iblk0 V c 0 t) (iblk0 V c 1 t) (k0_pay1 (F := F)) := by
  have h1 : ¬t.val % 16 = 15 := by omega
  rw [outsAt0_first V c t h0 h1]
  dsimp only
  exact accFirst_eq c (grid0.coords t) (ms0 t) (hs0 t) (ms1 t) (hs1 t) (ms2 t) (hs2 t) (ms3 t) (hs3 t) accM
      (Memref.isWhole_whole _) ((zeroes_iff t).mpr h0) (fun h => h1 ((emits_iff t).mp h))
      (iblk0 V c 0 t) (iblk0 V c 1 t) (iblk0 V c 2 t)

/-- After a point with k ≠ 0. -/
theorem acc_step (c : Dev nD) (t : Fin cfg0.N) (h0 : ¬t.val % 16 = 0) :
    (outsAt0 V c t.val t.isLt).2
      = k0_pay2 (iblk0 V c 0 t) (iblk0 V c 1 t) (outsAt0 V c (t.val - 1) (Nat.lt_of_le_of_lt (Nat.sub_le _ _) t.isLt)).2 := by
  by_cases h1 : t.val % 16 = 15
  · rw [outsAt0_last V c t h0 h1]
    dsimp only
    exact accLast_eq c (grid0.coords t) (ms0 t) (hs0 t) (ms1 t) (hs1 t) (ms2 t) (hs2 t) (ms3 t) (hs3 t) accM
      (Memref.isWhole_whole _) (fun h => h0 ((zeroes_iff t).mp h)) ((emits_iff t).mpr h1)
      (iblk0 V c 0 t) (iblk0 V c 1 t) (iblk0 V c 2 t) (outsAt0 V c (t.val - 1) (Nat.lt_of_le_of_lt (Nat.sub_le _ _) t.isLt)).2
  · rw [outsAt0_mid V c t h0 h1]
    dsimp only
    exact accMid_eq c (grid0.coords t) (ms0 t) (hs0 t) (ms1 t) (hs1 t) (ms2 t) (hs2 t) (ms3 t) (hs3 t) accM
      (Memref.isWhole_whole _) (fun h => h0 ((zeroes_iff t).mp h)) (fun h => h1 ((emits_iff t).mp h))
      (iblk0 V c 0 t) (iblk0 V c 1 t) (iblk0 V c 2 t) (outsAt0 V c (t.val - 1) (Nat.lt_of_le_of_lt (Nat.sub_le _ _) t.isLt)).2

/-- The output block after a point with k = 15: the bias payload of the accumulator that point leaves. -/
theorem out_last (c : Dev nD) (t : Fin cfg0.N) (h1 : t.val % 16 = 15) :
    (outsAt0 V c t.val t.isLt).1 = k0_pay3 (outsAt0 V c t.val t.isLt).2 (iblk0 V c 2 t) := by
  have h0 : ¬t.val % 16 = 0 := by omega
  rw [outsAt0_last V c t h0 h1]
  dsimp only
  rw [accLast_eq c (grid0.coords t) (ms0 t) (hs0 t) (ms1 t) (hs1 t) (ms2 t) (hs2 t) (ms3 t) (hs3 t) accM
      (Memref.isWhole_whole _) (fun h => h0 ((zeroes_iff t).mp h)) ((emits_iff t).mpr h1)
      (iblk0 V c 0 t) (iblk0 V c 1 t) (iblk0 V c 2 t) (outsAt0 V c (t.val - 1) (Nat.lt_of_le_of_lt (Nat.sub_le _ _) t.isLt)).2]
  exact outLast_eq c (grid0.coords t) (ms0 t) (hs0 t) (ms1 t) (hs1 t) (ms2 t) (hs2 t) (ms3 t) (hs3 t) accM
      (Memref.isWhole_whole _) (fun h => h0 ((zeroes_iff t).mp h)) ((emits_iff t).mpr h1)
      (iblk0 V c 0 t) (iblk0 V c 1 t) (iblk0 V c 2 t) (outsAt0 V c (t.val - 1) (Nat.lt_of_le_of_lt (Nat.sub_le _ _) t.isLt)).2

/-! ## Along the naturals -/

/-- Grid point number n, wrapped below 64. -/
def pt (n : ℕ) : Fin cfg0.N := ⟨n % 64, by rw [show cfg0.N = 64 from N_0]; exact Nat.mod_lt _ (by decide)⟩

theorem pt_eq (n : ℕ) (h : n < cfg0.N) : pt n = ⟨n, h⟩ :=
  Fin.ext (Nat.mod_eq_of_lt (by rw [← show cfg0.N = 64 from N_0]; exact h))

/-- The accumulator after point n (past the grid: the zero block, never consulted). -/
def scr (c : Dev nD) (n : ℕ) : Vec F S1024x2048 .f32 :=
  if h : n < cfg0.N then (outsAt0 V c n h).2 else k0_pay1
/-- The activation tile and the weight tile at point n. -/
def tile0 (c : Dev nD) (n : ℕ) : Vec F S1024x256 .f32 := iblk0 V c 0 (pt n)
def tile1 (c : Dev nD) (n : ℕ) : Vec F S2048x256 .f32 := iblk0 V c 1 (pt n)

theorem scr_eq (c : Dev nD) (t : Fin cfg0.N) : scr V c t.val = (outsAt0 V c t.val t.isLt).2 := by
  unfold scr; rw [dif_pos t.isLt]

theorem scr_first (c : Dev nD) (n : ℕ) (hn : n < cfg0.N) (hm : n % 16 = 0) :
    scr V c n = k0_pay2 (tile0 V c n) (tile1 V c n) (k0_pay1 (F := F)) := by
  unfold scr tile0 tile1
  rw [dif_pos hn, pt_eq n hn]
  exact acc_first V c ⟨n, hn⟩ hm

theorem scr_step (c : Dev nD) (n : ℕ) (hn : n < cfg0.N) (hm : n % 16 ≠ 0) :
    scr V c n = k0_pay2 (tile0 V c n) (tile1 V c n) (scr V c (n - 1)) := by
  unfold scr tile0 tile1
  rw [dif_pos hn, dif_pos (Nat.lt_of_le_of_lt (Nat.sub_le _ _) hn), pt_eq n hn]
  exact acc_step V c ⟨n, hn⟩ hm

end Cert.KI.Lin0V

end
-- ==== Proof.KI.Lin0Blocks.lean ====
/-
  Where the first linear layer's blocks sit in their arrays.  The grid point t = 32·i + 16·j + k works on row block i of
  the activation and of the output, on row block j of the weight (one output feature per row), and on column block k of
  both operands.  So entry (p, r) of the activation tile is the array's entry (1024·i + p, 256·k + r), entry (q, r) of the
  weight tile is the weight's entry (2048·j + q, 256·k + r), entry (0, q) of the bias tile is the bias row's entry
  (0, 2048·j + q), and entry (p, q) of the output block goes to the output's entry (1024·i + p, 2048·j + q).
-/
import proofs.«159323_j55448027791577_2_alg».proof.Proof.KI.Lin0Data
import Idealize.ShloMosaic.Lib.ValueIdx
import Idealize.ShloMosaic.Lib.Pipeline.Value

set_option pp.maxSteps 5000
set_option pp.deepTerms false

noncomputable section

namespace Cert.KI.Lin0V

open Idealize.ShloMosaic Idealize.ShloMosaic.TcCoe Idealize.ShloMosaic.ValueIdx
open Idealize.ShloMosaic.Pipeline (Dat)
open Cert.KernelIdeal Cert.KernelIdeal.Gen Cert.KernelIdeal.Lin0

variable {F : FTy → Type} [FloatOps F]
variable (V : (c : Dev nD) → (b : Ref sig .tc) → Buf (Elt F) ((c : Thread nD τ).loc b))

/-- The four index maps over the 64 grid points, in closed form. -/
theorem idx_facts : ∀ t : Fin cfg0.N,
    win0_0.index t (0 : Fin 2) = t.val / 32 ∧ win0_0.index t (1 : Fin 2) = t.val % 16
    ∧ win0_1.index t (0 : Fin 2) = t.val / 16 % 2 ∧ win0_1.index t (1 : Fin 2) = t.val % 16
    ∧ win0_2.index t (0 : Fin 2) = 0 ∧ win0_2.index t (1 : Fin 2) = t.val / 16 % 2
    ∧ win0_3.index t (0 : Fin 2) = t.val / 32 ∧ win0_3.index t (1 : Fin 2) = t.val / 16 % 2 :=
  (by decide +kernel : ∀ t : Fin grid0.N, _)

/-- The activation tile at point t: rows 1024·(t / 32) …, columns 256·(t % 16) … of the array. -/
theorem tile0_apply (c : Dev nD) (t : Fin cfg0.N) (p : Fin 1024) (r : Fin 256) (I : S2048x4096.Idx)
    (h0 : (I 0).val = 1024 * (t.val / 32) + p.val) (h1 : (I 1).val = 256 * (t.val % 16) + r.val) :
    (iblk0 V c 0 t : Vec F S1024x256 .f32) (ix2 p r) = (V c main_arg1 : S2048x4096.Idx → Elt F .f32) I := by
  obtain ⟨e0, e1, -, -, -, -, -, -⟩ := idx_facts t
  unfold iblk0
  rw [View.read_apply]
  show (V c main_arg1 : S2048x4096.Idx → Elt F .f32) _ = (V c main_arg1 : S2048x4096.Idx → Elt F .f32) I
  refine congrArg (V c main_arg1 : S2048x4096.Idx → Elt F .f32) (funext fun a => Fin.ext ?_)
  match a with
  | ⟨0, _⟩ => show win0_0.index t (0 : Fin 2) * 1024 + 1 * p.val = (I 0).val; rw [e0, h0]; omega
  | ⟨1, _⟩ => show win0_0.index t (1 : Fin 2) * 256 + 1 * r.val = (I 1).val; rw [e1, h1]; omega

/-- The weight tile at point t: rows 2048·(t / 16 % 2) …, columns 256·(t % 16) … of the weight. -/
theorem tile1_apply (c : Dev nD) (t : Fin cfg0.N) (q : Fin 2048) (r : Fin 256) (I : S4096x4096.Idx)
    (h0 : (I 0).val = 2048 * (t.val / 16 % 2) + q.val) (h1 : (I 1).val = 256 * (t.val % 16) + r.val) :
    (iblk0 V c 1 t : Vec F S2048x256 .f32) (ix2 q r) = (V c main_arg2 : S4096x4096.Idx → Elt F .f32) I := by
  obtain ⟨-, -, e0, e1, -, -, -, -⟩ := idx_facts t
  unfold iblk0
  rw [View.read_apply]
  show (V c main_arg2 : S4096x4096.Idx → Elt F .f32) _ = (V c main_arg2 : S4096x4096.Idx → Elt F .f32) I
  refine congrArg (V c main_arg2 : S4096x4096.Idx → Elt F .f32) (funext fun a => Fin.ext ?_)
  match a with
  | ⟨0, _⟩ => show win0_1.index t (0 : Fin 2) * 2048 + 1 * q.val = (I 0).val; rw [e0, h0]; omega
  | ⟨1, _⟩ => show win0_1.index t (1 : Fin 2) * 256 + 1 * r.val = (I 1).val; rw [e1, h1]; omega

/-- The bias tile at point t: columns 2048·(t / 16 % 2) … of the one bias row. -/
theorem tile2_apply (c : Dev nD) (t : Fin cfg0.N) (u : Fin 1) (q : Fin 2048) (I : S1x4096.Idx)
    (h1 : (I 1).val = 2048 * (t.val / 16 % 2) + q.val) :
    (iblk0 V c 2 t : Vec F S1x2048 .f32) (ix2 u q) = (V c main_v0 : S1x4096.Idx → Elt F .f32) I := by
  obtain ⟨-, -, -, -, e0, e1, -, -⟩ := idx_facts t
  unfold iblk0
  rw [View.read_apply]
  show (V c main_v0 : S1x4096.Idx → Elt F .f32) _ = (V c main_v0 : S1x4096.Idx → Elt F .f32) I
  refine congrArg (V c main_v0 : S1x4096.Idx → Elt F .f32) (funext fun a => Fin.ext ?_)
  have hu : u.val = 0 := by omega
  have hI0 : (I 0).val = 0 := by have : (I 0).val < 1 := (I 0).isLt; omega
  match a with
  | ⟨0, _⟩ => show win0_2.index t (0 : Fin 2) * 1 + 1 * u.val = (I 0).val; rw [e0, hu, hI0]
  | ⟨1, _⟩ => show win0_2.index t (1 : Fin 2) * 2048 + 1 * q.val = (I 1).val; rw [e1, h1]; omega

/-- Where entry (p, q) of the output block at point t goes in the output array. -/
theorem out_emb (t : Fin cfg0.N) (p : Fin 1024) (q : Fin 2048) (I : S2048x4096.Idx)
    (h0 : (I 0).val = 1024 * (t.val / 32) + p.val) (h1 : (I 1).val = 2048 * (t.val / 16 % 2) + q.val) :
    ((cfg0.win 3).blk t).view.emb (ix2 p q) = I := by
  obtain ⟨-, -, -, -, -, -, e0, e1⟩ := idx_facts t
  refine funext fun a => Fin.ext ?_
  match a with
  | ⟨0, _⟩ => show win0_3.index t (0 : Fin 2) * 1024 + 1 * p.val = (I 0).val; rw [e0, h0]; omega
  | ⟨1, _⟩ => show win0_3.index t (1 : Fin 2) * 2048 + 1 * q.val = (I 1).val; rw [e1, h1]; omega

/-- An index of the output array is in point t's block iff each coordinate is in the block's range on its axis. -/
theorem mem_out (t : Fin cfg0.N) (i : S2048x4096.Idx) :
    i ∈ ((cfg0.win 3).blk t).view.set ↔
      ∀ a : Fin 2, win0_3.index t a * S1024x2048.size a ≤ (i a).val
        ∧ (i a).val < win0_3.index t a * S1024x2048.size a + S1024x2048.size a := by
  show i ∈ ((View.whole main_v1).slice (win0_3.rect t)).set ↔ _
  rw [View.set_slice_whole, Rect.mem_set_unit]
  exact Iff.rfl

/-- Every entry of the output array is in the block of a point that writes back: the one with i = row / 1024,
    j = column / 2048, k = 15. -/
theorem out_cover (i : S2048x4096.Idx) :
    ∃ t : Fin cfg0.N, (cfg0.win 3).flush t = true ∧ i ∈ ((cfg0.win 3).blk t).view.set := by
  have hN : cfg0.N = 64 := N_0
  have hi0 : (i 0).val < 2048 := (i 0).isLt
  have hi1 : (i 1).val < 4096 := (i 1).isLt
  let t : Fin cfg0.N := ⟨32 * ((i 0).val / 1024) + 16 * ((i 1).val / 2048) + 15, by rw [hN]; omega⟩
  have htv : t.val = 32 * ((i 0).val / 1024) + 16 * ((i 1).val / 2048) + 15 := rfl
  refine ⟨t, (flush0_3 t).mpr (by rw [htv]; omega), ?_⟩
  obtain ⟨-, -, -, -, -, -, e0, e1⟩ := idx_facts t
  rw [mem_out]
  intro a
  match a with
  | ⟨0, _⟩ =>
    show win0_3.index t (0 : Fin 2) * 1024 ≤ (i 0).val ∧ (i 0).val < win0_3.index t (0 : Fin 2) * 1024 + 1024
    rw [e0, htv]; omega
  | ⟨1, _⟩ =>
    show win0_3.index t (1 : Fin 2) * 2048 ≤ (i 1).val ∧ (i 1).val < win0_3.index t (1 : Fin 2) * 2048 + 2048
    rw [e1, htv]; omega

end Cert.KI.Lin0V

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRhsT.lean ====
/-
  A matrix product whose right operand is stored transposed, into a zero accumulator, read at an index, at the ideal
  values.

  For an `a × b` left operand and a `c × b` right operand (dimension numbers: contract the left's axis 1 with the
  right's axis 1, no batch axes — `A · Bᵀ`), entry `(p, n)` of the product is `Σ_k A(p, k) · B(n, k)`: the sum of the
  exact products, the zero the accumulator starts from adding nothing.
-/
import Idealize.ShloMosaic.Lib.ValueIdx
import Idealize.ShloMosaic.PureOps.Ideal.Laws
import proofs.«159323_j55448027791577_2_alg».proof.Proof.LibMatmulZero

noncomputable section

namespace Cert.LibMatmulRhsT

open Idealize.ShloMosaic Idealize.ShloMosaic.ValueIdx

variable {a b c : ℕ}

/-- The dimension numbers of an `a × b` by (`c × b`)ᵀ product over the shared axis. -/
abbrev rhsTDims (wf : DotDims.WF ⟨2, ![a, b]⟩ ⟨2, ![c, b]⟩ ⟨2, ![a, c]⟩ [1] [1] [0] [0] [] []) :
    DotDims ⟨2, ![a, b]⟩ ⟨2, ![c, b]⟩ ⟨2, ![a, c]⟩ where
  lhsContracting := [1]
  rhsContracting := [1]
  lhsNonContracting := [0]
  rhsNonContracting := [0]
  lhsBatch := []
  rhsBatch := []
  wf := wf

/-- THE PRODUCT READ AT `(p, n)`, for the record `rhsTDims`. -/
theorem rhsTDims_matmul_apply {φ₁ φ₂ : FTy} (wf : DotDims.WF ⟨2, ![a, b]⟩ ⟨2, ![c, b]⟩ ⟨2, ![a, c]⟩ [1] [1] [0] [0] [] [])
    (A : FVec Ideal ⟨2, ![a, b]⟩ φ₁) (B : FVec Ideal ⟨2, ![c, b]⟩ φ₂) (p : Fin a) (n : Fin c) :
    FloatOps.matmul (rhsTDims wf) none A B (constant ⟨2, ![a, c]⟩ .f32 0x00000000#32) (ix2 p n)
      = ∑ k : Fin b, A (ix2 p k) * B (ix2 n k) := by
  refine Cert.LibMatmulZero.matmul_zero_apply (rhsTDims wf) b rfl rfl A B (ix2 p n) (fun k => ix2 p k) (fun k => ix2 n k) ?_ ?_
  · intro k ax
    match ax with
    | ⟨0, _⟩ =>
      show ((rhsTDims wf).lhsIdx (ix2 p n) ((contrEquiv1 (rhsTDims wf) b rfl rfl).symm k) 0).val = p.val
      unfold DotDims.lhsIdx
      rw [dif_neg (show ¬(0 : Fin 2) ∈ (rhsTDims wf).lhsBatch from List.not_mem_nil),
        dif_pos (show (0 : Fin 2) ∈ (rhsTDims wf).lhsNonContracting from List.mem_singleton.mpr rfl)]
      rfl
    | ⟨1, _⟩ =>
      exact ((rhsTDims wf).lhsIdx_val_of_single rfl (ix2 p n) _).trans (contrEquiv1_symm_val (rhsTDims wf) b rfl rfl k)
  · intro k ax
    match ax with
    | ⟨0, _⟩ =>
      show ((rhsTDims wf).rhsIdx (ix2 p n) ((contrEquiv1 (rhsTDims wf) b rfl rfl).symm k) 0).val = n.val
      unfold DotDims.rhsIdx
      rw [dif_neg (show ¬(0 : Fin 2) ∈ (rhsTDims wf).rhsBatch from List.not_mem_nil),
        dif_pos (show (0 : Fin 2) ∈ (rhsTDims wf).rhsNonContracting from List.mem_singleton.mpr rfl)]
      rfl
    | ⟨1, _⟩ =>
      exact ((rhsTDims wf).rhsIdx_val_of_single rfl (ix2 p n) _).trans (contrEquiv1_symm_val (rhsTDims wf) b rfl rfl k)

/-- THE PRODUCT READ AT `(p, n)`, for any dimension-number record with the six lists of such a product (each
    hypothesis is `rfl` for a record written with those literal fields, whatever proves its `wf`). -/
theorem matmul_rhsT_apply {φ₁ φ₂ : FTy} (d : DotDims ⟨2, ![a, b]⟩ ⟨2, ![c, b]⟩ ⟨2, ![a, c]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![a, b]⟩ φ₁) (B : FVec Ideal ⟨2, ![c, b]⟩ φ₂) (p : Fin a) (n : Fin c) :
    FloatOps.matmul d none A B (constant ⟨2, ![a, c]⟩ .f32 0x00000000#32) (ix2 p n)
      = ∑ k : Fin b, A (ix2 p k) * B (ix2 n k) := by
  obtain ⟨lc, rc, ln, rn, lb, rb, wf⟩ := d
  dsimp only at hlc hrc hln hrn hlb hrb
  subst hlc hrc hln hrn hlb hrb
  exact rhsTDims_matmul_apply wf A B p n

end Cert.LibMatmulRhsT

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.Payloads.lean ====
/-
  What each store of the three kernels writes, read at one entry, over the extended reals.

  The linear kernel's three stores: the accumulator is set to zero; the accumulator gains, at (p, q), the inner product
  of row p of the activation tile with row q of the weight tile (the weight tile holds one output feature per row, so
  the product contracts the second axis of both; rounding a tile to a narrower format changes nothing here); and the
  output block is the accumulator plus the bias row repeated down the rows.  The second linear kernel differs only in
  the formats of its activation tile and of its output, which is again no difference here.

  The combine kernel's one store: at (p, n), y(p, n) times the difference between o(p, n) and the inner product of
  the two p-th rows, which the kernel forms as a lane sum kept as a column and repeated along the row.
-/
import proofs.«159323_j55448027791577_2_alg».proof.Proof.Gen.KernelIdeal.Skeleton
import proofs.«159323_j55448027791577_2_alg».proof.Proof.LibMatmulRhsT
import proofs.«159323_j55448027791577_2_alg».proof.Proof.LibRowOps
import proofs.«159323_j55448027791577_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.KI.Pay

open Cert.KernelIdeal Cert.KernelIdeal.Gen Idealize.ShloMosaic Idealize.ShloMosaic.ValueIdx

/-! ## The first linear kernel -/

/-- The reset store writes zero everywhere. -/
theorem k0_pay1_apply (p : Fin 1024) (q : Fin 2048) : (k0_pay1 (F := Ideal) (ix2 p q) : EReal) = 0 := by
  show shapeCast S1024x2048 (broadcast S1024x2048 (Scalar.ofBits (F := Ideal) .f32 0x00000000#32))
    shapeCasts_S1024x2048_S1024x2048 (ix2 p q) = (0 : EReal)
  rw [shapeCast_self]
  exact Ideal.ofBits_zero_f32

/-- The accumulating store: the accumulator's entry plus row p of the activation tile against row q of the weight tile. -/
theorem k0_pay2_apply (x0 : Vec Ideal S1024x256 .f32) (x1 : Vec Ideal S2048x256 .f32) (acc : Vec Ideal S1024x2048 .f32)
    (p : Fin 1024) (q : Fin 2048) :
    (k0_pay2 x0 x1 acc (ix2 p q) : EReal)
      = (acc (ix2 p q) : EReal) + ∑ r : Fin 256, (x0 (ix2 p r) : EReal) * (x1 (ix2 q r) : EReal) := by
  show shapeCast S1024x2048 (addf acc (matmul (F := Ideal) dot_S1024x256_S2048x256_S1024x2048_1_1_0_0_n_n none
      (truncf (F := Ideal) .bf16 x0 bitsLt_bf16_f32) (truncf (F := Ideal) .bf16 x1 bitsLt_bf16_f32) (constant (F := Ideal) S1024x2048 .f32 0x00000000#32)))
    shapeCasts_S1024x2048_S1024x2048 (ix2 p q) = _
  rw [shapeCast_self]
  refine congrArg ((acc (ix2 p q) : EReal) + ·) ?_
  exact Cert.LibMatmulRhsT.matmul_rhsT_apply dot_S1024x256_S2048x256_S1024x2048_1_1_0_0_n_n rfl rfl rfl rfl rfl rfl
    (truncf (F := Ideal) .bf16 x0 bitsLt_bf16_f32) (truncf (F := Ideal) .bf16 x1 bitsLt_bf16_f32) p q

/-- The closing store: the accumulator's entry plus the bias row's entry q. -/
theorem k0_pay3_apply (acc : Vec Ideal S1024x2048 .f32) (b : Vec Ideal S1x2048 .f32) (p : Fin 1024) (q : Fin 2048) :
    (k0_pay3 acc b (ix2 p q) : EReal) = (acc (ix2 p q) : EReal) + (b (ix2 (0 : Fin 1) q) : EReal) := by
  show (acc (ix2 p q) : EReal) + broadcastTo S1024x2048 (shapeCast S1x2048 b shapeCasts_S1x2048_S1x2048)
    broadcasts_S1x2048_S1024x2048 (ix2 p q) = _
  rw [shapeCast_self, broadcastTo_1b_ab_apply]

/-! ## The second linear kernel -/

/-- The reset store writes zero everywhere. -/
theorem k1_pay1_apply (p : Fin 1024) (q : Fin 2048) : (k1_pay1 (F := Ideal) (ix2 p q) : EReal) = 0 := by
  show shapeCast S1024x2048 (broadcast S1024x2048 (Scalar.ofBits (F := Ideal) .f32 0x00000000#32))
    shapeCasts_S1024x2048_S1024x2048 (ix2 p q) = (0 : EReal)
  rw [shapeCast_self]
  exact Ideal.ofBits_zero_f32

/-- The accumulating store: the accumulator's entry plus row p of the activation tile against row q of the weight tile. -/
theorem k1_pay2_apply (x0 : Vec Ideal S1024x256 .bf16) (x1 : Vec Ideal S2048x256 .f32) (acc : Vec Ideal S1024x2048 .f32)
    (p : Fin 1024) (q : Fin 2048) :
    (k1_pay2 x0 x1 acc (ix2 p q) : EReal)
      = (acc (ix2 p q) : EReal) + ∑ r : Fin 256, (x0 (ix2 p r) : EReal) * (x1 (ix2 q r) : EReal) := by
  show shapeCast S1024x2048 (addf acc (matmul (F := Ideal) dot_S1024x256_S2048x256_S1024x2048_1_1_0_0_n_n none
      (shapeCast S1024x256 x0 shapeCasts_S1024x256_S1024x256) (truncf (F := Ideal) .bf16 x1 bitsLt_bf16_f32)
      (constant (F := Ideal) S1024x2048 .f32 0x00000000#32)))
    shapeCasts_S1024x2048_S1024x2048 (ix2 p q) = _
  rw [shapeCast_self, shapeCast_self]
  refine congrArg ((acc (ix2 p q) : EReal) + ·) ?_
  exact Cert.LibMatmulRhsT.matmul_rhsT_apply dot_S1024x256_S2048x256_S1024x2048_1_1_0_0_n_n rfl rfl rfl rfl rfl rfl
    x0 (truncf (F := Ideal) .bf16 x1 bitsLt_bf16_f32) p q

/-- The closing store: the accumulator's entry plus the bias row's entry q. -/
theorem k1_pay3_apply (acc : Vec Ideal S1024x2048 .f32) (b : Vec Ideal S1x2048 .f32) (p : Fin 1024) (q : Fin 2048) :
    (k1_pay3 acc b (ix2 p q) : EReal) = (acc (ix2 p q) : EReal) + (b (ix2 (0 : Fin 1) q) : EReal) := by
  show (acc (ix2 p q) : EReal) + broadcastTo S1024x2048 (shapeCast S1x2048 b shapeCasts_S1x2048_S1x2048)
    broadcasts_S1x2048_S1024x2048 (ix2 p q) = _
  rw [shapeCast_self, broadcastTo_1b_ab_apply]

/-! ## The combine kernel -/

/-- The one store: y(p, n) times o(p, n) less the inner product of the two p-th rows. -/
theorem k2_pay1_apply (y o : Vec Ideal S256x4096 .f32) (p : Fin 256) (n : Fin 4096) :
    (k2_pay1 y o (ix2 p n) : EReal)
      = (y (ix2 p n) : EReal) * ((o (ix2 p n) : EReal) - ∑ q : Fin 4096, (y (ix2 p q) : EReal) * (o (ix2 p q) : EReal)) := by
  show (y (ix2 p n) : EReal) * ((shapeCast S256x4096 o shapeCasts_S256x4096_S256x4096 (ix2 p n) : EReal)
    - broadcastTo S256x4096 (shapeCast S256x1 (multiReduction (F := Ideal) .add [1] S256
        (mulf y (shapeCast S256x4096 o shapeCasts_S256x4096_S256x4096)) 0x00000000#32 reduces_S256x4096_S256 (.inl rfl) rfl)
        shapeCasts_S256_S256x1) broadcasts_S256x1_S256x4096 (ix2 p n)) = _
  rw [shapeCast_self, Cert.LibColumn.broadcastTo_a1_ab_apply, Cert.LibColumn.shapeCast_a_a1_apply]
  refine congrArg (fun s : EReal => (y (ix2 p n) : EReal) * ((o (ix2 p n) : EReal) - s)) ?_
  exact Cert.LibRowOps.multiReduction_row_apply (mulf y o) 0x00000000#32 reduces_S256x4096_S256 (.inl rfl) rfl p

end Cert.KI.Pay

end
-- ==== Proof.LibResetChain.lean ====
/-
  Finite sums of extended reals, as a grid accumulator meets them.

  * A range of `a * b` consecutive naturals is `a` runs of `b`: the sum over it is the double sum.
  * A sum of NONNEGATIVE extended reals times a constant is the sum of the products.  (On the extended reals
    `(x + y) * k = x * k + y * k` can fail when `x` and `y` are infinities of opposite signs; between nonnegative
    terms there is no such pair.)
  * An accumulator that restarts from `z` at every `P`-th point and otherwise adds the point's term to what the
    point before left holds, after point `n`, `z` plus the terms since the last restart; at the last point of
    run `c` that is `z` plus the run's `P` terms.
-/
import Mathlib.Data.EReal.Operations
import Mathlib.Algebra.BigOperators.Intervals
import Mathlib.Algebra.Order.BigOperators.Group.Finset

namespace Cert.LibResetChain

open Finset

/-- The sum over `a * b` consecutive naturals is the sum over `a` runs of `b`. -/
theorem sum_range_mul {M : Type*} [AddCommMonoid M] (f : ℕ → M) (a b : ℕ) :
    ∑ i ∈ range (a * b), f i = ∑ i ∈ range a, ∑ j ∈ range b, f (i * b + j) := by
  induction a with
  | zero => simp
  | succ a ih => rw [Nat.succ_mul, Finset.sum_range_add, ih, Finset.sum_range_succ]

/-- A finite sum of nonnegative extended reals times a constant is the sum of the products. -/
theorem sum_mul_of_nonneg {ι : Type*} (s : Finset ι) (g : ι → EReal) (k : EReal) (hg : ∀ i ∈ s, 0 ≤ g i) :
    (∑ i ∈ s, g i) * k = ∑ i ∈ s, g i * k := by
  classical
  induction s using Finset.induction_on with
  | empty => simp
  | insert a s ha ih =>
    rw [Finset.sum_insert ha, Finset.sum_insert ha,
      EReal.right_distrib_of_nonneg (hg a (Finset.mem_insert_self a s))
        (Finset.sum_nonneg fun i hi => hg i (Finset.mem_insert_of_mem hi)),
      ih fun i hi => hg i (Finset.mem_insert_of_mem hi)]

/-- The point before a point that is not first in its run is in the same run, one place earlier. -/
theorem pred_div_mod (P : ℕ) (hP : 0 < P) (n q r : ℕ) (h : P * q + r = n + 1) (hlt : r < P) (hne : r ≠ 0) :
    n / P = q ∧ n % P = r - 1 := by
  have hn' : n = P * q + (r - 1) := by omega
  constructor
  · rw [hn', Nat.mul_add_div hP, Nat.div_eq_of_lt (by omega), Nat.add_zero]
  · rw [hn', Nat.mul_add_mod, Nat.mod_eq_of_lt (by omega)]

/-- The restarting accumulator after point `n`: `z` plus the terms of the points since the last restart. -/
theorem chain_closed {M : Type*} [AddCommMonoid M] (P : ℕ) (hP : 0 < P) (acc T : ℕ → M) (z : M) (N : ℕ)
    (h0 : ∀ n, n < N → n % P = 0 → acc n = z + T n)
    (hs : ∀ n, n < N → n % P ≠ 0 → acc n = acc (n - 1) + T n) :
    ∀ n, n < N → acc n = z + ∑ j ∈ range (n % P + 1), T (P * (n / P) + j) := by
  intro n
  induction n with
  | zero =>
    intro hn
    rw [h0 0 hn (Nat.zero_mod P), Nat.zero_mod, Nat.zero_div, Finset.sum_range_one, Nat.mul_zero]
  | succ n ih =>
    intro hn
    have hdm : P * ((n + 1) / P) + (n + 1) % P = n + 1 := Nat.div_add_mod (n + 1) P
    by_cases hm : (n + 1) % P = 0
    · rw [h0 (n + 1) hn hm, hm, Finset.sum_range_one]
      rw [hm, Nat.add_zero] at hdm
      rw [Nat.add_zero, hdm]
    · obtain ⟨hq, hrm⟩ := pred_div_mod P hP n _ _ hdm (Nat.mod_lt _ hP) hm
      have hr : (n + 1) % P - 1 + 1 = (n + 1) % P := Nat.sub_add_cancel (Nat.pos_of_ne_zero hm)
      rw [hs (n + 1) hn hm, Nat.add_sub_cancel, ih (Nat.lt_of_succ_lt hn), hq, hrm, hr,
        Finset.sum_range_succ _ ((n + 1) % P), hdm, add_assoc]

/-- At the last point of run `c` the accumulator holds `z` plus that run's `P` terms. -/
theorem chain_run_end {M : Type*} [AddCommMonoid M] (P : ℕ) (hP : 0 < P) (acc T : ℕ → M) (z : M) (N : ℕ)
    (h0 : ∀ n, n < N → n % P = 0 → acc n = z + T n)
    (hs : ∀ n, n < N → n % P ≠ 0 → acc n = acc (n - 1) + T n) (c : ℕ) (hc : P * c + (P - 1) < N) :
    acc (P * c + (P - 1)) = z + ∑ j ∈ range P, T (P * c + j) := by
  have h1 : (P * c + (P - 1)) % P = P - 1 := by rw [Nat.mul_add_mod, Nat.mod_eq_of_lt (by omega)]
  have h2 : (P * c + (P - 1)) / P = c := by rw [Nat.mul_add_div hP, Nat.div_eq_of_lt (by omega), Nat.add_zero]
  rw [chain_closed P hP acc T z N h0 hs _ hc, h1, h2, Nat.sub_add_cancel hP]

end Cert.LibResetChain
-- ==== Proof.KI.Entries.lean ====
/-
  One entry of each kernel's output block, as the specification's entry, from what the grid points compute.

  A linear kernel visits the 16 tiles of the contracted axis one grid point after the other.  At the first of them it
  restarts its accumulator from zero; at each it adds, at (p, q), the inner product of the two tiles' rows; at the last
  it writes the accumulator plus the bias row.  When tile kb of the activation holds columns 256·kb … 256·kb + 255 of
  row P of the array, and tile kb of the weight the same columns of row Q, the entry written is the specification's
  linear layer at (P, Q): the 16 partial sums are the 4096-term inner product regrouped, which needs only that addition
  commutes and associates.

  The combine kernel holds whole rows, so its entry is the specification's combine entry as soon as its two blocks'
  row p is the arrays' row P.
-/
import proofs.«159323_j55448027791577_2_alg».proof.Proof.KI.Spec
import proofs.«159323_j55448027791577_2_alg».proof.Proof.KI.Payloads
import proofs.«159323_j55448027791577_2_alg».proof.Proof.LibResetChain

set_option pp.maxSteps 5000
set_option pp.deepTerms false

noncomputable section

namespace Cert.KI.Entries

open Cert.KernelIdeal Cert.KernelIdeal.Gen Idealize.ShloMosaic Idealize.ShloMosaic.ValueIdx
open Cert.KI

/-- The arithmetic core: an accumulator over grid points numbered by naturals that restarts from zero at every 16th
    point and otherwise adds the point's term, when the terms of run c are the 16 partial inner products of row P of
    `X` with row Q of `W`, holds after the run's last point the whole inner product; with the bias it is the layer's
    entry. -/
theorem linAt_of_chain {a : ℕ} (X : (⟨2, ![a, 4096]⟩ : Shape).Idx → EReal) (W : (⟨2, ![4096, 4096]⟩ : Shape).Idx → EReal)
    (b : (⟨1, ![4096]⟩ : Shape).Idx → EReal) (P : Fin a) (Q : Fin 4096) (acc T : ℕ → EReal) (N c : ℕ)
    (hc : 16 * c + 15 < N)
    (h0 : ∀ n, n < N → n % 16 = 0 → acc n = 0 + T n)
    (hs : ∀ n, n < N → n % 16 ≠ 0 → acc n = acc (n - 1) + T n)
    (hT : ∀ kb : Fin 16, T (16 * c + kb.val) = ∑ r : Fin 256, X (ix2 P (Spec.pos kb r)) * W (ix2 Q (Spec.pos kb r))) :
    acc (16 * c + 15) + b (ix1 Q) = Spec.linAt X W b P Q := by
  have h := Cert.LibResetChain.chain_run_end 16 (by decide) acc T 0 N h0 hs c hc
  rw [show 16 * c + (16 - 1) = 16 * c + 15 from rfl] at h
  rw [h, zero_add]
  unfold Spec.linAt
  refine congrArg (· + b (ix1 Q)) ?_
  exact Spec.sum_runs_range (fun k => X (ix2 P k) * W (ix2 Q k)) (fun j => T (16 * c + j)) hT

/-- THE FIRST LINEAR KERNEL'S ENTRY.  `scr n`, `x0 n`, `x1 n` are the accumulator after grid point n and the two
    tiles at it; the three hypotheses on `scr` and `ob` are the three stores; `hx0`, `hx1`, `hx2` say where run c's
    tiles and bias row sit in the arrays. -/
theorem lin0_entry (X : (⟨2, ![2048, 4096]⟩ : Shape).Idx → EReal) (W : (⟨2, ![4096, 4096]⟩ : Shape).Idx → EReal)
    (b : (⟨1, ![4096]⟩ : Shape).Idx → EReal)
    (scr : ℕ → Vec Ideal S1024x2048 .f32) (x0 : ℕ → Vec Ideal S1024x256 .f32) (x1 : ℕ → Vec Ideal S2048x256 .f32)
    (x2 : Vec Ideal S1x2048 .f32) (ob : Vec Ideal S1024x2048 .bf16) (N c : ℕ) (hc : 16 * c + 15 < N)
    (h0 : ∀ n, n < N → n % 16 = 0 → scr n = k0_pay2 (x0 n) (x1 n) (k0_pay1 (F := Ideal)))
    (hs : ∀ n, n < N → n % 16 ≠ 0 → scr n = k0_pay2 (x0 n) (x1 n) (scr (n - 1)))
    (hob : ob = k0_pay3 (scr (16 * c + 15)) x2)
    (P : Fin 2048) (Q : Fin 4096) (p : Fin 1024) (q : Fin 2048)
    (hx0 : ∀ (kb : Fin 16) (r : Fin 256), (x0 (16 * c + kb.val) (ix2 p r) : EReal) = X (ix2 P (Spec.pos kb r)))
    (hx1 : ∀ (kb : Fin 16) (r : Fin 256), (x1 (16 * c + kb.val) (ix2 q r) : EReal) = W (ix2 Q (Spec.pos kb r)))
    (hx2 : (x2 (ix2 (0 : Fin 1) q) : EReal) = b (ix1 Q)) :
    (ob (ix2 p q) : EReal) = Spec.linAt X W b P Q := by
  rw [hob, Pay.k0_pay3_apply, hx2]
  refine linAt_of_chain X W b P Q (fun n => (scr n (ix2 p q) : EReal))
    (fun n => ∑ r : Fin 256, (x0 n (ix2 p r) : EReal) * (x1 n (ix2 q r) : EReal)) N c hc ?_ ?_ ?_
  · intro n hn hm
    show (scr n (ix2 p q) : EReal) = _
    rw [h0 n hn hm, Pay.k0_pay2_apply, Pay.k0_pay1_apply]
  · intro n hn hm
    show (scr n (ix2 p q) : EReal) = _
    rw [hs n hn hm, Pay.k0_pay2_apply]
  · intro kb
    exact Finset.sum_congr rfl fun r _ => by rw [hx0 kb r, hx1 kb r]

/-- THE SECOND LINEAR KERNEL'S ENTRY: the same, its activation tile and its output in other formats. -/
theorem lin1_entry (X : (⟨2, ![2048, 4096]⟩ : Shape).Idx → EReal) (W : (⟨2, ![4096, 4096]⟩ : Shape).Idx → EReal)
    (b : (⟨1, ![4096]⟩ : Shape).Idx → EReal)
    (scr : ℕ → Vec Ideal S1024x2048 .f32) (x0 : ℕ → Vec Ideal S1024x256 .bf16) (x1 : ℕ → Vec Ideal S2048x256 .f32)
    (x2 : Vec Ideal S1x2048 .f32) (ob : Vec Ideal S1024x2048 .f32) (N c : ℕ) (hc : 16 * c + 15 < N)
    (h0 : ∀ n, n < N → n % 16 = 0 → scr n = k1_pay2 (x0 n) (x1 n) (k1_pay1 (F := Ideal)))
    (hs : ∀ n, n < N → n % 16 ≠ 0 → scr n = k1_pay2 (x0 n) (x1 n) (scr (n - 1)))
    (hob : ob = k1_pay3 (scr (16 * c + 15)) x2)
    (P : Fin 2048) (Q : Fin 4096) (p : Fin 1024) (q : Fin 2048)
    (hx0 : ∀ (kb : Fin 16) (r : Fin 256), (x0 (16 * c + kb.val) (ix2 p r) : EReal) = X (ix2 P (Spec.pos kb r)))
    (hx1 : ∀ (kb : Fin 16) (r : Fin 256), (x1 (16 * c + kb.val) (ix2 q r) : EReal) = W (ix2 Q (Spec.pos kb r)))
    (hx2 : (x2 (ix2 (0 : Fin 1) q) : EReal) = b (ix1 Q)) :
    (ob (ix2 p q) : EReal) = Spec.linAt X W b P Q := by
  rw [hob, Pay.k1_pay3_apply, hx2]
  refine linAt_of_chain X W b P Q (fun n => (scr n (ix2 p q) : EReal))
    (fun n => ∑ r : Fin 256, (x0 n (ix2 p r) : EReal) * (x1 n (ix2 q r) : EReal)) N c hc ?_ ?_ ?_
  · intro n hn hm
    show (scr n (ix2 p q) : EReal) = _
    rw [h0 n hn hm, Pay.k1_pay2_apply, Pay.k1_pay1_apply]
  · intro n hn hm
    show (scr n (ix2 p q) : EReal) = _
    rw [hs n hn hm, Pay.k1_pay2_apply]
  · intro kb
    exact Finset.sum_congr rfl fun r _ => by rw [hx0 kb r, hx1 kb r]

/-- THE COMBINE KERNEL'S ENTRY: when row p of its two blocks is row P of the arrays `Y` and `O`. -/
theorem combine_entry {a : ℕ} (Y O : (⟨2, ![a, 4096]⟩ : Shape).Idx → EReal) (y o : Vec Ideal S256x4096 .f32)
    (P : Fin a) (p : Fin 256)
    (hy : ∀ q : Fin 4096, (y (ix2 p q) : EReal) = Y (ix2 P q))
    (ho : ∀ q : Fin 4096, (o (ix2 p q) : EReal) = O (ix2 P q)) (n : Fin 4096) :
    (k2_pay1 y o (ix2 p n) : EReal) = Spec.combineAt Y O P n := by
  rw [Pay.k2_pay1_apply, hy n, ho n]
  unfold Spec.combineAt
  refine congrArg (fun s : EReal => Y (ix2 P n) * (O (ix2 P n) - s)) ?_
  exact Finset.sum_congr rfl fun q _ => by rw [hy q, ho q]

end Cert.KI.Entries

end
-- ==== Proof.KI.Lin0Value.lean ====
/-
  The first linear layer's output array, over the extended reals: the specification's linear layer of the activation
  array, the weight array and the bias.

  At a point with k = 15 the block written back holds, at (p, q), the accumulator's 16 partial inner products plus the
  bias entry; the 16 tiles visited since the last restart are the 16 column blocks of row 1024·i + p of the activation and
  of row 2048·j + q of the weight, so the entry is the layer's entry at (1024·i + p, 2048·j + q): the block written back
  is that block of the layer's array.  The four points with k = 15 write the four blocks that tile the array.
-/
import proofs.«159323_j55448027791577_2_alg».proof.Proof.KI.Lin0Chain
import proofs.«159323_j55448027791577_2_alg».proof.Proof.KI.Lin0Blocks
import proofs.«159323_j55448027791577_2_alg».proof.Proof.KI.Entries

set_option pp.maxSteps 5000
set_option pp.deepTerms false

noncomputable section

namespace Cert.KI.Lin0V

open Idealize.ShloMosaic Idealize.ShloMosaic.TcCoe Idealize.ShloMosaic.ValueIdx
open Idealize.ShloMosaic.Pipeline (Dat)
open Cert.KernelIdeal Cert.KernelIdeal.Gen Cert.KernelIdeal.Lin0
open Cert.KI

variable (V : (c : Dev nD) → (b : Ref sig .tc) → Buf (Elt Ideal) ((c : Thread nD τ).loc b))

/-- WHAT A POINT WITH k = 15 WRITES BACK is its block of the layer's array. -/
theorem flushed_eq (c : Dev nD) (bias : (⟨1, ![4096]⟩ : Shape).Idx → EReal)
    (hb : ∀ n : Fin 4096, (V c main_v0 : S1x4096.Idx → EReal) (ix2 (0 : Fin 1) n) = bias (ix1 n))
    (t : Fin cfg0.N) (hf : (cfg0.win 3).flush t = true) :
    (dat0 (F := Ideal) V c).flushed 3 t
      = ((cfg0.win 3).blk t).view.read (Elt Ideal) (Spec.lin (V c main_arg1) (V c main_arg2) bias) := by
  have h1 : t.val % 16 = 15 := (flush0_3 t).mp hf
  have hN : cfg0.N = 64 := N_0
  have ht : t.val < 64 := lt_of_lt_of_eq t.isLt hN
  have e15 : 16 * (t.val / 16) + 15 = t.val := by omega
  show (cfg0.win 3).cut (grid0.coords t) ((dat0 V c).after 3 t) = _
  rw [after0_3, out_last V c t h1, ← scr_eq V c t]
  funext y
  obtain ⟨p, q, rfl⟩ : ∃ (p : Fin 1024) (q : Fin 2048), y = ix2 p q := ⟨y 0, y 1, eq_ix2 y⟩
  have hP : 1024 * (t.val / 32) + p.val < 2048 := by have := p.isLt; omega
  have hQ : 2048 * (t.val / 16 % 2) + q.val < 4096 := by have := q.isLt; omega
  rw [View.read_apply, out_emb t p q (ix2 (⟨_, hP⟩ : Fin 2048) (⟨_, hQ⟩ : Fin 4096)) rfl rfl]
  show (k0_pay3 (scr V c t.val) (iblk0 V c 2 t) (ix2 p q) : EReal)
    = Spec.linAt (V c main_arg1) (V c main_arg2) bias (⟨_, hP⟩ : Fin 2048) (⟨_, hQ⟩ : Fin 4096)
  refine Entries.lin0_entry (V c main_arg1) (V c main_arg2) bias (scr V c) (tile0 V c) (tile1 V c) (iblk0 V c 2 t)
    (k0_pay3 (scr V c t.val) (iblk0 V c 2 t)) cfg0.N (t.val / 16) (by rw [e15]; exact t.isLt)
    (scr_first V c) (scr_step V c) (by rw [e15]) ⟨_, hP⟩ ⟨_, hQ⟩ p q ?_ ?_ ?_
  · intro kb r
    have hkb : kb.val < 16 := kb.isLt
    have hn : 16 * (t.val / 16) + kb.val < cfg0.N := lt_of_lt_of_eq (by omega : 16 * (t.val / 16) + kb.val < 64) hN.symm
    unfold tile0
    rw [pt_eq _ hn]
    exact tile0_apply V c ⟨_, hn⟩ p r (ix2 (⟨_, hP⟩ : Fin 2048) (Spec.pos kb r))
      (by show 1024 * (t.val / 32) + p.val = 1024 * ((16 * (t.val / 16) + kb.val) / 32) + p.val; omega)
      (by show 256 * kb.val + r.val = 256 * ((16 * (t.val / 16) + kb.val) % 16) + r.val; omega)
  · intro kb r
    have hkb : kb.val < 16 := kb.isLt
    have hn : 16 * (t.val / 16) + kb.val < cfg0.N := lt_of_lt_of_eq (by omega : 16 * (t.val / 16) + kb.val < 64) hN.symm
    unfold tile1
    rw [pt_eq _ hn]
    exact tile1_apply V c ⟨_, hn⟩ q r (ix2 (⟨_, hQ⟩ : Fin 4096) (Spec.pos kb r))
      (by show 2048 * (t.val / 16 % 2) + q.val = 2048 * ((16 * (t.val / 16) + kb.val) / 16 % 2) + q.val; omega)
      (by show 256 * kb.val + r.val = 256 * ((16 * (t.val / 16) + kb.val) % 16) + r.val; omega)
  · exact (tile2_apply V c t 0 q (ix2 (0 : Fin 1) (⟨_, hQ⟩ : Fin 4096)) rfl).trans (hb ⟨_, hQ⟩)

/-- THE OUTPUT ARRAY after the region is the layer's array. -/
theorem arr_eq (c : Dev nD) (bias : (⟨1, ![4096]⟩ : Shape).Idx → EReal)
    (hb : ∀ n : Fin 4096, (V c main_v0 : S1x4096.Idx → EReal) (ix2 (0 : Fin 1) n) = bias (ix1 n)) :
    ((dat0 (F := Ideal) V c).arrAt 3 cfg0.N : S2048x4096.Idx → EReal)
      = Spec.lin (V c main_arg1) (V c main_arg2) bias :=
  (dat0 (F := Ideal) V c).arrAt_eq_of_cover 3 (Spec.lin (V c main_arg1) (V c main_arg2) bias)
    (flushed_eq V c bias hb) out_cover

end Cert.KI.Lin0V

end
-- ==== Proof.KI.Lin1Pieces.lean ====
/-
  What each control case of the second linear layer leaves, as values: the accumulator after a point with k = 0 is
  the tile-product payload over the zero block; after any other point it is that payload over the accumulator the
  point found; and at k = 15 the output block is the bias payload of that accumulator. Each is read off the case's
  covering store: the loads in it read whole buffers, and a load of the accumulator after a store into it reads the
  value just stored.
-/
import proofs.«159323_j55448027791577_2_alg».proof.Proof.KI.Lin1Data
import Idealize.ShloMosaic.Lib.Pipeline.Value

set_option maxRecDepth 16384

noncomputable section

namespace Cert.KernelIdeal.Lin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem offs_zero : (![0, 0] : Fin 2 → Nat) = fun _ => 0 := funext fun a => by fin_cases a <;> rfl

/-- After a point with 0 < k < 15: the found accumulator plus the tile product. -/
theorem accMid_eq (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : ¬emits i) (x0 : Vec F S1024x256 .bf16) (x1 : Vec F S2048x256 .f32) (x2 : Vec F S1x2048 .f32) (xs : Vec F S1024x2048 .f32) :
    accMid c i arg3 harg3 arg4 harg4 arg5 harg5 arg6 harg6 arg7 harg7 hz he x0 x1 x2 xs = k1_pay2 x0 x1 xs := by
  unfold accMid
  rw [View.read_writes_eq_canon _ _ _ (accCoverMid c i arg3 harg3 arg4 harg4 arg5 harg5 arg6 harg6 arg7 harg7 hz he x0 x1 x2 xs)]
  unfold runMid
  dsimp only
  sl_unfold_words
  rw [View.canon_unit_zero offs_zero]
  simp only [View.readAt_eq_ld, harg3.read_unread, harg4.read_unread, harg7.read_unread, View.ld_unit_zero (S := S1024x256) offs_zero, View.ld_unit_zero (S := S2048x256) offs_zero, View.ld_unit_zero (S := S1024x2048) offs_zero]

/-- After a point with k = 0: the zero block plus the tile product. -/
theorem accFirst_eq (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : zeroes i) (he : ¬emits i) (x0 : Vec F S1024x256 .bf16) (x1 : Vec F S2048x256 .f32) (x2 : Vec F S1x2048 .f32) :
    accFirst c i arg3 harg3 arg4 harg4 arg5 harg5 arg6 harg6 arg7 harg7 hz he x0 x1 x2 = k1_pay2 x0 x1 (k1_pay1 (F := F)) := by
  unfold accFirst
  rw [View.read_writes_eq_canon _ _ _ (accCoverFirst c i arg3 harg3 arg4 harg4 arg5 harg5 arg6 harg6 arg7 harg7 hz he x0 x1 x2)]
  unfold runFirst
  dsimp only
  sl_unfold_words
  rw [View.canon_cons_unit_zero (S := S1024x2048) offs_zero, View.readCov_unit_zero (S := S1024x2048) _ offs_zero]
  simp only [View.readAt_eq_ld, harg3.read_unread, harg4.read_unread, View.ld_unit_zero (S := S1024x256) offs_zero, View.ld_unit_zero (S := S2048x256) offs_zero, View.ld_unit_zero (S := S1024x2048) offs_zero]

/-- After a point with k = 15 the accumulator is again the found one plus the tile product, -/
theorem accLast_eq (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) :
    accLast c i arg3 harg3 arg4 harg4 arg5 harg5 arg6 harg6 arg7 harg7 hz he x0 x1 x2 xs = k1_pay2 x0 x1 xs := by
  unfold accLast
  rw [View.read_writes_eq_canon _ _ _ (accCoverLast c i arg3 harg3 arg4 harg4 arg5 harg5 arg6 harg6 arg7 harg7 hz he x0 x1 x2 xs)]
  unfold runLast
  dsimp only
  sl_unfold_words
  rw [View.canon_unit_zero offs_zero]
  simp only [View.readAt_eq_ld, harg3.read_unread, harg4.read_unread, harg7.read_unread, View.ld_unit_zero (S := S1024x256) offs_zero, View.ld_unit_zero (S := S2048x256) offs_zero, View.ld_unit_zero (S := S1024x2048) offs_zero]

/-- and the output block is that accumulator plus the bias row. -/
theorem outLast_eq (c : Dev nD) (i : grid1.Coords) (arg3 : Memref sig .tc .vmem S1024x256 .bf16) (harg3 : arg3.IsWhole) (arg4 : Memref sig .tc .vmem S2048x256 .f32) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hz : ¬zeroes i) (he : emits i) (x0 : Vec F S1024x256 .bf16) (x1 : Vec F S2048x256 .f32) (x2 : Vec F S1x2048 .f32) (xs : Vec F S1024x2048 .f32) :
    outLast c i arg3 harg3 arg4 harg4 arg5 harg5 arg6 harg6 arg7 harg7 hz he x0 x1 x2 xs = k1_pay3 (k1_pay2 x0 x1 xs) x2 := by
  unfold outLast
  rw [View.read_writes_eq_canon _ _ _ (outCoverLast c i arg3 harg3 arg4 harg4 arg5 harg5 arg6 harg6 arg7 harg7 hz he x0 x1 x2 xs)]
  unfold runLast
  dsimp only
  sl_unfold_words
  rw [View.canon_unit_zero offs_zero, View.readCov_unit_zero (S := S1024x2048) _ offs_zero]
  simp only [View.readAt_eq_ld, harg3.read_unread, harg4.read_unread, harg5.read_unread, harg7.read_unread, View.ld_unit_zero (S := S1024x256) offs_zero, View.ld_unit_zero (S := S2048x256) offs_zero, View.ld_unit_zero (S := S1x2048) offs_zero, View.ld_unit_zero (S := S1024x2048) offs_zero]

end Cert.KernelIdeal.Lin1

end
-- ==== Proof.KI.Lin1Chain.lean ====
/-
  The second linear layer's accumulator as a chain over the grid points in order: at a point with k = 0 it is the tile
  product over the zero block; at any other point it is the tile product over what the point before left; and at a point
  with k = 15 the output block is the bias payload of the accumulator that point leaves.  The points are numbered by
  naturals (wrapped below 64, so that the tiles are defined at every natural) for the induction along the chain.
-/
import proofs.«159323_j55448027791577_2_alg».proof.Proof.KI.Lin1Pieces

set_option pp.maxSteps 5000
set_option pp.deepTerms false

noncomputable section

namespace Cert.KI.Lin1V

open Idealize.ShloMosaic Idealize.ShloMosaic.TcCoe
open Idealize.ShloMosaic.Pipeline (Dat)
open Cert.KernelIdeal Cert.KernelIdeal.Gen Cert.KernelIdeal.Lin1

variable {F : FTy → Type} [FloatOps F]
variable (V : (c : Dev nD) → (b : Ref sig .tc) → Buf (Elt F) ((c : Thread nD τ).loc b))

/-! ## At a grid point -/

/-- After a point with k = 0. -/
theorem acc_first (c : Dev nD) (t : Fin cfg1.N) (h0 : t.val % 16 = 0) :
    (outsAt1 V c t.val t.isLt).2 = k1_pay2 (iblk1 V c 0 t) (iblk1 V c 1 t) (k1_pay1 (F := F)) := by
  have h1 : ¬t.val % 16 = 15 := by omega
  rw [outsAt1_first V c t h0 h1]
  dsimp only
  exact accFirst_eq c (grid1.coords t) (ms0 t) (hs0 t) (ms1 t) (hs1 t) (ms2 t) (hs2 t) (ms3 t) (hs3 t) accM
      (Memref.isWhole_whole _) ((zeroes_iff t).mpr h0) (fun h => h1 ((emits_iff t).mp h))
      (iblk1 V c 0 t) (iblk1 V c 1 t) (iblk1 V c 2 t)

/-- After a point with k ≠ 0. -/
theorem acc_step (c : Dev nD) (t : Fin cfg1.N) (h0 : ¬t.val % 16 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h1 : t.val % 16 = 15
  · rw [outsAt1_last V c t h0 h1]
    dsimp only
    exact accLast_eq c (grid1.coords t) (ms0 t) (hs0 t) (ms1 t) (hs1 t) (ms2 t) (hs2 t) (ms3 t) (hs3 t) accM
      (Memref.isWhole_whole _) (fun h => h0 ((zeroes_iff t).mp h)) ((emits_iff t).mpr h1)
      (iblk1 V c 0 t) (iblk1 V c 1 t) (iblk1 V c 2 t) (outsAt1 V c (t.val - 1) (Nat.lt_of_le_of_lt (Nat.sub_le _ _) t.isLt)).2
  · rw [outsAt1_mid V c t h0 h1]
    dsimp only
    exact accMid_eq c (grid1.coords t) (ms0 t) (hs0 t) (ms1 t) (hs1 t) (ms2 t) (hs2 t) (ms3 t) (hs3 t) accM
      (Memref.isWhole_whole _) (fun h => h0 ((zeroes_iff t).mp h)) (fun h => h1 ((emits_iff t).mp h))
      (iblk1 V c 0 t) (iblk1 V c 1 t) (iblk1 V c 2 t) (outsAt1 V c (t.val - 1) (Nat.lt_of_le_of_lt (Nat.sub_le _ _) t.isLt)).2

/-- The output block after a point with k = 15: the bias payload of the accumulator that point leaves. -/
theorem out_last (c : Dev nD) (t : Fin cfg1.N) (h1 : t.val % 16 = 15) :
    (outsAt1 V c t.val t.isLt).1 = k1_pay3 (outsAt1 V c t.val t.isLt).2 (iblk1 V c 2 t) := by
  have h0 : ¬t.val % 16 = 0 := by omega
  rw [outsAt1_last V c t h0 h1]
  dsimp only
  rw [accLast_eq c (grid1.coords t) (ms0 t) (hs0 t) (ms1 t) (hs1 t) (ms2 t) (hs2 t) (ms3 t) (hs3 t) accM
      (Memref.isWhole_whole _) (fun h => h0 ((zeroes_iff t).mp h)) ((emits_iff t).mpr h1)
      (iblk1 V c 0 t) (iblk1 V c 1 t) (iblk1 V c 2 t) (outsAt1 V c (t.val - 1) (Nat.lt_of_le_of_lt (Nat.sub_le _ _) t.isLt)).2]
  exact outLast_eq c (grid1.coords t) (ms0 t) (hs0 t) (ms1 t) (hs1 t) (ms2 t) (hs2 t) (ms3 t) (hs3 t) accM
      (Memref.isWhole_whole _) (fun h => h0 ((zeroes_iff t).mp h)) ((emits_iff t).mpr h1)
      (iblk1 V c 0 t) (iblk1 V c 1 t) (iblk1 V c 2 t) (outsAt1 V c (t.val - 1) (Nat.lt_of_le_of_lt (Nat.sub_le _ _) t.isLt)).2

/-! ## Along the naturals -/

/-- Grid point number n, wrapped below 64. -/
def pt (n : ℕ) : Fin cfg1.N := ⟨n % 64, by rw [show cfg1.N = 64 from N_1]; exact Nat.mod_lt _ (by decide)⟩

theorem pt_eq (n : ℕ) (h : n < cfg1.N) : pt n = ⟨n, h⟩ :=
  Fin.ext (Nat.mod_eq_of_lt (by rw [← show cfg1.N = 64 from N_1]; exact h))

/-- The accumulator after point n (past the grid: the zero block, never consulted). -/
def scr (c : Dev nD) (n : ℕ) : Vec F S1024x2048 .f32 :=
  if h : n < cfg1.N then (outsAt1 V c n h).2 else k1_pay1
/-- The activation tile and the weight tile at point n. -/
def tile0 (c : Dev nD) (n : ℕ) : Vec F S1024x256 .bf16 := iblk1 V c 0 (pt n)
def tile1 (c : Dev nD) (n : ℕ) : Vec F S2048x256 .f32 := iblk1 V c 1 (pt n)

theorem scr_eq (c : Dev nD) (t : Fin cfg1.N) : scr V c t.val = (outsAt1 V c t.val t.isLt).2 := by
  unfold scr; rw [dif_pos t.isLt]

theorem scr_first (c : Dev nD) (n : ℕ) (hn : n < cfg1.N) (hm : n % 16 = 0) :
    scr V c n = k1_pay2 (tile0 V c n) (tile1 V c n) (k1_pay1 (F := F)) := by
  unfold scr tile0 tile1
  rw [dif_pos hn, pt_eq n hn]
  exact acc_first V c ⟨n, hn⟩ hm

theorem scr_step (c : Dev nD) (n : ℕ) (hn : n < cfg1.N) (hm : n % 16 ≠ 0) :
    scr V c n = k1_pay2 (tile0 V c n) (tile1 V c n) (scr V c (n - 1)) := by
  unfold scr tile0 tile1
  rw [dif_pos hn, dif_pos (Nat.lt_of_le_of_lt (Nat.sub_le _ _) hn), pt_eq n hn]
  exact acc_step V c ⟨n, hn⟩ hm

end Cert.KI.Lin1V

end
-- ==== Proof.KI.Lin1Blocks.lean ====
/-
  Where the second linear layer's blocks sit in their arrays.  The grid point t = 32·i + 16·j + k works on row block i of
  the activation and of the output, on row block j of the weight (one output feature per row), and on column block k of
  both operands.  So entry (p, r) of the activation tile is the array's entry (1024·i + p, 256·k + r), entry (q, r) of the
  weight tile is the weight's entry (2048·j + q, 256·k + r), entry (0, q) of the bias tile is the bias row's entry
  (0, 2048·j + q), and entry (p, q) of the output block goes to the output's entry (1024·i + p, 2048·j + q).
-/
import proofs.«159323_j55448027791577_2_alg».proof.Proof.KI.Lin1Data
import Idealize.ShloMosaic.Lib.ValueIdx
import Idealize.ShloMosaic.Lib.Pipeline.Value

set_option pp.maxSteps 5000
set_option pp.deepTerms false

noncomputable section

namespace Cert.KI.Lin1V

open Idealize.ShloMosaic Idealize.ShloMosaic.TcCoe Idealize.ShloMosaic.ValueIdx
open Idealize.ShloMosaic.Pipeline (Dat)
open Cert.KernelIdeal Cert.KernelIdeal.Gen Cert.KernelIdeal.Lin1

variable {F : FTy → Type} [FloatOps F]
variable (V : (c : Dev nD) → (b : Ref sig .tc) → Buf (Elt F) ((c : Thread nD τ).loc b))

/-- The four index maps over the 64 grid points, in closed form. -/
theorem idx_facts : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 2) = 0 ∧ win1_2.index t (1 : Fin 2) = t.val / 16 % 2
    ∧ win1_3.index t (0 : Fin 2) = t.val / 32 ∧ win1_3.index t (1 : Fin 2) = t.val / 16 % 2 :=
  (by decide +kernel : ∀ t : Fin grid1.N, _)

/-- The activation tile at point t: rows 1024·(t / 32) …, columns 256·(t % 16) … of the array. -/
theorem tile0_apply (c : Dev nD) (t : Fin cfg1.N) (p : Fin 1024) (r : Fin 256) (I : S2048x4096.Idx)
    (h0 : (I 0).val = 1024 * (t.val / 32) + p.val) (h1 : (I 1).val = 256 * (t.val % 16) + r.val) :
    (iblk1 V c 0 t : Vec F S1024x256 .bf16) (ix2 p r) = (V c main_v1 : S2048x4096.Idx → Elt F .bf16) I := by
  obtain ⟨e0, e1, -, -, -, -, -, -⟩ := idx_facts t
  unfold iblk1
  rw [View.read_apply]
  show (V c main_v1 : S2048x4096.Idx → Elt F .bf16) _ = (V c main_v1 : S2048x4096.Idx → Elt F .bf16) I
  refine congrArg (V c main_v1 : S2048x4096.Idx → Elt F .bf16) (funext fun a => Fin.ext ?_)
  match a with
  | ⟨0, _⟩ => show win1_0.index t (0 : Fin 2) * 1024 + 1 * p.val = (I 0).val; rw [e0, h0]; omega
  | ⟨1, _⟩ => show win1_0.index t (1 : Fin 2) * 256 + 1 * r.val = (I 1).val; rw [e1, h1]; omega

/-- The weight tile at point t: rows 2048·(t / 16 % 2) …, columns 256·(t % 16) … of the weight. -/
theorem tile1_apply (c : Dev nD) (t : Fin cfg1.N) (q : Fin 2048) (r : Fin 256) (I : S4096x4096.Idx)
    (h0 : (I 0).val = 2048 * (t.val / 16 % 2) + q.val) (h1 : (I 1).val = 256 * (t.val % 16) + r.val) :
    (iblk1 V c 1 t : Vec F S2048x256 .f32) (ix2 q r) = (V c main_arg4 : S4096x4096.Idx → Elt F .f32) I := by
  obtain ⟨-, -, e0, e1, -, -, -, -⟩ := idx_facts t
  unfold iblk1
  rw [View.read_apply]
  show (V c main_arg4 : S4096x4096.Idx → Elt F .f32) _ = (V c main_arg4 : S4096x4096.Idx → Elt F .f32) I
  refine congrArg (V c main_arg4 : S4096x4096.Idx → Elt F .f32) (funext fun a => Fin.ext ?_)
  match a with
  | ⟨0, _⟩ => show win1_1.index t (0 : Fin 2) * 2048 + 1 * q.val = (I 0).val; rw [e0, h0]; omega
  | ⟨1, _⟩ => show win1_1.index t (1 : Fin 2) * 256 + 1 * r.val = (I 1).val; rw [e1, h1]; omega

/-- The bias tile at point t: columns 2048·(t / 16 % 2) … of the one bias row. -/
theorem tile2_apply (c : Dev nD) (t : Fin cfg1.N) (u : Fin 1) (q : Fin 2048) (I : S1x4096.Idx)
    (h1 : (I 1).val = 2048 * (t.val / 16 % 2) + q.val) :
    (iblk1 V c 2 t : Vec F S1x2048 .f32) (ix2 u q) = (V c main_v2 : S1x4096.Idx → Elt F .f32) I := by
  obtain ⟨-, -, -, -, e0, e1, -, -⟩ := idx_facts t
  unfold iblk1
  rw [View.read_apply]
  show (V c main_v2 : S1x4096.Idx → Elt F .f32) _ = (V c main_v2 : S1x4096.Idx → Elt F .f32) I
  refine congrArg (V c main_v2 : S1x4096.Idx → Elt F .f32) (funext fun a => Fin.ext ?_)
  have hu : u.val = 0 := by omega
  have hI0 : (I 0).val = 0 := by have : (I 0).val < 1 := (I 0).isLt; omega
  match a with
  | ⟨0, _⟩ => show win1_2.index t (0 : Fin 2) * 1 + 1 * u.val = (I 0).val; rw [e0, hu, hI0]
  | ⟨1, _⟩ => show win1_2.index t (1 : Fin 2) * 2048 + 1 * q.val = (I 1).val; rw [e1, h1]; omega

/-- Where entry (p, q) of the output block at point t goes in the output array. -/
theorem out_emb (t : Fin cfg1.N) (p : Fin 1024) (q : Fin 2048) (I : S2048x4096.Idx)
    (h0 : (I 0).val = 1024 * (t.val / 32) + p.val) (h1 : (I 1).val = 2048 * (t.val / 16 % 2) + q.val) :
    ((cfg1.win 3).blk t).view.emb (ix2 p q) = I := by
  obtain ⟨-, -, -, -, -, -, e0, e1⟩ := idx_facts t
  refine funext fun a => Fin.ext ?_
  match a with
  | ⟨0, _⟩ => show win1_3.index t (0 : Fin 2) * 1024 + 1 * p.val = (I 0).val; rw [e0, h0]; omega
  | ⟨1, _⟩ => show win1_3.index t (1 : Fin 2) * 2048 + 1 * q.val = (I 1).val; rw [e1, h1]; omega

/-- An index of the output array is in point t's block iff each coordinate is in the block's range on its axis. -/
theorem mem_out (t : Fin cfg1.N) (i : S2048x4096.Idx) :
    i ∈ ((cfg1.win 3).blk t).view.set ↔
      ∀ a : Fin 2, win1_3.index t a * S1024x2048.size a ≤ (i a).val
        ∧ (i a).val < win1_3.index t a * S1024x2048.size a + S1024x2048.size a := by
  show i ∈ ((View.whole main_v3).slice (win1_3.rect t)).set ↔ _
  rw [View.set_slice_whole, Rect.mem_set_unit]
  exact Iff.rfl

/-- Every entry of the output array is in the block of a point that writes back: the one with i = row / 1024,
    j = column / 2048, k = 15. -/
theorem out_cover (i : S2048x4096.Idx) :
    ∃ t : Fin cfg1.N, (cfg1.win 3).flush t = true ∧ i ∈ ((cfg1.win 3).blk t).view.set := by
  have hN : cfg1.N = 64 := N_1
  have hi0 : (i 0).val < 2048 := (i 0).isLt
  have hi1 : (i 1).val < 4096 := (i 1).isLt
  let t : Fin cfg1.N := ⟨32 * ((i 0).val / 1024) + 16 * ((i 1).val / 2048) + 15, by rw [hN]; omega⟩
  have htv : t.val = 32 * ((i 0).val / 1024) + 16 * ((i 1).val / 2048) + 15 := rfl
  refine ⟨t, (flush1_3 t).mpr (by rw [htv]; omega), ?_⟩
  obtain ⟨-, -, -, -, -, -, e0, e1⟩ := idx_facts t
  rw [mem_out]
  intro a
  match a with
  | ⟨0, _⟩ =>
    show win1_3.index t (0 : Fin 2) * 1024 ≤ (i 0).val ∧ (i 0).val < win1_3.index t (0 : Fin 2) * 1024 + 1024
    rw [e0, htv]; omega
  | ⟨1, _⟩ =>
    show win1_3.index t (1 : Fin 2) * 2048 ≤ (i 1).val ∧ (i 1).val < win1_3.index t (1 : Fin 2) * 2048 + 2048
    rw [e1, htv]; omega

end Cert.KI.Lin1V

end
-- ==== Proof.KI.Lin1Value.lean ====
/-
  The second linear layer's output array, over the extended reals: the specification's linear layer of the activation
  array, the weight array and the bias.

  At a point with k = 15 the block written back holds, at (p, q), the accumulator's 16 partial inner products plus the
  bias entry; the 16 tiles visited since the last restart are the 16 column blocks of row 1024·i + p of the activation and
  of row 2048·j + q of the weight, so the entry is the layer's entry at (1024·i + p, 2048·j + q): the block written back
  is that block of the layer's array.  The four points with k = 15 write the four blocks that tile the array.
-/
import proofs.«159323_j55448027791577_2_alg».proof.Proof.KI.Lin1Chain
import proofs.«159323_j55448027791577_2_alg».proof.Proof.KI.Lin1Blocks
import proofs.«159323_j55448027791577_2_alg».proof.Proof.KI.Entries

set_option pp.maxSteps 5000
set_option pp.deepTerms false

noncomputable section

namespace Cert.KI.Lin1V

open Idealize.ShloMosaic Idealize.ShloMosaic.TcCoe Idealize.ShloMosaic.ValueIdx
open Idealize.ShloMosaic.Pipeline (Dat)
open Cert.KernelIdeal Cert.KernelIdeal.Gen Cert.KernelIdeal.Lin1
open Cert.KI

variable (V : (c : Dev nD) → (b : Ref sig .tc) → Buf (Elt Ideal) ((c : Thread nD τ).loc b))

/-- WHAT A POINT WITH k = 15 WRITES BACK is its block of the layer's array. -/
theorem flushed_eq (c : Dev nD) (bias : (⟨1, ![4096]⟩ : Shape).Idx → EReal)
    (hb : ∀ n : Fin 4096, (V c main_v2 : S1x4096.Idx → EReal) (ix2 (0 : Fin 1) n) = bias (ix1 n))
    (t : Fin cfg1.N) (hf : (cfg1.win 3).flush t = true) :
    (dat1 (F := Ideal) V c).flushed 3 t
      = ((cfg1.win 3).blk t).view.read (Elt Ideal) (Spec.lin (V c main_v1) (V c main_arg4) bias) := by
  have h1 : t.val % 16 = 15 := (flush1_3 t).mp hf
  have hN : cfg1.N = 64 := N_1
  have ht : t.val < 64 := lt_of_lt_of_eq t.isLt hN
  have e15 : 16 * (t.val / 16) + 15 = t.val := by omega
  show (cfg1.win 3).cut (grid1.coords t) ((dat1 V c).after 3 t) = _
  rw [after1_3, out_last V c t h1, ← scr_eq V c t]
  funext y
  obtain ⟨p, q, rfl⟩ : ∃ (p : Fin 1024) (q : Fin 2048), y = ix2 p q := ⟨y 0, y 1, eq_ix2 y⟩
  have hP : 1024 * (t.val / 32) + p.val < 2048 := by have := p.isLt; omega
  have hQ : 2048 * (t.val / 16 % 2) + q.val < 4096 := by have := q.isLt; omega
  rw [View.read_apply, out_emb t p q (ix2 (⟨_, hP⟩ : Fin 2048) (⟨_, hQ⟩ : Fin 4096)) rfl rfl]
  show (k1_pay3 (scr V c t.val) (iblk1 V c 2 t) (ix2 p q) : EReal)
    = Spec.linAt (V c main_v1) (V c main_arg4) bias (⟨_, hP⟩ : Fin 2048) (⟨_, hQ⟩ : Fin 4096)
  refine Entries.lin1_entry (V c main_v1) (V c main_arg4) bias (scr V c) (tile0 V c) (tile1 V c) (iblk1 V c 2 t)
    (k1_pay3 (scr V c t.val) (iblk1 V c 2 t)) cfg1.N (t.val / 16) (by rw [e15]; exact t.isLt)
    (scr_first V c) (scr_step V c) (by rw [e15]) ⟨_, hP⟩ ⟨_, hQ⟩ p q ?_ ?_ ?_
  · intro kb r
    have hkb : kb.val < 16 := kb.isLt
    have hn : 16 * (t.val / 16) + kb.val < cfg1.N := lt_of_lt_of_eq (by omega : 16 * (t.val / 16) + kb.val < 64) hN.symm
    unfold tile0
    rw [pt_eq _ hn]
    exact tile0_apply V c ⟨_, hn⟩ p r (ix2 (⟨_, hP⟩ : Fin 2048) (Spec.pos kb r))
      (by show 1024 * (t.val / 32) + p.val = 1024 * ((16 * (t.val / 16) + kb.val) / 32) + p.val; omega)
      (by show 256 * kb.val + r.val = 256 * ((16 * (t.val / 16) + kb.val) % 16) + r.val; omega)
  · intro kb r
    have hkb : kb.val < 16 := kb.isLt
    have hn : 16 * (t.val / 16) + kb.val < cfg1.N := lt_of_lt_of_eq (by omega : 16 * (t.val / 16) + kb.val < 64) hN.symm
    unfold tile1
    rw [pt_eq _ hn]
    exact tile1_apply V c ⟨_, hn⟩ q r (ix2 (⟨_, hQ⟩ : Fin 4096) (Spec.pos kb r))
      (by show 2048 * (t.val / 16 % 2) + q.val = 2048 * ((16 * (t.val / 16) + kb.val) / 16 % 2) + q.val; omega)
      (by show 256 * kb.val + r.val = 256 * ((16 * (t.val / 16) + kb.val) % 16) + r.val; omega)
  · exact (tile2_apply V c t 0 q (ix2 (0 : Fin 1) (⟨_, hQ⟩ : Fin 4096)) rfl).trans (hb ⟨_, hQ⟩)

/-- THE OUTPUT ARRAY after the region is the layer's array. -/
theorem arr_eq (c : Dev nD) (bias : (⟨1, ![4096]⟩ : Shape).Idx → EReal)
    (hb : ∀ n : Fin 4096, (V c main_v2 : S1x4096.Idx → EReal) (ix2 (0 : Fin 1) n) = bias (ix1 n)) :
    ((dat1 (F := Ideal) V c).arrAt 3 cfg1.N : S2048x4096.Idx → EReal)
      = Spec.lin (V c main_v1) (V c main_arg4) bias :=
  (dat1 (F := Ideal) V c).arrAt_eq_of_cover 3 (Spec.lin (V c main_v1) (V c main_arg4) bias)
    (flushed_eq V c bias hb) out_cover

end Cert.KI.Lin1V

end
-- ==== Proof.KI.CombValue.lean ====
/-
  The combine region's output array, over the extended reals: the specification's combine of the input array with the
  second layer's array.

  Grid point t holds rows 256·t … 256·t + 255 of both arrays, whole rows, and writes the same rows of the output; what it
  writes at (p, n) is the combine entry of row 256·t + p.  The eight points write the eight row blocks that tile the array.
-/
import proofs.«159323_j55448027791577_2_alg».proof.Proof.KI.CombData
import proofs.«159323_j55448027791577_2_alg».proof.Proof.KI.Entries
import Idealize.ShloMosaic.Lib.ValueIdx
import Idealize.ShloMosaic.Lib.Pipeline.Value

set_option pp.maxSteps 5000
set_option pp.deepTerms false

noncomputable section

namespace Cert.KI.CombV

open Idealize.ShloMosaic Idealize.ShloMosaic.TcCoe Idealize.ShloMosaic.ValueIdx
open Idealize.ShloMosaic.Pipeline (Dat)
open Cert.KernelIdeal Cert.KernelIdeal.Gen Cert.KernelIdeal.Comb
open Cert.KI

section AnyValues
variable {F : FTy → Type} [FloatOps F]
variable (V : (c : Dev nD) → (b : Ref sig .tc) → Buf (Elt F) ((c : Thread nD τ).loc b))

theorem offs_zero2 : (![0, 0] : Fin 2 → Nat) = fun _ => 0 := funext fun a => by fin_cases a <;> rfl

/-- The three index maps over the eight grid points: row block t, the one column block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The body's one store covers its block through zero offsets and its loads read whole blocks: what it leaves is the
    payload of the two input blocks. -/
theorem out2_2_eq (x0 x1 : Vec F S256x4096 .f32) : out2_2 x0 x1 = k2_pay1 x0 x1 := by
  unfold out2_2
  refine (View.canon_unit_zero (S := S256x4096) offs_zero2 inb_S256x4096_S256x4096_0_0 _).trans ?_
  rw [View.ld_unit_zero (S := S256x4096) offs_zero2 inb_S256x4096_S256x4096_0_0 x0,
    View.ld_unit_zero (S := S256x4096) offs_zero2 inb_S256x4096_S256x4096_0_0 x1]

/-- The input array's block at point t: rows 256·t … of the array. -/
theorem blk0_apply (c : Dev nD) (t : Fin cfg2.N) (p : Fin 256) (n : Fin 4096) (I : S2048x4096.Idx)
    (h0 : (I 0).val = 256 * t.val + p.val) (h1 : (I 1).val = n.val) :
    (iblk2 V c 0 t : Vec F S256x4096 .f32) (ix2 p n) = (V c main_arg1 : S2048x4096.Idx → Elt F .f32) I := by
  obtain ⟨e0, e1, -, -, -, -⟩ := idx_facts t
  unfold iblk2
  rw [View.read_apply]
  show (V c main_arg1 : S2048x4096.Idx → Elt F .f32) _ = (V c main_arg1 : S2048x4096.Idx → Elt F .f32) I
  refine congrArg (V c main_arg1 : S2048x4096.Idx → Elt F .f32) (funext fun a => Fin.ext ?_)
  match a with
  | ⟨0, _⟩ => show win2_0.index t (0 : Fin 2) * 256 + 1 * p.val = (I 0).val; rw [e0, h0]; omega
  | ⟨1, _⟩ => show win2_0.index t (1 : Fin 2) * 4096 + 1 * n.val = (I 1).val; rw [e1, h1]; omega

/-- The second layer's array's block at point t: the same rows. -/
theorem blk1_apply (c : Dev nD) (t : Fin cfg2.N) (p : Fin 256) (n : Fin 4096) (I : S2048x4096.Idx)
    (h0 : (I 0).val = 256 * t.val + p.val) (h1 : (I 1).val = n.val) :
    (iblk2 V c 1 t : Vec F S256x4096 .f32) (ix2 p n) = (V c main_v3 : S2048x4096.Idx → Elt F .f32) I := by
  obtain ⟨-, -, e0, e1, -, -⟩ := idx_facts t
  unfold iblk2
  rw [View.read_apply]
  show (V c main_v3 : S2048x4096.Idx → Elt F .f32) _ = (V c main_v3 : S2048x4096.Idx → Elt F .f32) I
  refine congrArg (V c main_v3 : S2048x4096.Idx → Elt F .f32) (funext fun a => Fin.ext ?_)
  match a with
  | ⟨0, _⟩ => show win2_1.index t (0 : Fin 2) * 256 + 1 * p.val = (I 0).val; rw [e0, h0]; omega
  | ⟨1, _⟩ => show win2_1.index t (1 : Fin 2) * 4096 + 1 * n.val = (I 1).val; rw [e1, h1]; omega

/-- Where entry (p, n) of the output block at point t goes in the output array. -/
theorem out_emb (t : Fin cfg2.N) (p : Fin 256) (n : Fin 4096) (I : S2048x4096.Idx)
    (h0 : (I 0).val = 256 * t.val + p.val) (h1 : (I 1).val = n.val) :
    ((cfg2.win 2).blk t).view.emb (ix2 p n) = I := by
  obtain ⟨-, -, -, -, e0, e1⟩ := idx_facts t
  refine funext fun a => Fin.ext ?_
  match a with
  | ⟨0, _⟩ => show win2_2.index t (0 : Fin 2) * 256 + 1 * p.val = (I 0).val; rw [e0, h0]; omega
  | ⟨1, _⟩ => show win2_2.index t (1 : Fin 2) * 4096 + 1 * n.val = (I 1).val; rw [e1, h1]; omega

/-- An index of the output array is in point t's block iff each coordinate is in the block's range on its axis. -/
theorem mem_out (t : Fin cfg2.N) (i : S2048x4096.Idx) :
    i ∈ ((cfg2.win 2).blk t).view.set ↔
      ∀ a : Fin 2, win2_2.index t a * S256x4096.size a ≤ (i a).val
        ∧ (i a).val < win2_2.index t a * S256x4096.size a + S256x4096.size a := by
  show i ∈ ((View.whole main_v4).slice (win2_2.rect t)).set ↔ _
  rw [View.set_slice_whole, Rect.mem_set_unit]
  exact Iff.rfl

/-- Every entry of the output array is in the block of the point t = row / 256, which writes back. -/
theorem out_cover (i : S2048x4096.Idx) :
    ∃ t : Fin cfg2.N, (cfg2.win 2).flush t = true ∧ i ∈ ((cfg2.win 2).blk t).view.set := by
  have hN : cfg2.N = 8 := N_2
  have hi0 : (i 0).val < 2048 := (i 0).isLt
  have hi1 : (i 1).val < 4096 := (i 1).isLt
  let t : Fin cfg2.N := ⟨(i 0).val / 256, lt_of_lt_of_eq (by omega : (i 0).val / 256 < 8) hN.symm⟩
  have htv : t.val = (i 0).val / 256 := rfl
  refine ⟨t, flush2_2 t, ?_⟩
  obtain ⟨-, -, -, -, e0, e1⟩ := idx_facts t
  rw [mem_out]
  intro a
  match a with
  | ⟨0, _⟩ =>
    show win2_2.index t (0 : Fin 2) * 256 ≤ (i 0).val ∧ (i 0).val < win2_2.index t (0 : Fin 2) * 256 + 256
    rw [e0, htv]; omega
  | ⟨1, _⟩ =>
    show win2_2.index t (1 : Fin 2) * 4096 ≤ (i 1).val ∧ (i 1).val < win2_2.index t (1 : Fin 2) * 4096 + 4096
    rw [e1]; omega

end AnyValues

section AtIdeal
variable (V : (c : Dev nD) → (b : Ref sig .tc) → Buf (Elt Ideal) ((c : Thread nD τ).loc b))

/-- WHAT POINT t WRITES BACK is its block of the combined array. -/
theorem flushed_eq (c : Dev nD) (t : Fin cfg2.N) (hf : (cfg2.win 2).flush t = true) :
    (dat2 (F := Ideal) V c).flushed 2 t
      = ((cfg2.win 2).blk t).view.read (Elt Ideal) (Spec.combine (V c main_arg1) (V c main_v3)) := by
  have hN : cfg2.N = 8 := N_2
  have ht : t.val < 8 := lt_of_lt_of_eq t.isLt hN
  show (cfg2.win 2).cut (grid2.coords t) ((dat2 V c).after 2 t) = _
  rw [after2_2, out2_2_eq]
  funext y
  obtain ⟨p, n, rfl⟩ : ∃ (p : Fin 256) (n : Fin 4096), y = ix2 p n := ⟨y 0, y 1, eq_ix2 y⟩
  have hP : 256 * t.val + p.val < 2048 := by have := p.isLt; omega
  rw [View.read_apply, out_emb t p n (ix2 (⟨_, hP⟩ : Fin 2048) n) rfl rfl]
  show (k2_pay1 (iblk2 V c 0 t) (iblk2 V c 1 t) (ix2 p n) : EReal)
    = Spec.combineAt (V c main_arg1) (V c main_v3) (⟨_, hP⟩ : Fin 2048) n
  exact Entries.combine_entry (V c main_arg1) (V c main_v3) (iblk2 V c 0 t) (iblk2 V c 1 t) ⟨_, hP⟩ p
    (fun q => blk0_apply V c t p q (ix2 (⟨_, hP⟩ : Fin 2048) q) rfl rfl)
    (fun q => blk1_apply V c t p q (ix2 (⟨_, hP⟩ : Fin 2048) q) rfl rfl) n

/-- THE OUTPUT ARRAY after the region is the combined array. -/
theorem arr_eq (c : Dev nD) :
    ((dat2 (F := Ideal) V c).arrAt 2 cfg2.N : S2048x4096.Idx → EReal)
      = Spec.combine (V c main_arg1) (V c main_v3) :=
  (dat2 (F := Ideal) V c).arrAt_eq_of_cover 2 (Spec.combine (V c main_arg1) (V c main_v3))
    (flushed_eq V c) out_cover

end AtIdeal

end Cert.KI.CombV

end
-- ==== Proof.KI.Result.lean ====
import proofs.«159323_j55448027791577_2_alg».proof.Proof.KI.Whole
import proofs.«159323_j55448027791577_2_alg».proof.Proof.KI.Spec
import proofs.«159323_j55448027791577_2_alg».proof.Proof.KI.Lin0Value
import proofs.«159323_j55448027791577_2_alg».proof.Proof.KI.Lin1Value
import proofs.«159323_j55448027791577_2_alg».proof.Proof.KI.CombValue
import Idealize.ShloMosaic.Lib.ValueLayout
import Idealize.ShloMosaic.Lib.Pipeline.Value

/-!
# The program's result, as one function of its arguments

At the end of the run the result array holds the combine's output.  The combine read `y` as launched and the second
linear layer's output; the second layer read the first layer's output, the second weight matrix as launched and the
second bias as a row; the first layer read `y`, the first weight matrix and the first bias as a row.  Reshaping a
bias of 4096 entries into a 1 × 4096 row moves no entry.  Substituting each array for what wrote it, the result is
`y * (out - rowsum (y * out))` with `out = (y · W1ᵀ + b1) · W2ᵀ + b2`.
-/

noncomputable section

namespace Cert.KernelIdeal.Result

open Cert.KernelIdeal Cert.KernelIdeal.Gen Idealize.ShloMosaic Idealize.ShloMosaic.TcCoe Idealize.SL.Sem
open Idealize.ShloMosaic.ValueIdx
open Cert.KI

variable (m : (ℓ : Loc nD τ sig) → Buf (Elt Ideal) ℓ) (ρ : Dev nD → PrngReg)

/-- The first bias as the first linear layer finds it: entry n of the row is entry n of the bias. -/
theorem bias1 (c : Dev nD) (n : Fin 4096) :
    (Whole.V1 m ρ c main_v0 : S1x4096.Idx → EReal) (ix2 (0 : Fin 1) n)
      = (m ((c.tc : Thread nD τ).loc main_arg3) : S4096.Idx → EReal) (ix1 n) := by
  rw [Whole.V1_main_v0]
  exact shapeCast_a_1a_apply _ _ 0 n

/-- The second bias as the second linear layer finds it. -/
theorem bias2 (c : Dev nD) (n : Fin 4096) :
    (Whole.V3 m ρ c main_v2 : S1x4096.Idx → EReal) (ix2 (0 : Fin 1) n)
      = (m ((c.tc : Thread nD τ).loc main_arg5) : S4096.Idx → EReal) (ix1 n) := by
  rw [Whole.V3_main_v2]
  exact shapeCast_a_1a_apply _ _ 0 n

/-- The first linear layer's output array: `y · W1ᵀ + b1`. -/
theorem hidden_value (c : Dev nD) :
    ((Lin0.dat0 (F := Ideal) (Whole.V1 m ρ) c).arrAt 3 cfg0.N : S2048x4096.Idx → EReal)
      = Spec.lin (m ((c.tc : Thread nD τ).loc main_arg1)) (m ((c.tc : Thread nD τ).loc main_arg2)) (m ((c.tc : Thread nD τ).loc main_arg3)) := by
  rw [Lin0V.arr_eq (Whole.V1 m ρ) c (m ((c.tc : Thread nD τ).loc main_arg3)) (bias1 m ρ c), Whole.V1_main_arg1, Whole.V1_main_arg2]

/-- The second linear layer's output array: the layer applied to the first layer's output. -/
theorem out_value (c : Dev nD) :
    ((Lin1.dat1 (F := Ideal) (Whole.V3 m ρ) c).arrAt 3 cfg1.N : S2048x4096.Idx → EReal)
      = Spec.out (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  rw [Lin1V.arr_eq (Whole.V3 m ρ) c (m ((c.tc : Thread nD τ).loc main_arg5)) (bias2 m ρ c), Whole.V3_main_v1, hidden_value, Whole.V3_main_arg4]
  rfl

/-- THE RESULT: at the end of the run the result array holds the specification's function of the five float
    arguments. -/
theorem main_v4_value (c : Dev nD) :
    Whole.W5 (F := Ideal) m ρ c (Proc.devRef .tc main_v4)
      = Spec.res (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  rw [Whole.W5_main_v4, CombV.arr_eq (Whole.V4 m ρ) c, Whole.V4_main_arg1, Whole.V4_main_v3, out_value]
  rfl

end Cert.KernelIdeal.Result

end
-- ==== Proof.KI.RefIsSpec.lean ====
/-
  The reference's result, read index by index, is the specification's function of the arguments.

  The reference computes each linear layer as a product with the transposed weight, contracting the shared axis, plus
  the bias broadcast down the rows: entry (p, n) is the sum over k of x(p, k) · W(n, k), plus b(n).  Its second layer
  is the same operation applied to the first layer's result, so one reading of the layer serves both.  The row-wise
  inner product is a sum from the initial value zero, which adds nothing, kept as a column and broadcast back along
  the row.
-/
import proofs.«159323_j55448027791577_2_alg».proof.Proof.Gen.ReferenceIdeal.Read
import proofs.«159323_j55448027791577_2_alg».proof.Proof.KI.Spec

noncomputable section

namespace Cert.KI.RefSpec

open Cert.ReferenceIdeal Cert.ReferenceIdeal.Gen Cert.ReferenceIdeal.Read Idealize.ShloMosaic Idealize.ShloMosaic.ValueIdx
open Cert.KI

/-- One linear layer of the reference: the product with the transposed weight plus the broadcast bias is `Spec.lin`. -/
theorem layer_eq (X : (⟨S2048x4096, .f32⟩ : BufTy).Contents (Elt Ideal)) (W : (⟨S4096x4096, .f32⟩ : BufTy).Contents (Elt Ideal))
    (b : (⟨S4096, .f32⟩ : BufTy).Contents (Elt Ideal)) :
    val_main_v4 (F := Ideal) X W b = Spec.lin X W b := by
  funext i
  obtain ⟨p, n, rfl⟩ : ∃ (p : Fin 2048) (n : Fin 4096), i = ix2 p n := ⟨i 0, i 1, eq_ix2 i⟩
  rw [val_main_v4_apply, val_main_v1_apply, val_main_v3_apply, val_main_v2_apply, Spec.lin_apply]
  have e3 : idx_main_v2 (idx_main_v3 (ix2 p n)) = ix1 n := funext fun a => Fin.ext (by match a with | ⟨0, _⟩ => rfl)
  rw [e3]
  show (∑ k : Fin 4096, _) + _ = _
  refine congrArg (· + b (ix1 n)) (Finset.sum_congr rfl fun k _ => ?_)
  have e1 : lidx_main_v1 (ix2 p n) k = ix2 p k :=
    funext fun a => Fin.ext (by match a with | ⟨0, _⟩ => rfl | ⟨1, _⟩ => rfl)
  have e2 : idx_main_v0 (ridx_main_v1 (ix2 p n) k) = ix2 n k :=
    funext fun a => Fin.ext (by match a with | ⟨0, _⟩ => rfl | ⟨1, _⟩ => rfl)
  rw [val_main_v0_apply, e1, e2]

/-- The reference's second layer is the layer operation applied to the first layer's result. -/
theorem stacked_eq (x1 : (⟨S2048x4096, .f32⟩ : BufTy).Contents (Elt Ideal)) (x2 : (⟨S4096x4096, .f32⟩ : BufTy).Contents (Elt Ideal))
    (x3 : (⟨S4096, .f32⟩ : BufTy).Contents (Elt Ideal)) (x4 : (⟨S4096x4096, .f32⟩ : BufTy).Contents (Elt Ideal))
    (x5 : (⟨S4096, .f32⟩ : BufTy).Contents (Elt Ideal)) :
    val_main_v9 (F := Ideal) x1 x2 x3 x4 x5 = Spec.out x1 x2 x3 x4 x5 := by
  have h : val_main_v9 (F := Ideal) x1 x2 x3 x4 x5 = val_main_v4 (F := Ideal) (val_main_v4 (F := Ideal) x1 x2 x3) x4 x5 := rfl
  rw [h, layer_eq x1 x2 x3, layer_eq]
  rfl

/-- THE REFERENCE'S RESULT is `Spec.res` of the five float arguments it reads. -/
theorem ref_eq_res (x1 : (⟨S2048x4096, .f32⟩ : BufTy).Contents (Elt Ideal)) (x2 : (⟨S4096x4096, .f32⟩ : BufTy).Contents (Elt Ideal))
    (x3 : (⟨S4096, .f32⟩ : BufTy).Contents (Elt Ideal)) (x4 : (⟨S4096x4096, .f32⟩ : BufTy).Contents (Elt Ideal))
    (x5 : (⟨S4096, .f32⟩ : BufTy).Contents (Elt Ideal)) :
    val_main_v15 (F := Ideal) x1 x2 x3 x4 x5 = Spec.res x1 x2 x3 x4 x5 := by
  funext i
  obtain ⟨p, n, rfl⟩ : ∃ (p : Fin 2048) (n : Fin 4096), i = ix2 p n := ⟨i 0, i 1, eq_ix2 i⟩
  rw [val_main_v15_apply, val_main_v14_apply, val_main_v13_apply, val_main_v12_apply, val_main_v11_apply, Spec.res_apply]
  have ez : (val_main_cst (F := Ideal)) (Shape.Idx.first h_S_) = 0 := by
    rw [val_main_cst_apply]; exact Ideal.ofBits_zero_f32
  rw [ez, zero_add]
  show x1 (ix2 p n) * (val_main_v9 (F := Ideal) x1 x2 x3 x4 x5 (ix2 p n) - ∑ k : Fin 4096, _) = _
  rw [stacked_eq]
  refine congrArg (fun s => x1 (ix2 p n) * (Spec.out x1 x2 x3 x4 x5 (ix2 p n) - s)) (Finset.sum_congr rfl fun k _ => ?_)
  have e : idx_main_v11 (idx_main_v12 (idx_main_v13 (ix2 p n))) k = ix2 p k :=
    funext fun a => Fin.ext (by match a with | ⟨0, _⟩ => rfl | ⟨1, _⟩ => rfl)
  rw [e, val_main_v10_apply, stacked_eq]
  rfl

end Cert.KI.RefSpec

end
-- ==== Proof.lean ====
/-
  The kernel and the reference compute one function of their arguments.

  The program is three pipelined regions.  The first two are the same tiled linear layer, out = x · Wᵀ + b with the
  weight stored one output feature per row: the grid walks blocks of 1024 rows by 2048 output features, and for each
  block sixteen runs of 256 of the 4096 contracted features; an accumulator is set to zero at the first run, gains one
  run's partial products at every run, and at the last run the block written out is the accumulator plus the bias row.
  The first layer stores its result in a sixteen-bit format and the second reads it back: on the extended reals a
  change of format is the identity.  The third region combines the input with the second layer's result row by row,
  y * (out - rowsum (y * out)), on eight blocks of 256 whole rows.

  The reference computes each layer as one product with the transposed weight plus the broadcast bias, and the
  combine with one sum along each row.  The one law that joins the two sides is that a sum of 4096 terms is the sum
  of its sixteen runs of 256 terms, accumulated in order from zero: only commutativity and associativity of addition,
  which hold on the extended reals with infinite terms too, so the inputs' finiteness is never used.

  Each program runs to the end without a fault and leaves its arguments as launched; the idealized kernel was printed
  from the kernel with no rewrite, so there is nothing to preserve; and from memories agreeing on the arguments the
  idealized kernel and the idealized reference end with the same result array.
-/
import proofs.«159323_j55448027791577_2_alg».proof.Defs
import proofs.«159323_j55448027791577_2_alg».proof.Proof.Gen.Kernel
import proofs.«159323_j55448027791577_2_alg».proof.Proof.Gen.Kernel.Skeleton
import proofs.«159323_j55448027791577_2_alg».proof.Proof.Gen.Kernel.Launch
import proofs.«159323_j55448027791577_2_alg».proof.Proof.Gen.Kernel.Regions
import proofs.«159323_j55448027791577_2_alg».proof.Proof.Gen.Kernel.Points
import proofs.«159323_j55448027791577_2_alg».proof.Proof.Gen.KernelIdeal
import proofs.«159323_j55448027791577_2_alg».proof.Proof.Gen.KernelIdeal.Skeleton
import proofs.«159323_j55448027791577_2_alg».proof.Proof.Gen.KernelIdeal.Launch
import proofs.«159323_j55448027791577_2_alg».proof.Proof.Gen.KernelIdeal.Regions
import proofs.«159323_j55448027791577_2_alg».proof.Proof.Gen.KernelIdeal.Points
import proofs.«159323_j55448027791577_2_alg».proof.Proof.Gen.ReferenceIdeal
import proofs.«159323_j55448027791577_2_alg».proof.Proof.Gen.ReferenceIdeal.Run
import proofs.«159323_j55448027791577_2_alg».proof.Proof.Gen.Pre_finite_inputs
import proofs.«159323_j55448027791577_2_alg».proof.Proof.K.Whole
import proofs.«159323_j55448027791577_2_alg».proof.Proof.KI.Whole
import proofs.«159323_j55448027791577_2_alg».proof.Proof.KI.Result
import proofs.«159323_j55448027791577_2_alg».proof.Proof.KI.RefIsSpec
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Whole.frame m ρ

/-- So does the idealized program. -/
theorem frame_ki : Cert.frame_KernelIdeal := fun m ρ _ => Cert.KernelIdeal.Whole.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized program is the program's own text: no rewrite to account for. -/
theorem preserves : Cert.preserves_Kernel_KernelIdeal := trivial

/-- From memories agreeing on the arguments both idealized programs end with the result array at the specification's
    function of the five float arguments. -/
theorem algebraic : Cert.algebraic_KernelIdeal_ReferenceIdeal := by
  intro m ρ m' ρ' _ hagree
  refine ⟨fun c => Cert.KI.Spec.res (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ?_) (Cert.KernelIdeal.Whole.run_all (F := Ideal) m ρ)
    exact ⟨(h c _ (Cert.KernelIdeal.Whole.mem_uc Cert.KernelIdeal.main_v4 (by decide))).trans (Cert.KernelIdeal.Result.main_v4_value m ρ c),
      (h c _ (Cert.KernelIdeal.Whole.mem_uc Cert.KernelIdeal.main_arg0 (by decide))).trans (Cert.KernelIdeal.Whole.W5_main_arg0 m ρ c),
      (h c _ (Cert.KernelIdeal.Whole.mem_uc Cert.KernelIdeal.main_arg1 (by decide))).trans (Cert.KernelIdeal.Whole.W5_main_arg1 m ρ c),
      (h c _ (Cert.KernelIdeal.Whole.mem_uc Cert.KernelIdeal.main_arg2 (by decide))).trans (Cert.KernelIdeal.Whole.W5_main_arg2 m ρ c),
      (h c _ (Cert.KernelIdeal.Whole.mem_uc Cert.KernelIdeal.main_arg3 (by decide))).trans (Cert.KernelIdeal.Whole.W5_main_arg3 m ρ c),
      (h c _ (Cert.KernelIdeal.Whole.mem_uc Cert.KernelIdeal.main_arg4 (by decide))).trans (Cert.KernelIdeal.Whole.W5_main_arg4 m ρ c),
      (h c _ (Cert.KernelIdeal.Whole.mem_uc Cert.KernelIdeal.main_arg5 (by decide))).trans (Cert.KernelIdeal.Whole.W5_main_arg5 m ρ c)⟩
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v15_eq, Cert.KI.RefSpec.ref_eq_res, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
